-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v93)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v93) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v139) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S2x500000 : Shape := ⟨2, ![2, 500000]⟩
abbrev S2x128x128 : Shape := ⟨3, ![2, 128, 128]⟩
abbrev S2x128 : Shape := ⟨2, ![2, 128]⟩
abbrev S256x1 : Shape := ⟨2, ![256, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S2x128x128 : S_.BroadcastsInDim S2x128x128 (![] : Fin 0 → Fin S2x128x128.rank)
  reducesTo_S2x128x128_S_d0_1_2 : S2x128x128.ReducesTo [0, 1, 2] S_
  bcast_S_S2x128 : S_.BroadcastsInDim S2x128 (![] : Fin 0 → Fin S2x128.rank)
  reducesTo_S2x128_S_d0_1 : S2x128.ReducesTo [0, 1] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg10 : FVec F S256x1 .f32) (main_arg11 : FVec F S1 .f32) (main_v33 : IVec S_ 1) : IVec S_ 1 :=
  let main_v34 : FVec F S256x1 .f32 := Host.absf main_arg10
  let main_cst_12 : FVec F S_ .f32 := constant S_ .f32 0x7F800000#32
  let main_v35 : FVec F S256x1 .f32 := broadcastInDim S256x1 ![] bcast_S_S256x1 main_cst_12
  let main_v36 : IVec S256x1 1 := cmpf .olt main_v34 main_v35
  let main_c_13 : IVec S_ 1 := constantI S_ 1 1#1
  let main_v37 : IVec S_ 1 := (fun x v => Host.reduce IntOp.andi x v reducesTo_S256x1_S_d0_1 h_S_) main_v36 main_c_13
  let main_v38 : IVec S_ 1 := andi main_v33 main_v37
  let main_v39 : FVec F S1 .f32 := Host.absf main_arg11
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg7 : FVec F S2x128 .f32) (main_arg8 : FVec F S2x128 .f32) (main_arg9 : FVec F S2x128 .f32) (main_arg10 : FVec F S256x1 .f32) (main_arg11 : FVec F S1 .f32) (main_v13 : IVec S_ 1) (main_v16 : IVec S2x128x128 1) : IVec S_ 1 :=
  let main_c_5 : IVec S_ 1 := constantI S_ 1 1#1
  let main_v17 : IVec S_ 1 := (fun x v => Host.reduce IntOp.andi x v reducesTo_S2x128x128_S_d0_1_2 h_S_) main_v16 main_c_5
  let main_v18 : IVec S_ 1 := andi main_v13 main_v17
  let main_v19 : FVec F S2x128 .f32 := Host.absf main_arg7
  let main_cst_6 : FVec F S_ .f32 := constant S_ .f32 0x7F800000#32
  let main_v20 : FVec F S2x128 .f32 := broadcastInDim S2x128 ![] bcast_S_S2x128 main_cst_6
  let main_v21 : IVec S2x128 1 := cmpf .olt main_v19 main_v20
  let main_c_7 : IVec S_ 1 := constantI S_ 1 1#1
  let main_v22 : IVec S_ 1 := (fun x v => Host.reduce IntOp.andi x v reducesTo_S2x128_S_d0_1 h_S_) main_v21 main_c_7
  let main_v23 : IVec S_ 1 := andi main_v18 main_v22
  let main_v24 : FVec F S2x128 .f32 := Host.absf main_arg8
  let main_cst_8 : FVec F S_ .f32 := constant S_ .f32 0x7F800000#32
  let main_v25 : FVec F S2x128 .f32 := broadcastInDim S2x128 ![] bcast_S_S2x128 main_cst_8
  let main_v26 : IVec S2x128 1 := cmpf .olt main_v24 main_v25
  let main_c_9 : IVec S_ 1 := constantI S_ 1 1#1
  let main_v27 : IVec S_ 1 := (fun x v => Host.reduce IntOp.andi x v reducesTo_S2x128_S_d0_1 h_S_) main_v26 main_c_9
  let main_v28 : IVec S_ 1 := andi main_v23 main_v27
  let main_v29 : FVec F S2x128 .f32 := Host.absf main_arg9
  let main_cst_10 : FVec F S_ .f32 := constant S_ .f32 0x7F800000#32
  let main_v30 : FVec F S2x128 .f32 := broadcastInDim S2x128 ![] bcast_S_S2x128 main_cst_10
  let main_v31 : IVec S2x128 1 := cmpf .olt main_v29 main_v30
  let main_c_11 : IVec S_ 1 := constantI S_ 1 1#1
  let main_v32 : IVec S_ 1 := (fun x v => Host.reduce IntOp.andi x v reducesTo_S2x128_S_d0_1 h_S_) main_v31 main_c_11
  let main_v33 : IVec S_ 1 := andi main_v28 main_v32
  fn_part2 (F := F) main_arg10 main_arg11 main_v33

def fn {F : FTy → Type} [FloatOps F] (main_arg0 : FVec F S50000x128 .f32) (main_arg1 : IVec S800000 32) (main_arg2 : IVec S800000 32) (main_arg3 : FVec F S800000 .f32) (main_arg4 : IVec S2x500000 32) (main_arg5 : FVec F S2x128x128 .f32) (main_arg6 : FVec F S2x128x128 .f32) (main_arg7 : FVec F S2x128 .f32) (main_arg8 : FVec F S2x128 .f32) (main_arg9 : FVec F S2x128 .f32) (main_arg10 : FVec F S256x1 .f32) (main_arg11 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S2x128x128 .f32 := Host.absf main_arg5
  let main_cst_2 : FVec F S_ .f32 := constant S_ .f32 0x7F800000#32
  let main_v10 : FVec F S2x128x128 .f32 := broadcastInDim S2x128x128 ![] bcast_S_S2x128x128 main_cst_2
  let main_v11 : IVec S2x128x128 1 := cmpf .olt main_v9 main_v10
  let main_c_3 : IVec S_ 1 := constantI S_ 1 1#1
  let main_v12 : IVec S_ 1 := (fun x v => Host.reduce IntOp.andi x v reducesTo_S2x128x128_S_d0_1_2 h_S_) main_v11 main_c_3
  let main_v13 : IVec S_ 1 := andi main_v8 main_v12
  let main_v14 : FVec F S2x128x128 .f32 := Host.absf main_arg6
  let main_cst_4 : FVec F S_ .f32 := constant S_ .f32 0x7F800000#32
  let main_v15 : FVec F S2x128x128 .f32 := broadcastInDim S2x128x128 ![] bcast_S_S2x128x128 main_cst_4
  let main_v16 : IVec S2x128x128 1 := cmpf .olt main_v14 main_v15
  fn_part1 (F := F) main_arg7 main_arg8 main_arg9 main_arg10 main_arg11 main_v13 main_v16
-- ==== Kernel.lean ====
abbrev S50000x128 : Shape := ⟨2, ![50000, 128]⟩
abbrev S800000 : Shape := ⟨1, ![800000]⟩
abbrev S2x500000 : Shape := ⟨2, ![2, 500000]⟩
abbrev S2x128x128 : Shape := ⟨3, ![2, 128, 128]⟩
abbrev S2x128 : Shape := ⟨2, ![2, 128]⟩
abbrev S256x1 : Shape := ⟨2, ![256, 1]⟩
abbrev S1 : Shape := ⟨1, ![1]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S5000x128 : Shape := ⟨2, ![5000, 128]⟩
abbrev S_ : Shape := ⟨0, ![]⟩
abbrev S800000x1 : Shape := ⟨2, ![800000, 1]⟩
abbrev S800000x128 : Shape := ⟨2, ![800000, 128]⟩
abbrev S1x500000 : Shape := ⟨2, ![1, 500000]⟩
abbrev S500000 : Shape := ⟨1, ![500000]⟩
abbrev S500000x1 : Shape := ⟨2, ![500000, 1]⟩
abbrev S500000x128 : Shape := ⟨2, ![500000, 128]⟩
abbrev S128x1 : Shape := ⟨2, ![128, 1]⟩
abbrev S1x1 : Shape := ⟨2, ![1, 1]⟩
abbrev S10000x128 : Shape := ⟨2, ![10000, 128]⟩
abbrev S10000x1 : Shape := ⟨2, ![10000, 1]⟩

abbrev nBuf : Space → Nat
  | .hbm => 124
  | .vmem => 57
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S2x500000, .i32⟩
  | .hbm, ⟨5, _⟩ => ⟨S2x128x128, .f32⟩
  | .hbm, ⟨6, _⟩ => ⟨S2x128x128, .f32⟩
  | .hbm, ⟨7, _⟩ => ⟨S2x128, .f32⟩
  | .hbm, ⟨8, _⟩ => ⟨S2x128, .f32⟩
  | .hbm, ⟨9, _⟩ => ⟨S2x128, .f32⟩
  | .hbm, ⟨10, _⟩ => ⟨S256x1, .f32⟩
  | .hbm, ⟨11, _⟩ => ⟨S1, .f32⟩
  | .hbm, ⟨12, _⟩ => ⟨S1x128x128, .f32⟩
  | .hbm, ⟨13, _⟩ => ⟨S128x128, .f32⟩
  | .hbm, ⟨14, _⟩ => ⟨S1x128x128, .f32⟩
  | .hbm, ⟨15, _⟩ => ⟨S128x128, .f32⟩
  | .hbm, ⟨16, _⟩ => ⟨S1x128, .f32⟩
  | .hbm, ⟨17, _⟩ => ⟨S128, .f32⟩
  | .hbm, ⟨18, _⟩ => ⟨S1x128, .f32⟩
  | .hbm, ⟨19, _⟩ => ⟨S1x128, .f32⟩
  | .hbm, ⟨20, _⟩ => ⟨S128, .f32⟩
  | .hbm, ⟨21, _⟩ => ⟨S1x128, .f32⟩
  | .hbm, ⟨22, _⟩ => ⟨S1x128, .f32⟩
  | .hbm, ⟨23, _⟩ => ⟨S128, .f32⟩
  | .hbm, ⟨24, _⟩ => ⟨S1x128, .f32⟩
  | .hbm, ⟨25, _⟩ => ⟨S50000x128, .bf16⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000x128, .bf16⟩
  | .hbm, ⟨35, _⟩ => ⟨S800000x1, .f32⟩
  | .hbm, ⟨36, _⟩ => ⟨S800000x128, .f32⟩
  | .hbm, ⟨37, _⟩ => ⟨S800000x128, .f32⟩
  | .hbm, ⟨38, _⟩ => ⟨S800000x128, .f32⟩
  | .hbm, ⟨39, _⟩ => ⟨S_, .f32⟩
  | .hbm, ⟨40, _⟩ => ⟨S50000x128, .f32⟩
  | .hbm, ⟨41, _⟩ => ⟨S800000x1, .i32⟩
  | .hbm, ⟨42, _⟩ => ⟨S50000x128, .f32⟩
  | .hbm, ⟨43, _⟩ => ⟨S50000x128, .f32⟩
  | .hbm, ⟨44, _⟩ => ⟨S1x128, .f32⟩
  | .hbm, ⟨45, _⟩ => ⟨S1x128, .f32⟩
  | .hbm, ⟨46, _⟩ => ⟨S_, .f32⟩
  | .hbm, ⟨47, _⟩ => ⟨S1x128, .f32⟩
  | .hbm, ⟨48, _⟩ => ⟨S1x128, .f32⟩
  | .hbm, ⟨49, _⟩ => ⟨S_, .f32⟩
  | .hbm, ⟨50, _⟩ => ⟨S1x128, .f32⟩
  | .hbm, ⟨51, _⟩ => ⟨S1x128, .f32⟩
  | .hbm, ⟨52, _⟩ => ⟨S1x128, .f32⟩
  | .hbm, ⟨53, _⟩ => ⟨S1x128, .f32⟩
  | .hbm, ⟨54, _⟩ => ⟨S50000x128, .f32⟩
  | .hbm, ⟨55, _⟩ => ⟨S1x128x128, .f32⟩
  | .hbm, ⟨56, _⟩ => ⟨S128x128, .f32⟩
  | .hbm, ⟨57, _⟩ => ⟨S1x128x128, .f32⟩
  | .hbm, ⟨58, _⟩ => ⟨S128x128, .f32⟩
  | .hbm, ⟨59, _⟩ => ⟨S1x128, .f32⟩
  | .hbm, ⟨60, _⟩ => ⟨S128, .f32⟩
  | .hbm, ⟨61, _⟩ => ⟨S1x128, .f32⟩
  | .hbm, ⟨62, _⟩ => ⟨S1x128, .f32⟩
  | .hbm, ⟨63, _⟩ => ⟨S128, .f32⟩
  | .hbm, ⟨64, _⟩ => ⟨S1x128, .f32⟩
  | .hbm, ⟨65, _⟩ => ⟨S1x128, .f32⟩
  | .hbm, ⟨66, _⟩ => ⟨S128, .f32⟩
  | .hbm, ⟨67, _⟩ => ⟨S1x128, .f32⟩
  | .hbm, ⟨68, _⟩ => ⟨S50000x128, .bf16⟩
  | .hbm, ⟨69, _⟩ => ⟨S_, .i32⟩
  | .hbm, ⟨70, _⟩ => ⟨S800000, .i32⟩
  | .hbm, ⟨71, _⟩ => ⟨S800000, .i1⟩
  | .hbm, ⟨72, _⟩ => ⟨S_, .i32⟩
  | .hbm, ⟨73, _⟩ => ⟨S800000, .i32⟩
  | .hbm, ⟨74, _⟩ => ⟨S800000, .i32⟩
  | .hbm, ⟨75, _⟩ => ⟨S800000, .i32⟩
  | .hbm, ⟨76, _⟩ => ⟨S800000x1, .i32⟩
  | .hbm, ⟨77, _⟩ => ⟨S800000x128, .bf16⟩
  | .hbm, ⟨78, _⟩ => ⟨S800000x1, .f32⟩
  | .hbm, ⟨79, _⟩ => ⟨S800000x128, .f32⟩
  | .hbm, ⟨80, _⟩ => ⟨S800000x128, .f32⟩
  | .hbm, ⟨81, _⟩ => ⟨S800000x128, .f32⟩
  | .hbm, ⟨82, _⟩ => ⟨S_, .f32⟩
  | .hbm, ⟨83, _⟩ => ⟨S50000x128, .f32⟩
  | .hbm, ⟨84, _⟩ => ⟨S800000x1, .i32⟩
  | .hbm, ⟨85, _⟩ => ⟨S50000x128, .f32⟩
  | .hbm, ⟨86, _⟩ => ⟨S50000x128, .f32⟩
  | .hbm, ⟨87, _⟩ => ⟨S1x128, .f32⟩
  | .hbm, ⟨88, _⟩ => ⟨S1x128, .f32⟩
  | .hbm, ⟨89, _⟩ => ⟨S_, .f32⟩
  | .hbm, ⟨90, _⟩ => ⟨S1x128, .f32⟩
  | .hbm, ⟨91, _⟩ => ⟨S1x128, .f32⟩
  | .hbm, ⟨92, _⟩ => ⟨S_, .f32⟩
  | .hbm, ⟨93, _⟩ => ⟨S1x128, .f32⟩
  | .hbm, ⟨94, _⟩ => ⟨S1x128, .f32⟩
  | .hbm, ⟨95, _⟩ => ⟨S1x128, .f32⟩
  | .hbm, ⟨96, _⟩ => ⟨S1x128, .f32⟩
  | .hbm, ⟨97, _⟩ => ⟨S50000x128, .bf16⟩
  | .hbm, ⟨98, _⟩ => ⟨S1x500000, .i32⟩
  | .hbm, ⟨99, _⟩ => ⟨S500000, .i32⟩
  | .hbm, ⟨100, _⟩ => ⟨S_, .i32⟩
  | .hbm, ⟨101, _⟩ => ⟨S500000, .i32⟩
  | .hbm, ⟨102, _⟩ => ⟨S500000, .i1⟩
  | .hbm, ⟨103, _⟩ => ⟨S_, .i32⟩
  | .hbm, ⟨104, _⟩ => ⟨S500000, .i32⟩
  | .hbm, ⟨105, _⟩ => ⟨S500000, .i32⟩
  | .hbm, ⟨106, _⟩ => ⟨S500000, .i32⟩
  | .hbm, ⟨107, _⟩ => ⟨S500000x1, .i32⟩
  | .hbm, ⟨108, _⟩ => ⟨S500000x128, .bf16⟩
  | .hbm, ⟨109, _⟩ => ⟨S1x500000, .i32⟩
  | .hbm, ⟨110, _⟩ => ⟨S500000, .i32⟩
  | .hbm, ⟨111, _⟩ => ⟨S_, .i32⟩
  | .hbm, ⟨112, _⟩ => ⟨S500000, .i32⟩
  | .hbm, ⟨113, _⟩ => ⟨S500000, .i1⟩
  | .hbm, ⟨114, _⟩ => ⟨S_, .i32⟩
  | .hbm, ⟨115, _⟩ => ⟨S500000, .i32⟩
  | .hbm, ⟨116, _⟩ => ⟨S500000, .i32⟩
  | .hbm, ⟨117, _⟩ => ⟨S500000, .i32⟩
  | .hbm, ⟨118, _⟩ => ⟨S500000x1, .i32⟩
  | .hbm, ⟨119, _⟩ => ⟨S500000x128, .bf16⟩
  | .hbm, ⟨120, _⟩ => ⟨S128x1, .f32⟩
  | .hbm, ⟨121, _⟩ => ⟨S128x1, .f32⟩
  | .hbm, ⟨122, _⟩ => ⟨S1x1, .f32⟩
  | .hbm, ⟨123, _⟩ => ⟨S500000x1, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .bf16⟩
  | .local _ .vmem, ⟨4, _⟩ => ⟨S5000x128, .bf16⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S128x128, .f32⟩
  | .local _ .vmem, ⟨10, _⟩ => ⟨S1x128, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S1x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S128x128, .f32⟩
  | .local _ .vmem, ⟨26, _⟩ => ⟨S5000x128, .bf16⟩
  | .local _ .vmem, ⟨27, _⟩ => ⟨S5000x128, .bf16⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S128x128, .f32⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | .local _ .vmem, ⟨36, _⟩ => ⟨S1x128, .f32⟩
  | .local _ .vmem, ⟨37, _⟩ => ⟨S1x128, .f32⟩
  | .local _ .vmem, ⟨38, _⟩ => ⟨S5000x128, .f32⟩
  | .local _ .vmem, ⟨39, _⟩ => ⟨S5000x128, .f32⟩
  | .local _ .vmem, ⟨40, _⟩ => ⟨S1x128, .f32⟩
  | .local _ .vmem, ⟨41, _⟩ => ⟨S1x128, .f32⟩
  | .local _ .vmem, ⟨42, _⟩ => ⟨S1x128, .f32⟩
  | .local _ .vmem, ⟨43, _⟩ => ⟨S1x128, .f32⟩
  | .local _ .vmem, ⟨44, _⟩ => ⟨S5000x128, .f32⟩
  | .local _ .vmem, ⟨45, _⟩ => ⟨S5000x128, .f32⟩
  | .local _ .vmem, ⟨46, _⟩ => ⟨S5000x128, .bf16⟩
  | .local _ .vmem, ⟨47, _⟩ => ⟨S5000x128, .bf16⟩
  | .local _ .vmem, ⟨48, _⟩ => ⟨S10000x128, .bf16⟩
  | .local _ .vmem, ⟨49, _⟩ => ⟨S10000x128, .bf16⟩
  | .local _ .vmem, ⟨50, _⟩ => ⟨S10000x128, .bf16⟩
  | .local _ .vmem, ⟨51, _⟩ => ⟨S10000x128, .bf16⟩
  | .local _ .vmem, ⟨52, _⟩ => ⟨S128x1, .f32⟩
  | .local _ .vmem, ⟨53, _⟩ => ⟨S128x1, .f32⟩
  | .local _ .vmem, ⟨54, _⟩ => ⟨S1x1, .f32⟩
  | .local _ .vmem, ⟨55, _⟩ => ⟨S10000x1, .f32⟩
  | .local _ .vmem, ⟨56, _⟩ => ⟨S10000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | _, _ => false

abbrev semScoped : Fin 0 → Bool
  | ⟨_, h⟩ => absurd h (Nat.not_lt_zero _)

abbrev dmaSemScoped : Fin 57 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | _ => false

abbrev sig : RefSig :=
  ofTc nBuf bufTy 0 57 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_0 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28_0 : Ref sig .tc := ⟨.hbm, 43, rfl⟩
abbrev main_v28_1 : Ref sig .tc := ⟨.hbm, 44, rfl⟩
abbrev main_v28_2 : Ref sig .tc := ⟨.hbm, 45, rfl⟩
abbrev main_cst_1 : Ref sig .tc := ⟨.hbm, 46, rfl⟩
abbrev main_v29 : Ref sig .tc := ⟨.hbm, 47, rfl⟩
abbrev main_v30 : Ref sig .tc := ⟨.hbm, 48, rfl⟩
abbrev main_cst_2 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_c_3 : Ref sig .tc := ⟨.hbm, 69, rfl⟩
abbrev main_v50 : Ref sig .tc := ⟨.hbm, 70, rfl⟩
abbrev main_v51 : Ref sig .tc := ⟨.hbm, 71, rfl⟩
abbrev main_c_4 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_5 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64_0 : Ref sig .tc := ⟨.hbm, 86, rfl⟩
abbrev main_v64_1 : Ref sig .tc := ⟨.hbm, 87, rfl⟩
abbrev main_v64_2 : Ref sig .tc := ⟨.hbm, 88, rfl⟩
abbrev main_cst_6 : Ref sig .tc := ⟨.hbm, 89, rfl⟩
abbrev main_v65 : Ref sig .tc := ⟨.hbm, 90, rfl⟩
abbrev main_v66 : Ref sig .tc := ⟨.hbm, 91, rfl⟩
abbrev main_cst_7 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_c_8 : Ref sig .tc := ⟨.hbm, 100, rfl⟩
abbrev main_v74 : Ref sig .tc := ⟨.hbm, 101, rfl⟩
abbrev main_v75 : Ref sig .tc := ⟨.hbm, 102, rfl⟩
abbrev main_c_9 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_c_10 : Ref sig .tc := ⟨.hbm, 111, rfl⟩
abbrev main_v83 : Ref sig .tc := ⟨.hbm, 112, rfl⟩
abbrev main_v84 : Ref sig .tc := ⟨.hbm, 113, rfl⟩
abbrev main_c_11 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc1_stg5_0 : Ref sig .tc := ⟨.vmem, 13, rfl⟩
abbrev cc1_stg6_0 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg5_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg2_0 : Ref sig .tc := ⟨.vmem, 26, rfl⟩
abbrev cc3_stg2_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg3_0 : Ref sig .tc := ⟨.vmem, 33, rfl⟩
abbrev cc4_stg4_0 : Ref sig .tc := ⟨.vmem, 34, rfl⟩
abbrev cc4_stg4_1 : Ref sig .tc := ⟨.vmem, 35, rfl⟩
abbrev cc4_stg5_0 : Ref sig .tc := ⟨.vmem, 36, rfl⟩
abbrev cc4_stg6_0 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg2_0 : Ref sig .tc := ⟨.vmem, 41, rfl⟩
abbrev cc5_stg3_0 : Ref sig .tc := ⟨.vmem, 42, rfl⟩
abbrev cc5_stg4_0 : Ref sig .tc := ⟨.vmem, 43, rfl⟩
abbrev cc5_stg5_0 : Ref sig .tc := ⟨.vmem, 44, rfl⟩
abbrev cc5_stg5_1 : Ref sig .tc := ⟨.vmem, 45, rfl⟩
abbrev cc5_stg6_0 : Ref sig .tc := ⟨.vmem, 46, rfl⟩
abbrev cc5_stg6_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg1_1 : Ref sig .tc := ⟨.vmem, 51, rfl⟩
abbrev cc6_stg2_0 : Ref sig .tc := ⟨.vmem, 52, rfl⟩
abbrev cc6_stg3_0 : Ref sig .tc := ⟨.vmem, 53, rfl⟩
abbrev cc6_stg4_0 : Ref sig .tc := ⟨.vmem, 54, rfl⟩
abbrev cc6_stg5_0 : Ref sig .tc := ⟨.vmem, 55, rfl⟩
abbrev cc6_stg5_1 : Ref sig .tc := ⟨.vmem, 56, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem4_1 : DmaSem sig := 12
abbrev cc1_sem5_0 : DmaSem sig := 13
abbrev cc1_sem6_0 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem5_1 : DmaSem sig := 22
abbrev cc3_sem0_0 : DmaSem sig := 23
abbrev cc3_sem0_1 : DmaSem sig := 24
abbrev cc3_sem1_0 : DmaSem sig := 25
abbrev cc3_sem2_0 : DmaSem sig := 26
abbrev cc3_sem2_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem3_0 : DmaSem sig := 33
abbrev cc4_sem4_0 : DmaSem sig := 34
abbrev cc4_sem4_1 : DmaSem sig := 35
abbrev cc4_sem5_0 : DmaSem sig := 36
abbrev cc4_sem6_0 : DmaSem sig := 37
abbrev cc5_sem0_0 : DmaSem sig := 38
abbrev cc5_sem0_1 : DmaSem sig := 39
abbrev cc5_sem1_0 : DmaSem sig := 40
abbrev cc5_sem2_0 : DmaSem sig := 41
abbrev cc5_sem3_0 : DmaSem sig := 42
abbrev cc5_sem4_0 : DmaSem sig := 43
abbrev cc5_sem5_0 : DmaSem sig := 44
abbrev cc5_sem5_1 : DmaSem sig := 45
abbrev cc5_sem6_0 : DmaSem sig := 46
abbrev cc5_sem6_1 : DmaSem sig := 47
abbrev cc6_sem0_0 : DmaSem sig := 48
abbrev cc6_sem0_1 : DmaSem sig := 49
abbrev cc6_sem1_0 : DmaSem sig := 50
abbrev cc6_sem1_1 : DmaSem sig := 51
abbrev cc6_sem2_0 : DmaSem sig := 52
abbrev cc6_sem3_0 : DmaSem sig := 53
abbrev cc6_sem4_0 : DmaSem sig := 54
abbrev cc6_sem5_0 : DmaSem sig := 55
abbrev cc6_sem5_1 : DmaSem sig := 56

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S5000x128 .bf16 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x128 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S10000x128 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x1 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S128x1 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x1 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S10000x1 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

class Facts₀ : Prop where
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  packedbf16_S5000x128_S5000x128_0_0 : (Rect.unit (s := S5000x128) ![0, 0] S5000x128.size inb_S5000x128_S5000x128_0_0).PackedRows (EltTy.packing .bf16)
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  inb_S1x128_S1x128_0_0 : ∀ a, (![0, 0] : Fin 2 → Nat) a + S1x128.size a ≤ S1x128.size a
  h_S1x128 : 0 < S1x128.numel
  shapeCasts_S5000x128_S5000x128 : S5000x128.ShapeCasts S5000x128
  shapeCasts_S1x128_S1x128 : S1x128.ShapeCasts S1x128
  broadcasts_S1x128_S5000x128 : S1x128.Broadcasts S5000x128
  reduces_S5000x128_S128 : S5000x128.Reduces [0] S128
  bcast_S_S1x128 : S_.BroadcastsInDim S1x128 (![] : Fin 0 → Fin S1x128.rank)
  slices_S2x128x128_S1x128x128_1_0_0 : S2x128x128.Slices ![1, 0, 0] S1x128x128
  slices_S2x128_S1x128_1_0 : S2x128.Slices ![1, 0] S1x128
  slices_S2x500000_S1x500000_0_0 : S2x500000.Slices ![0, 0] S1x500000
  shapeCasts_S1x500000_S500000 : S1x500000.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  slices_S2x500000_S1x500000_1_0 : S2x500000.Slices ![1, 0] S1x500000
  slices_S256x1_S128x1_0_0 : S256x1.Slices ![0, 0] S128x1
  slices_S256x1_S128x1_128_0 : S256x1.Slices ![128, 0] S128x1
  shapeCasts_S1_S1x1 : S1.ShapeCasts S1x1
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  gather_S50000x128_S500000x1_S500000x128_1_0_n_n_0_1_1128_wf : GatherDims.WF S50000x128 S500000x1 S500000x128 [1] [0] [] [0] [] 1 ![1, 128]
  dot_S10000x128_S128x1_S10000x1_1_0_0_1_n_n_wf : DotDims.WF S10000x128 S128x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .bf16 = 32 ∨ (Rect.block (s := S50000x128) S5000x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .bf16 = 32 ∨ (Rect.block (s := S50000x128) S5000x128.size (cc3_transform_2 i) (hinb3_2 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S50000x128.size a
  hwx4_1 : ∀ i : grid4.Coords, EltTy.bits .f32 = 32 ∨ (Rect.block (s := S50000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x128.size a ≤ S50000x128.size a
  hwx4_4 : ∀ i : grid4.Coords, EltTy.bits .f32 = 32 ∨ (Rect.block (s := S50000x128) S5000x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S50000x128.size a
  hwx5_5 : ∀ i : grid5.Coords, EltTy.bits .f32 = 32 ∨ (Rect.block (s := S50000x128) S5000x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S5000x128.size a ≤ S50000x128.size a
  hwx5_6 : ∀ i : grid5.Coords, EltTy.bits .bf16 = 32 ∨ (Rect.block (s := S50000x128) S5000x128.size (cc5_transform_6 i) (hinb5_6 i)).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x128.size a ≤ S500000x128.size a
  hwx6_0 : ∀ i : grid6.Coords, EltTy.bits .bf16 = 32 ∨ (Rect.block (s := S500000x128) S10000x128.size (cc6_transform_0 i) (hinb6_0 i)).WholeWords (EltTy.packing .bf16)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S10000x128.size a ≤ S500000x128.size a
  hwx6_1 : ∀ i : grid6.Coords, EltTy.bits .bf16 = 32 ∨ (Rect.block (s := S500000x128) S10000x128.size (cc6_transform_1 i) (hinb6_1 i)).WholeWords (EltTy.packing .bf16)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x1.size a ≤ S128x1.size a
  hwx6_2 : ∀ i : grid6.Coords, EltTy.bits .f32 = 32 ∨ (Rect.block (s := S128x1) S128x1.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x1.size a ≤ S128x1.size a
  hwx6_3 : ∀ i : grid6.Coords, EltTy.bits .f32 = 32 ∨ (Rect.block (s := S128x1) S128x1.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x1.size a ≤ S1x1.size a
  hwx6_4 : ∀ i : grid6.Coords, EltTy.bits .f32 = 32 ∨ (Rect.block (s := S1x1) S1x1.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S10000x1.size a ≤ S500000x1.size a
  hwx6_5 : ∀ i : grid6.Coords, EltTy.bits .f32 = 32 ∨ (Rect.block (s := S500000x1) S10000x1.size (cc6_transform_5 i) (hinb6_5 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def dot_S10000x128_S128x1_S10000x1_1_0_0_1_n_n : DotDims S10000x128 S128x1 S10000x1 where
  lhsContracting := [1]
  rhsContracting := [0]
  lhsNonContracting := [0]
  rhsNonContracting := [1]
  lhsBatch := []
  rhsBatch := []
  wf := dot_S10000x128_S128x1_S10000x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v27) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28_0) S5000x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v28_1) S1x128.size cc1_transform_5 reads1_5 true true 1 stage1_5 sem1_5
    hrank1 hreads1_5 hinb1_5 nbuf1_5 (Memref.isWhole_whole _) hwx1_5 hstage1_5

abbrev win1_6 : Pipeline.Window sig grid1 :=
  Pipeline.Window.ofSpec (Memref.whole main_v28_2) S1x128.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v28_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v30) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v34) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v9) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v12) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v35) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v35) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v37) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v49) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v63) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v35) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v39) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v42) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v64_0) S5000x128.size cc4_transform_4 reads4_4 true false 2 stage4_4 sem4_4
    hrank4 hreads4_4 hinb4_4 nbuf4_4 (Memref.isWhole_whole _) hwx4_4 hstage4_4

abbrev win4_5 : Pipeline.Window sig grid4 :=
  Pipeline.Window.ofSpec (Memref.whole main_v64_1) S1x128.size cc4_transform_5 reads4_5 true true 1 stage4_5 sem4_5
    hrank4 hreads4_5 hinb4_5 nbuf4_5 (Memref.isWhole_whole _) hwx4_5 hstage4_5

abbrev win4_6 : Pipeline.Window sig grid4 :=
  Pipeline.Window.ofSpec (Memref.whole main_v64_2) S1x128.size cc4_transform_6 reads4_6 true true 1 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v64_0) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v66) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v70) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v45) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v48) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_arg0) S5000x128.size cc5_transform_5 reads5_5 false false 2 stage5_5 sem5_5
    hrank5 hreads5_5 hinb5_5 nbuf5_5 (Memref.isWhole_whole _) hwx5_5 hstage5_5

abbrev win5_6 : Pipeline.Window sig grid5 :=
  Pipeline.Window.ofSpec (Memref.whole main_v71) S5000x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v80) S10000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v89) S10000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v90) S128x1.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v91) S128x1.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v92) S1x1.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v93) S10000x1.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

class Facts : Prop extends Facts₀ where

variable [Facts]
-- ==== ReferenceIdeal.lean ====
abbrev S50000x128 : Shape := ⟨2, ![50000, 128]⟩
abbrev S800000 : Shape := ⟨1, ![800000]⟩
abbrev S2x500000 : Shape := ⟨2, ![2, 500000]⟩
abbrev S2x128x128 : Shape := ⟨3, ![2, 128, 128]⟩
abbrev S2x128 : Shape := ⟨2, ![2, 128]⟩
abbrev S256x1 : Shape := ⟨2, ![256, 1]⟩
abbrev S1 : Shape := ⟨1, ![1]⟩
abbrev S1x128x128 : Shape := ⟨3, ![1, 128, 128]⟩
abbrev S128x128 : Shape := ⟨2, ![128, 128]⟩
abbrev S800000x1 : Shape := ⟨2, ![800000, 1]⟩
abbrev S_ : Shape := ⟨0, ![]⟩
abbrev S800000x128 : Shape := ⟨2, ![800000, 128]⟩
abbrev S1x128 : Shape := ⟨2, ![1, 128]⟩
abbrev S128 : Shape := ⟨1, ![128]⟩
abbrev S1x500000 : Shape := ⟨2, ![1, 500000]⟩
abbrev S500000 : Shape := ⟨1, ![500000]⟩
abbrev S500000x1 : Shape := ⟨2, ![500000, 1]⟩
abbrev S500000x128 : Shape := ⟨2, ![500000, 128]⟩
abbrev S500000x256 : Shape := ⟨2, ![500000, 256]⟩
abbrev S1x1 : Shape := ⟨2, ![1, 1]⟩

abbrev nBuf : Space → Nat
  | .hbm => 178
  | .vmem => 0
  | .smem => 0
  | _ => 0

abbrev hbmTy0_0 (i : Nat) : BufTy := match i % 128 with
  | 0 => ⟨S50000x128, .f32⟩
  | 1 => ⟨S800000, .i32⟩
  | 2 => ⟨S800000, .i32⟩
  | 3 => ⟨S800000, .f32⟩
  | 4 => ⟨S2x500000, .i32⟩
  | 5 => ⟨S2x128x128, .f32⟩
  | 6 => ⟨S2x128x128, .f32⟩
  | 7 => ⟨S2x128, .f32⟩
  | 8 => ⟨S2x128, .f32⟩
  | 9 => ⟨S2x128, .f32⟩
  | 10 => ⟨S256x1, .f32⟩
  | 11 => ⟨S1, .f32⟩
  | 12 => ⟨S1x128x128, .f32⟩
  | 13 => ⟨S128x128, .f32⟩
  | 14 => ⟨S50000x128, .f32⟩
  | 15 => ⟨S800000x1, .f32⟩
  | 16 => ⟨S_, .i32⟩
  | 17 => ⟨S800000, .i32⟩
  | 18 => ⟨S800000, .i1⟩
  | 19 => ⟨S_, .i32⟩
  | 20 => ⟨S800000, .i32⟩
  | 21 => ⟨S800000, .i32⟩
  | 22 => ⟨S800000, .i32⟩
  | 23 => ⟨S800000x1, .i32⟩
  | 24 => ⟨S800000x128, .f32⟩
  | 25 => ⟨S800000x128, .f32⟩
  | 26 => ⟨S800000x128, .f32⟩
  | 27 => ⟨S_, .f32⟩
  | 28 => ⟨S50000x128, .f32⟩
  | 29 => ⟨S800000x1, .i32⟩
  | 30 => ⟨S50000x128, .f32⟩
  | 31 => ⟨S1x128x128, .f32⟩
  | 32 => ⟨S128x128, .f32⟩
  | 33 => ⟨S50000x128, .f32⟩
  | 34 => ⟨S50000x128, .f32⟩
  | 35 => ⟨S1x128, .f32⟩
  | 36 => ⟨S128, .f32⟩
  | 37 => ⟨S1x128, .f32⟩
  | 38 => ⟨S50000x128, .f32⟩
  | 39 => ⟨S50000x128, .f32⟩
  | 40 => ⟨S1x128, .f32⟩
  | 41 => ⟨S128, .f32⟩
  | 42 => ⟨S1x128, .f32⟩
  | 43 => ⟨S128, .f32⟩
  | 44 => ⟨S_, .f32⟩
  | 45 => ⟨S128, .f32⟩
  | 46 => ⟨S_, .f32⟩
  | 47 => ⟨S128, .f32⟩
  | 48 => ⟨S128, .f32⟩
  | 49 => ⟨S1x128, .f32⟩
  | 50 => ⟨S50000x128, .f32⟩
  | 51 => ⟨S50000x128, .f32⟩
  | 52 => ⟨S50000x128, .f32⟩
  | 53 => ⟨S_, .f32⟩
  | 54 => ⟨S128, .f32⟩
  | 55 => ⟨S_, .f32⟩
  | 56 => ⟨S128, .f32⟩
  | 57 => ⟨S128, .f32⟩
  | 58 => ⟨S1x128, .f32⟩
  | 59 => ⟨S50000x128, .f32⟩
  | 60 => ⟨S50000x128, .f32⟩
  | 61 => ⟨S1x128, .f32⟩
  | 62 => ⟨S50000x128, .f32⟩
  | 63 => ⟨S50000x128, .f32⟩
  | 64 => ⟨S_, .f32⟩
  | 65 => ⟨S128, .f32⟩
  | 66 => ⟨S128, .f32⟩
  | 67 => ⟨S128, .f32⟩
  | 68 => ⟨S1x128, .f32⟩
  | 69 => ⟨S50000x128, .f32⟩
  | 70 => ⟨S50000x128, .f32⟩
  | 71 => ⟨S1x128, .f32⟩
  | 72 => ⟨S50000x128, .f32⟩
  | 73 => ⟨S50000x128, .f32⟩
  | 74 => ⟨S_, .f32⟩
  | 75 => ⟨S50000x128, .f32⟩
  | 76 => ⟨S50000x128, .f32⟩
  | 77 => ⟨S1x128x128, .f32⟩
  | 78 => ⟨S128x128, .f32⟩
  | 79 => ⟨S50000x128, .f32⟩
  | 80 => ⟨S800000x1, .f32⟩
  | 81 => ⟨S_, .i32⟩
  | 82 => ⟨S800000, .i32⟩
  | 83 => ⟨S800000, .i1⟩
  | 84 => ⟨S_, .i32⟩
  | 85 => ⟨S800000, .i32⟩
  | 86 => ⟨S800000, .i32⟩
  | 87 => ⟨S800000, .i32⟩
  | 88 => ⟨S800000x1, .i32⟩
  | 89 => ⟨S800000x128, .f32⟩
  | 90 => ⟨S800000x128, .f32⟩
  | 91 => ⟨S800000x128, .f32⟩
  | 92 => ⟨S_, .f32⟩
  | 93 => ⟨S50000x128, .f32⟩
  | 94 => ⟨S800000x1, .i32⟩
  | 95 => ⟨S50000x128, .f32⟩
  | 96 => ⟨S1x128x128, .f32⟩
  | 97 => ⟨S128x128, .f32⟩
  | 98 => ⟨S50000x128, .f32⟩
  | 99 => ⟨S50000x128, .f32⟩
  | 100 => ⟨S1x128, .f32⟩
  | 101 => ⟨S128, .f32⟩
  | 102 => ⟨S1x128, .f32⟩
  | 103 => ⟨S50000x128, .f32⟩
  | 104 => ⟨S50000x128, .f32⟩
  | 105 => ⟨S1x128, .f32⟩
  | 106 => ⟨S128, .f32⟩
  | 107 => ⟨S1x128, .f32⟩
  | 108 => ⟨S128, .f32⟩
  | 109 => ⟨S_, .f32⟩
  | 110 => ⟨S128, .f32⟩
  | 111 => ⟨S_, .f32⟩
  | 112 => ⟨S128, .f32⟩
  | 113 => ⟨S128, .f32⟩
  | 114 => ⟨S1x128, .f32⟩
  | 115 => ⟨S50000x128, .f32⟩
  | 116 => ⟨S50000x128, .f32⟩
  | 117 => ⟨S50000x128, .f32⟩
  | 118 => ⟨S_, .f32⟩
  | 119 => ⟨S128, .f32⟩
  | 120 => ⟨S_, .f32⟩
  | 121 => ⟨S128, .f32⟩
  | 122 => ⟨S128, .f32⟩
  | 123 => ⟨S1x128, .f32⟩
  | 124 => ⟨S50000x128, .f32⟩
  | 125 => ⟨S50000x128, .f32⟩
  | 126 => ⟨S1x128, .f32⟩
  | 127 => ⟨S50000x128, .f32⟩
  | _ => ⟨S50000x128, .f32⟩

abbrev hbmTy0_1 (i : Nat) : BufTy := match i % 128 with
  | 0 => ⟨S50000x128, .f32⟩
  | 1 => ⟨S_, .f32⟩
  | 2 => ⟨S128, .f32⟩
  | 3 => ⟨S128, .f32⟩
  | 4 => ⟨S128, .f32⟩
  | 5 => ⟨S1x128, .f32⟩
  | 6 => ⟨S50000x128, .f32⟩
  | 7 => ⟨S50000x128, .f32⟩
  | 8 => ⟨S1x128, .f32⟩
  | 9 => ⟨S50000x128, .f32⟩
  | 10 => ⟨S50000x128, .f32⟩
  | 11 => ⟨S_, .f32⟩
  | 12 => ⟨S50000x128, .f32⟩
  | 13 => ⟨S50000x128, .f32⟩
  | 14 => ⟨S50000x128, .f32⟩
  | 15 => ⟨S1x500000, .i32⟩
  | 16 => ⟨S500000, .i32⟩
  | 17 => ⟨S_, .i32⟩
  | 18 => ⟨S500000, .i32⟩
  | 19 => ⟨S500000, .i1⟩
  | 20 => ⟨S_, .i32⟩
  | 21 => ⟨S500000, .i32⟩
  | 22 => ⟨S500000, .i32⟩
  | 23 => ⟨S500000, .i32⟩
  | 24 => ⟨S500000x1, .i32⟩
  | 25 => ⟨S500000x128, .f32⟩
  | 26 => ⟨S1x500000, .i32⟩
  | 27 => ⟨S500000, .i32⟩
  | 28 => ⟨S_, .i32⟩
  | 29 => ⟨S500000, .i32⟩
  | 30 => ⟨S500000, .i1⟩
  | 31 => ⟨S_, .i32⟩
  | 32 => ⟨S500000, .i32⟩
  | 33 => ⟨S500000, .i32⟩
  | 34 => ⟨S500000, .i32⟩
  | 35 => ⟨S500000x1, .i32⟩
  | 36 => ⟨S500000x128, .f32⟩
  | 37 => ⟨S500000x256, .f32⟩
  | 38 => ⟨S500000x1, .f32⟩
  | 39 => ⟨S1x1, .f32⟩
  | 40 => ⟨S500000x1, .f32⟩
  | 41 => ⟨S500000x1, .f32⟩
  | 42 => ⟨S500000x1, .f32⟩
  | 43 => ⟨S500000x1, .f32⟩
  | 44 => ⟨S_, .f32⟩
  | 45 => ⟨S500000x1, .f32⟩
  | 46 => ⟨S500000x1, .f32⟩
  | 47 => ⟨S_, .f32⟩
  | 48 => ⟨S500000x1, .f32⟩
  | 49 => ⟨S500000x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_1 : Ref sig .tc := ⟨.hbm, 44, rfl⟩
abbrev main_v29 : Ref sig .tc := ⟨.hbm, 45, rfl⟩
abbrev main_cst_2 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_3 : Ref sig .tc := ⟨.hbm, 53, rfl⟩
abbrev main_v36 : Ref sig .tc := ⟨.hbm, 54, rfl⟩
abbrev main_cst_4 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_5 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_call0_cst : Ref sig .tc := ⟨.hbm, 74, rfl⟩
abbrev main_call0_v0 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_c_6 : Ref sig .tc := ⟨.hbm, 81, rfl⟩
abbrev main_v59 : Ref sig .tc := ⟨.hbm, 82, rfl⟩
abbrev main_v60 : Ref sig .tc := ⟨.hbm, 83, rfl⟩
abbrev main_c_7 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_8 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_cst_9 : Ref sig .tc := ⟨.hbm, 109, rfl⟩
abbrev main_v84 : Ref sig .tc := ⟨.hbm, 110, rfl⟩
abbrev main_cst_10 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_cst_11 : Ref sig .tc := ⟨.hbm, 118, rfl⟩
abbrev main_v91 : Ref sig .tc := ⟨.hbm, 119, rfl⟩
abbrev main_cst_12 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_cst_13 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_call1_cst : Ref sig .tc := ⟨.hbm, 139, rfl⟩
abbrev main_call1_v0 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_c_14 : Ref sig .tc := ⟨.hbm, 145, rfl⟩
abbrev main_v113 : Ref sig .tc := ⟨.hbm, 146, rfl⟩
abbrev main_v114 : Ref sig .tc := ⟨.hbm, 147, rfl⟩
abbrev main_c_15 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_c_16 : Ref sig .tc := ⟨.hbm, 156, rfl⟩
abbrev main_v122 : Ref sig .tc := ⟨.hbm, 157, rfl⟩
abbrev main_v123 : Ref sig .tc := ⟨.hbm, 158, rfl⟩
abbrev main_c_17 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_cst_18 : Ref sig .tc := ⟨.hbm, 172, rfl⟩
abbrev main_v136 : Ref sig .tc := ⟨.hbm, 173, rfl⟩
abbrev main_v137 : Ref sig .tc := ⟨.hbm, 174, rfl⟩
abbrev main_cst_19 : Ref sig .tc := ⟨.hbm, 175, rfl⟩
abbrev main_v138 : Ref sig .tc := ⟨.hbm, 176, rfl⟩
abbrev main_v139 : Ref sig .tc := ⟨.hbm, 177, rfl⟩

abbrev nD : Nat := 1
abbrev τ : Topo := Topo.v7x

variable {F : FTy → Type} [FloatOps F]

class Facts₀ : Prop where
  slices_S2x128x128_S1x128x128_0_0_0 : S2x128x128.Slices ![0, 0, 0] S1x128x128
  shapeCasts_S1x128x128_S128x128 : S1x128x128.ShapeCasts S128x128
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  slices_S2x128_S1x128_0_0 : S2x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  slices_S2x128x128_S1x128x128_1_0_0 : S2x128x128.Slices ![1, 0, 0] S1x128x128
  slices_S2x128_S1x128_1_0 : S2x128.Slices ![1, 0] S1x128
  slices_S2x500000_S1x500000_0_0 : S2x500000.Slices ![0, 0] S1x500000
  shapeCasts_S1x500000_S500000 : S1x500000.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  slices_S2x500000_S1x500000_1_0 : S2x500000.Slices ![1, 0] S1x500000
  concatenates_S500000x128_S500000x128_S500000x256_d1 : Shape.Concatenates [S500000x128, S500000x128] S500000x256 1
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  bcast_S_S500000x1 : S_.BroadcastsInDim S500000x1 (![] : Fin 0 → Fin S500000x1.rank)
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  gather_S50000x128_S500000x1_S500000x128_1_0_n_n_0_1_1128_wf : GatherDims.WF S50000x128 S500000x1 S500000x128 [1] [0] [] [0] [] 1 ![1, 128]
  dot_S500000x256_S256x1_S500000x1_1_0_0_1_n_n_wf : DotDims.WF S500000x256 S256x1 S500000x1 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def dot_S500000x256_S256x1_S500000x1_1_0_0_1_n_n : DotDims S500000x256 S256x1 S500000x1 where
  lhsContracting := [1]
  rhsContracting := [0]
  lhsNonContracting := [0]
  rhsNonContracting := [1]
  lhsBatch := []
  rhsBatch := []
  wf := dot_S500000x256_S256x1_S500000x1_1_0_0_1_n_n_wf

class Facts : Prop extends Facts₀ where

variable [Facts]
-- ==== Proof.KRun.lean ====
/-
  The idealized kernel's run with its result NAMED.  The program is seven kernel launches among stretches of
  host operations; the generated frame certificate proves that every weakly fair execution terminates with
  every unscoped buffer at the contents the fold `W14` gives it, and projects out only the argument arrays.
  Here the same launch is read once more with the result buffer kept as well: after the run the result
  holds `W14 m ρ c` at its reference, the arguments are unchanged.
-/
import proofs.«113632_j80152679678507_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at what the fold
    through the seven launches and the host stretches leaves there, and the argument arrays as launched. -/
theorem run_value : θ_run defs (onTc (τ := τ) (main (F := F))) ⟨m, fun _ => 0, ρ⟩ (fun r => ∀ c : Dev nD,
      r.2.mem ((c.tc : Thread nD τ).loc main_v93) = W14 m ρ c (Proc.devRef .tc main_v93)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v93 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c),
       (h c _ (mem_uc main_arg11 (by decide))).trans (W14_main_arg11 m ρ c)⟩)

end Cert.KernelIdeal.Named

end
-- ==== Proof.KWalk.lean ====
/-
  Reading a buffer back through a launch.  A launch leaves each of its input arrays as it found it, and every
  buffer that is none of its arrays untouched; so the contents of such a buffer after the launch are its contents
  before.  One lemma per launch and input array; a buffer that is no array of the launch is read back by the
  launch's own lemma on unrelated buffers.
-/
import proofs.«113632_j80152679678507_2_alg».proof.Proof.Gen.KernelIdeal.Frame
import Idealize.ShloMosaic.Lib.ValueIdx

set_option maxRecDepth 16384

noncomputable section

namespace Cert.KernelIdeal.Named

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

variable {F : FTy → Type} [FloatOps F]
variable (m : (ℓ : Loc nD τ sig) → Buf (Elt F) ℓ) (ρ : Dev nD → PrngReg)

theorem W2_keep_main_arg0 (c : Dev nD) : W2 m ρ c (Proc.devRef .tc main_arg0) = W1 m ρ c (Proc.devRef .tc main_arg0) :=
  (W2_arr m ρ c 0).trans (((dat0 (V1 m ρ) c).arrAt_in 0 rfl _).trans (A_eq0 (V1 m ρ) c 0))
theorem W2_keep_main_v1 (c : Dev nD) : W2 m ρ c (Proc.devRef .tc main_v1) = W1 m ρ c (Proc.devRef .tc main_v1) :=
  (W2_arr m ρ c 1).trans (((dat0 (V1 m ρ) c).arrAt_in 1 rfl _).trans (A_eq0 (V1 m ρ) c 1))

theorem W4_keep_main_v27 (c : Dev nD) : W4 m ρ c (Proc.devRef .tc main_v27) = W3 m ρ c (Proc.devRef .tc main_v27) :=
  (W4_arr m ρ c 0).trans (((dat1 (V3 m ρ) c).arrAt_in 0 rfl _).trans (A_eq1 (V3 m ρ) c 0))
theorem W4_keep_main_arg0 (c : Dev nD) : W4 m ρ c (Proc.devRef .tc main_arg0) = W3 m ρ c (Proc.devRef .tc main_arg0) :=
  (W4_arr m ρ c 1).trans (((dat1 (V3 m ρ) c).arrAt_in 1 rfl _).trans (A_eq1 (V3 m ρ) c 1))
theorem W4_keep_main_v3 (c : Dev nD) : W4 m ρ c (Proc.devRef .tc main_v3) = W3 m ρ c (Proc.devRef .tc main_v3) :=
  (W4_arr m ρ c 2).trans (((dat1 (V3 m ρ) c).arrAt_in 2 rfl _).trans (A_eq1 (V3 m ρ) c 2))
theorem W4_keep_main_v6 (c : Dev nD) : W4 m ρ c (Proc.devRef .tc main_v6) = W3 m ρ c (Proc.devRef .tc main_v6) :=
  (W4_arr m ρ c 3).trans (((dat1 (V3 m ρ) c).arrAt_in 3 rfl _).trans (A_eq1 (V3 m ρ) c 3))

theorem W6_keep_main_v28_0 (c : Dev nD) : W6 m ρ c (Proc.devRef .tc main_v28_0) = W5 m ρ c (Proc.devRef .tc main_v28_0) :=
  (W6_arr m ρ c 0).trans (((dat2 (V5 m ρ) c).arrAt_in 0 rfl _).trans (A_eq2 (V5 m ρ) c 0))
theorem W6_keep_main_v30 (c : Dev nD) : W6 m ρ c (Proc.devRef .tc main_v30) = W5 m ρ c (Proc.devRef .tc main_v30) :=
  (W6_arr m ρ c 1).trans (((dat2 (V5 m ρ) c).arrAt_in 1 rfl _).trans (A_eq2 (V5 m ρ) c 1))
theorem W6_keep_main_v34 (c : Dev nD) : W6 m ρ c (Proc.devRef .tc main_v34) = W5 m ρ c (Proc.devRef .tc main_v34) :=
  (W6_arr m ρ c 2).trans (((dat2 (V5 m ρ) c).arrAt_in 2 rfl _).trans (A_eq2 (V5 m ρ) c 2))
theorem W6_keep_main_v9 (c : Dev nD) : W6 m ρ c (Proc.devRef .tc main_v9) = W5 m ρ c (Proc.devRef .tc main_v9) :=
  (W6_arr m ρ c 3).trans (((dat2 (V5 m ρ) c).arrAt_in 3 rfl _).trans (A_eq2 (V5 m ρ) c 3))
theorem W6_keep_main_v12 (c : Dev nD) : W6 m ρ c (Proc.devRef .tc main_v12) = W5 m ρ c (Proc.devRef .tc main_v12) :=
  (W6_arr m ρ c 4).trans (((dat2 (V5 m ρ) c).arrAt_in 4 rfl _).trans (A_eq2 (V5 m ρ) c 4))

theorem W8_keep_main_v35 (c : Dev nD) : W8 m ρ c (Proc.devRef .tc main_v35) = W7 m ρ c (Proc.devRef .tc main_v35) :=
  (W8_arr m ρ c 0).trans (((dat3 (V7 m ρ) c).arrAt_in 0 rfl _).trans (A_eq3 (V7 m ρ) c 0))
theorem W8_keep_main_v37 (c : Dev nD) : W8 m ρ c (Proc.devRef .tc main_v37) = W7 m ρ c (Proc.devRef .tc main_v37) :=
  (W8_arr m ρ c 1).trans (((dat3 (V7 m ρ) c).arrAt_in 1 rfl _).trans (A_eq3 (V7 m ρ) c 1))

theorem W10_keep_main_v63 (c : Dev nD) : W10 m ρ c (Proc.devRef .tc main_v63) = W9 m ρ c (Proc.devRef .tc main_v63) :=
  (W10_arr m ρ c 0).trans (((dat4 (V9 m ρ) c).arrAt_in 0 rfl _).trans (A_eq4 (V9 m ρ) c 0))
theorem W10_keep_main_v35 (c : Dev nD) : W10 m ρ c (Proc.devRef .tc main_v35) = W9 m ρ c (Proc.devRef .tc main_v35) :=
  (W10_arr m ρ c 1).trans (((dat4 (V9 m ρ) c).arrAt_in 1 rfl _).trans (A_eq4 (V9 m ρ) c 1))
theorem W10_keep_main_v39 (c : Dev nD) : W10 m ρ c (Proc.devRef .tc main_v39) = W9 m ρ c (Proc.devRef .tc main_v39) :=
  (W10_arr m ρ c 2).trans (((dat4 (V9 m ρ) c).arrAt_in 2 rfl _).trans (A_eq4 (V9 m ρ) c 2))
theorem W10_keep_main_v42 (c : Dev nD) : W10 m ρ c (Proc.devRef .tc main_v42) = W9 m ρ c (Proc.devRef .tc main_v42) :=
  (W10_arr m ρ c 3).trans (((dat4 (V9 m ρ) c).arrAt_in 3 rfl _).trans (A_eq4 (V9 m ρ) c 3))

theorem W12_keep_main_v64_0 (c : Dev nD) : W12 m ρ c (Proc.devRef .tc main_v64_0) = W11 m ρ c (Proc.devRef .tc main_v64_0) :=
  (W12_arr m ρ c 0).trans (((dat5 (V11 m ρ) c).arrAt_in 0 rfl _).trans (A_eq5 (V11 m ρ) c 0))
theorem W12_keep_main_v66 (c : Dev nD) : W12 m ρ c (Proc.devRef .tc main_v66) = W11 m ρ c (Proc.devRef .tc main_v66) :=
  (W12_arr m ρ c 1).trans (((dat5 (V11 m ρ) c).arrAt_in 1 rfl _).trans (A_eq5 (V11 m ρ) c 1))
theorem W12_keep_main_v70 (c : Dev nD) : W12 m ρ c (Proc.devRef .tc main_v70) = W11 m ρ c (Proc.devRef .tc main_v70) :=
  (W12_arr m ρ c 2).trans (((dat5 (V11 m ρ) c).arrAt_in 2 rfl _).trans (A_eq5 (V11 m ρ) c 2))
theorem W12_keep_main_v45 (c : Dev nD) : W12 m ρ c (Proc.devRef .tc main_v45) = W11 m ρ c (Proc.devRef .tc main_v45) :=
  (W12_arr m ρ c 3).trans (((dat5 (V11 m ρ) c).arrAt_in 3 rfl _).trans (A_eq5 (V11 m ρ) c 3))
theorem W12_keep_main_v48 (c : Dev nD) : W12 m ρ c (Proc.devRef .tc main_v48) = W11 m ρ c (Proc.devRef .tc main_v48) :=
  (W12_arr m ρ c 4).trans (((dat5 (V11 m ρ) c).arrAt_in 4 rfl _).trans (A_eq5 (V11 m ρ) c 4))
theorem W12_keep_main_arg0 (c : Dev nD) : W12 m ρ c (Proc.devRef .tc main_arg0) = W11 m ρ c (Proc.devRef .tc main_arg0) :=
  (W12_arr m ρ c 5).trans (((dat5 (V11 m ρ) c).arrAt_in 5 rfl _).trans (A_eq5 (V11 m ρ) c 5))

theorem W14_keep_main_v80 (c : Dev nD) : W14 m ρ c (Proc.devRef .tc main_v80) = W13 m ρ c (Proc.devRef .tc main_v80) :=
  (W14_arr m ρ c 0).trans (((dat6 (V13 m ρ) c).arrAt_in 0 rfl _).trans (A_eq6 (V13 m ρ) c 0))
theorem W14_keep_main_v89 (c : Dev nD) : W14 m ρ c (Proc.devRef .tc main_v89) = W13 m ρ c (Proc.devRef .tc main_v89) :=
  (W14_arr m ρ c 1).trans (((dat6 (V13 m ρ) c).arrAt_in 1 rfl _).trans (A_eq6 (V13 m ρ) c 1))
theorem W14_keep_main_v90 (c : Dev nD) : W14 m ρ c (Proc.devRef .tc main_v90) = W13 m ρ c (Proc.devRef .tc main_v90) :=
  (W14_arr m ρ c 2).trans (((dat6 (V13 m ρ) c).arrAt_in 2 rfl _).trans (A_eq6 (V13 m ρ) c 2))
theorem W14_keep_main_v91 (c : Dev nD) : W14 m ρ c (Proc.devRef .tc main_v91) = W13 m ρ c (Proc.devRef .tc main_v91) :=
  (W14_arr m ρ c 3).trans (((dat6 (V13 m ρ) c).arrAt_in 3 rfl _).trans (A_eq6 (V13 m ρ) c 3))
theorem W14_keep_main_v92 (c : Dev nD) : W14 m ρ c (Proc.devRef .tc main_v92) = W13 m ρ c (Proc.devRef .tc main_v92) :=
  (W14_arr m ρ c 4).trans (((dat6 (V13 m ρ) c).arrAt_in 4 rfl _).trans (A_eq6 (V13 m ρ) c 4))

end Cert.KernelIdeal.Named

end
-- ==== Proof.KOrigin.lean ====
/-
  Where a buffer's contents come from.  Between the launch of the program and a later point of it a buffer keeps
  its contents through every stretch of host operations that does not write it and through every launch that does
  not have it as an output; so its contents at the later point are its contents where it was last written — or, for
  an argument of the program, the contents the program was launched with.
-/
import proofs.«113632_j80152679678507_2_alg».proof.Proof.Gen.KernelIdeal.Frame
import proofs.«113632_j80152679678507_2_alg».proof.Proof.KWalk
import Idealize.ShloMosaic.Lib.ValueIdx
import Idealize.ShloMosaic.Lib.StableHlo.Run

set_option maxRecDepth 16384

noncomputable section

namespace Cert.KernelIdeal.Named

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

open Idealize.ShloMosaic.StableHlo

variable {F : FTy → Type} [FloatOps F]
variable (m : (ℓ : Loc nD τ sig) → Buf (Elt F) ℓ) (ρ : Dev nD → PrngReg)

theorem at1_main_arg0 (c : Dev nD) : W1 m ρ c (Proc.devRef .tc main_arg0) = m ((c : Thread nD τ).loc main_arg0) := by
  rw [show W1 m ρ c (Proc.devRef .tc main_arg0) = W0 m ρ c (Proc.devRef .tc main_arg0) from by
    show StableHlo.after hostOps0 (W0 m ρ c) (Proc.devRef .tc main_arg0) = _
    after_results_simp]

theorem at2_main_arg1 (c : Dev nD) : W2 m ρ c (Proc.devRef .tc main_arg1) = m ((c : Thread nD τ).loc main_arg1) := by
  rw [W2_of_ne m ρ c main_arg1 (by decide)]
  rw [show W1 m ρ c (Proc.devRef .tc main_arg1) = W0 m ρ c (Proc.devRef .tc main_arg1) from by
    show StableHlo.after hostOps0 (W0 m ρ c) (Proc.devRef .tc main_arg1) = _
    after_results_simp]

theorem at2_main_arg2 (c : Dev nD) : W2 m ρ c (Proc.devRef .tc main_arg2) = m ((c : Thread nD τ).loc main_arg2) := by
  rw [W2_of_ne m ρ c main_arg2 (by decide)]
  rw [show W1 m ρ c (Proc.devRef .tc main_arg2) = W0 m ρ c (Proc.devRef .tc main_arg2) from by
    show StableHlo.after hostOps0 (W0 m ρ c) (Proc.devRef .tc main_arg2) = _
    after_results_simp]

theorem at2_main_arg3 (c : Dev nD) : W2 m ρ c (Proc.devRef .tc main_arg3) = m ((c : Thread nD τ).loc main_arg3) := by
  rw [W2_of_ne m ρ c main_arg3 (by decide)]
  rw [show W1 m ρ c (Proc.devRef .tc main_arg3) = W0 m ρ c (Proc.devRef .tc main_arg3) from by
    show StableHlo.after hostOps0 (W0 m ρ c) (Proc.devRef .tc main_arg3) = _
    after_results_simp]

theorem at3_main_arg0 (c : Dev nD) : W3 m ρ c (Proc.devRef .tc main_arg0) = m ((c : Thread nD τ).loc main_arg0) := by
  rw [show W3 m ρ c (Proc.devRef .tc main_arg0) = W2 m ρ c (Proc.devRef .tc main_arg0) from by
    show StableHlo.after hostOps1 (W2 m ρ c) (Proc.devRef .tc main_arg0) = _
    after_results_simp]
  rw [W2_keep_main_arg0]
  rw [show W1 m ρ c (Proc.devRef .tc main_arg0) = W0 m ρ c (Proc.devRef .tc main_arg0) from by
    show StableHlo.after hostOps0 (W0 m ρ c) (Proc.devRef .tc main_arg0) = _
    after_results_simp]

theorem at3_main_v3 (c : Dev nD) : W3 m ρ c (Proc.devRef .tc main_v3) = W1 m ρ c (Proc.devRef .tc main_v3) := by
  rw [show W3 m ρ c (Proc.devRef .tc main_v3) = W2 m ρ c (Proc.devRef .tc main_v3) from by
    show StableHlo.after hostOps1 (W2 m ρ c) (Proc.devRef .tc main_v3) = _
    after_results_simp]
  rw [W2_of_ne m ρ c main_v3 (by decide)]

theorem at3_main_v6 (c : Dev nD) : W3 m ρ c (Proc.devRef .tc main_v6) = W1 m ρ c (Proc.devRef .tc main_v6) := by
  rw [show W3 m ρ c (Proc.devRef .tc main_v6) = W2 m ρ c (Proc.devRef .tc main_v6) from by
    show StableHlo.after hostOps1 (W2 m ρ c) (Proc.devRef .tc main_v6) = _
    after_results_simp]
  rw [W2_of_ne m ρ c main_v6 (by decide)]

theorem at5_main_v28_0 (c : Dev nD) : W5 m ρ c (Proc.devRef .tc main_v28_0) = W4 m ρ c (Proc.devRef .tc main_v28_0) := by
  rw [show W5 m ρ c (Proc.devRef .tc main_v28_0) = W4 m ρ c (Proc.devRef .tc main_v28_0) from by
    show StableHlo.after hostOps2 (W4 m ρ c) (Proc.devRef .tc main_v28_0) = _
    after_results_simp]

theorem at5_main_v9 (c : Dev nD) : W5 m ρ c (Proc.devRef .tc main_v9) = W1 m ρ c (Proc.devRef .tc main_v9) := by
  rw [show W5 m ρ c (Proc.devRef .tc main_v9) = W4 m ρ c (Proc.devRef .tc main_v9) from by
    show StableHlo.after hostOps2 (W4 m ρ c) (Proc.devRef .tc main_v9) = _
    after_results_simp]
  rw [W4_of_ne m ρ c main_v9 (by decide)]
  rw [show W3 m ρ c (Proc.devRef .tc main_v9) = W2 m ρ c (Proc.devRef .tc main_v9) from by
    show StableHlo.after hostOps1 (W2 m ρ c) (Proc.devRef .tc main_v9) = _
    after_results_simp]
  rw [W2_of_ne m ρ c main_v9 (by decide)]

theorem at5_main_v12 (c : Dev nD) : W5 m ρ c (Proc.devRef .tc main_v12) = W1 m ρ c (Proc.devRef .tc main_v12) := by
  rw [show W5 m ρ c (Proc.devRef .tc main_v12) = W4 m ρ c (Proc.devRef .tc main_v12) from by
    show StableHlo.after hostOps2 (W4 m ρ c) (Proc.devRef .tc main_v12) = _
    after_results_simp]
  rw [W4_of_ne m ρ c main_v12 (by decide)]
  rw [show W3 m ρ c (Proc.devRef .tc main_v12) = W2 m ρ c (Proc.devRef .tc main_v12) from by
    show StableHlo.after hostOps1 (W2 m ρ c) (Proc.devRef .tc main_v12) = _
    after_results_simp]
  rw [W2_of_ne m ρ c main_v12 (by decide)]

theorem at6_main_arg5 (c : Dev nD) : W6 m ρ c (Proc.devRef .tc main_arg5) = m ((c : Thread nD τ).loc main_arg5) := by
  rw [W6_of_ne m ρ c main_arg5 (by decide)]
  rw [show W5 m ρ c (Proc.devRef .tc main_arg5) = W4 m ρ c (Proc.devRef .tc main_arg5) from by
    show StableHlo.after hostOps2 (W4 m ρ c) (Proc.devRef .tc main_arg5) = _
    after_results_simp]
  rw [W4_of_ne m ρ c main_arg5 (by decide)]
  rw [show W3 m ρ c (Proc.devRef .tc main_arg5) = W2 m ρ c (Proc.devRef .tc main_arg5) from by
    show StableHlo.after hostOps1 (W2 m ρ c) (Proc.devRef .tc main_arg5) = _
    after_results_simp]
  rw [W2_of_ne m ρ c main_arg5 (by decide)]
  rw [show W1 m ρ c (Proc.devRef .tc main_arg5) = W0 m ρ c (Proc.devRef .tc main_arg5) from by
    show StableHlo.after hostOps0 (W0 m ρ c) (Proc.devRef .tc main_arg5) = _
    after_results_simp]

theorem at6_main_arg6 (c : Dev nD) : W6 m ρ c (Proc.devRef .tc main_arg6) = m ((c : Thread nD τ).loc main_arg6) := by
  rw [W6_of_ne m ρ c main_arg6 (by decide)]
  rw [show W5 m ρ c (Proc.devRef .tc main_arg6) = W4 m ρ c (Proc.devRef .tc main_arg6) from by
    show StableHlo.after hostOps2 (W4 m ρ c) (Proc.devRef .tc main_arg6) = _
    after_results_simp]
  rw [W4_of_ne m ρ c main_arg6 (by decide)]
  rw [show W3 m ρ c (Proc.devRef .tc main_arg6) = W2 m ρ c (Proc.devRef .tc main_arg6) from by
    show StableHlo.after hostOps1 (W2 m ρ c) (Proc.devRef .tc main_arg6) = _
    after_results_simp]
  rw [W2_of_ne m ρ c main_arg6 (by decide)]
  rw [show W1 m ρ c (Proc.devRef .tc main_arg6) = W0 m ρ c (Proc.devRef .tc main_arg6) from by
    show StableHlo.after hostOps0 (W0 m ρ c) (Proc.devRef .tc main_arg6) = _
    after_results_simp]

theorem at6_main_arg7 (c : Dev nD) : W6 m ρ c (Proc.devRef .tc main_arg7) = m ((c : Thread nD τ).loc main_arg7) := by
  rw [W6_of_ne m ρ c main_arg7 (by decide)]
  rw [show W5 m ρ c (Proc.devRef .tc main_arg7) = W4 m ρ c (Proc.devRef .tc main_arg7) from by
    show StableHlo.after hostOps2 (W4 m ρ c) (Proc.devRef .tc main_arg7) = _
    after_results_simp]
  rw [W4_of_ne m ρ c main_arg7 (by decide)]
  rw [show W3 m ρ c (Proc.devRef .tc main_arg7) = W2 m ρ c (Proc.devRef .tc main_arg7) from by
    show StableHlo.after hostOps1 (W2 m ρ c) (Proc.devRef .tc main_arg7) = _
    after_results_simp]
  rw [W2_of_ne m ρ c main_arg7 (by decide)]
  rw [show W1 m ρ c (Proc.devRef .tc main_arg7) = W0 m ρ c (Proc.devRef .tc main_arg7) from by
    show StableHlo.after hostOps0 (W0 m ρ c) (Proc.devRef .tc main_arg7) = _
    after_results_simp]

theorem at6_main_arg8 (c : Dev nD) : W6 m ρ c (Proc.devRef .tc main_arg8) = m ((c : Thread nD τ).loc main_arg8) := by
  rw [W6_of_ne m ρ c main_arg8 (by decide)]
  rw [show W5 m ρ c (Proc.devRef .tc main_arg8) = W4 m ρ c (Proc.devRef .tc main_arg8) from by
    show StableHlo.after hostOps2 (W4 m ρ c) (Proc.devRef .tc main_arg8) = _
    after_results_simp]
  rw [W4_of_ne m ρ c main_arg8 (by decide)]
  rw [show W3 m ρ c (Proc.devRef .tc main_arg8) = W2 m ρ c (Proc.devRef .tc main_arg8) from by
    show StableHlo.after hostOps1 (W2 m ρ c) (Proc.devRef .tc main_arg8) = _
    after_results_simp]
  rw [W2_of_ne m ρ c main_arg8 (by decide)]
  rw [show W1 m ρ c (Proc.devRef .tc main_arg8) = W0 m ρ c (Proc.devRef .tc main_arg8) from by
    show StableHlo.after hostOps0 (W0 m ρ c) (Proc.devRef .tc main_arg8) = _
    after_results_simp]

theorem at6_main_arg9 (c : Dev nD) : W6 m ρ c (Proc.devRef .tc main_arg9) = m ((c : Thread nD τ).loc main_arg9) := by
  rw [W6_of_ne m ρ c main_arg9 (by decide)]
  rw [show W5 m ρ c (Proc.devRef .tc main_arg9) = W4 m ρ c (Proc.devRef .tc main_arg9) from by
    show StableHlo.after hostOps2 (W4 m ρ c) (Proc.devRef .tc main_arg9) = _
    after_results_simp]
  rw [W4_of_ne m ρ c main_arg9 (by decide)]
  rw [show W3 m ρ c (Proc.devRef .tc main_arg9) = W2 m ρ c (Proc.devRef .tc main_arg9) from by
    show StableHlo.after hostOps1 (W2 m ρ c) (Proc.devRef .tc main_arg9) = _
    after_results_simp]
  rw [W2_of_ne m ρ c main_arg9 (by decide)]
  rw [show W1 m ρ c (Proc.devRef .tc main_arg9) = W0 m ρ c (Proc.devRef .tc main_arg9) from by
    show StableHlo.after hostOps0 (W0 m ρ c) (Proc.devRef .tc main_arg9) = _
    after_results_simp]

theorem at7_main_v35 (c : Dev nD) : W7 m ρ c (Proc.devRef .tc main_v35) = W6 m ρ c (Proc.devRef .tc main_v35) := by
  rw [show W7 m ρ c (Proc.devRef .tc main_v35) = W6 m ρ c (Proc.devRef .tc main_v35) from by
    show StableHlo.after hostOps3 (W6 m ρ c) (Proc.devRef .tc main_v35) = _
    after_results_simp]

theorem at8_main_arg1 (c : Dev nD) : W8 m ρ c (Proc.devRef .tc main_arg1) = m ((c : Thread nD τ).loc main_arg1) := by
  rw [W8_of_ne m ρ c main_arg1 (by decide)]
  rw [show W7 m ρ c (Proc.devRef .tc main_arg1) = W6 m ρ c (Proc.devRef .tc main_arg1) from by
    show StableHlo.after hostOps3 (W6 m ρ c) (Proc.devRef .tc main_arg1) = _
    after_results_simp]
  rw [W6_of_ne m ρ c main_arg1 (by decide)]
  rw [show W5 m ρ c (Proc.devRef .tc main_arg1) = W4 m ρ c (Proc.devRef .tc main_arg1) from by
    show StableHlo.after hostOps2 (W4 m ρ c) (Proc.devRef .tc main_arg1) = _
    after_results_simp]
  rw [W4_of_ne m ρ c main_arg1 (by decide)]
  rw [show W3 m ρ c (Proc.devRef .tc main_arg1) = W2 m ρ c (Proc.devRef .tc main_arg1) from by
    show StableHlo.after hostOps1 (W2 m ρ c) (Proc.devRef .tc main_arg1) = _
    after_results_simp]
  rw [W2_of_ne m ρ c main_arg1 (by decide)]
  rw [show W1 m ρ c (Proc.devRef .tc main_arg1) = W0 m ρ c (Proc.devRef .tc main_arg1) from by
    show StableHlo.after hostOps0 (W0 m ρ c) (Proc.devRef .tc main_arg1) = _
    after_results_simp]

theorem at8_main_arg2 (c : Dev nD) : W8 m ρ c (Proc.devRef .tc main_arg2) = m ((c : Thread nD τ).loc main_arg2) := by
  rw [W8_of_ne m ρ c main_arg2 (by decide)]
  rw [show W7 m ρ c (Proc.devRef .tc main_arg2) = W6 m ρ c (Proc.devRef .tc main_arg2) from by
    show StableHlo.after hostOps3 (W6 m ρ c) (Proc.devRef .tc main_arg2) = _
    after_results_simp]
  rw [W6_of_ne m ρ c main_arg2 (by decide)]
  rw [show W5 m ρ c (Proc.devRef .tc main_arg2) = W4 m ρ c (Proc.devRef .tc main_arg2) from by
    show StableHlo.after hostOps2 (W4 m ρ c) (Proc.devRef .tc main_arg2) = _
    after_results_simp]
  rw [W4_of_ne m ρ c main_arg2 (by decide)]
  rw [show W3 m ρ c (Proc.devRef .tc main_arg2) = W2 m ρ c (Proc.devRef .tc main_arg2) from by
    show StableHlo.after hostOps1 (W2 m ρ c) (Proc.devRef .tc main_arg2) = _
    after_results_simp]
  rw [W2_of_ne m ρ c main_arg2 (by decide)]
  rw [show W1 m ρ c (Proc.devRef .tc main_arg2) = W0 m ρ c (Proc.devRef .tc main_arg2) from by
    show StableHlo.after hostOps0 (W0 m ρ c) (Proc.devRef .tc main_arg2) = _
    after_results_simp]

theorem at8_main_arg3 (c : Dev nD) : W8 m ρ c (Proc.devRef .tc main_arg3) = m ((c : Thread nD τ).loc main_arg3) := by
  rw [W8_of_ne m ρ c main_arg3 (by decide)]
  rw [show W7 m ρ c (Proc.devRef .tc main_arg3) = W6 m ρ c (Proc.devRef .tc main_arg3) from by
    show StableHlo.after hostOps3 (W6 m ρ c) (Proc.devRef .tc main_arg3) = _
    after_results_simp]
  rw [W6_of_ne m ρ c main_arg3 (by decide)]
  rw [show W5 m ρ c (Proc.devRef .tc main_arg3) = W4 m ρ c (Proc.devRef .tc main_arg3) from by
    show StableHlo.after hostOps2 (W4 m ρ c) (Proc.devRef .tc main_arg3) = _
    after_results_simp]
  rw [W4_of_ne m ρ c main_arg3 (by decide)]
  rw [show W3 m ρ c (Proc.devRef .tc main_arg3) = W2 m ρ c (Proc.devRef .tc main_arg3) from by
    show StableHlo.after hostOps1 (W2 m ρ c) (Proc.devRef .tc main_arg3) = _
    after_results_simp]
  rw [W2_of_ne m ρ c main_arg3 (by decide)]
  rw [show W1 m ρ c (Proc.devRef .tc main_arg3) = W0 m ρ c (Proc.devRef .tc main_arg3) from by
    show StableHlo.after hostOps0 (W0 m ρ c) (Proc.devRef .tc main_arg3) = _
    after_results_simp]

theorem at9_main_v35 (c : Dev nD) : W9 m ρ c (Proc.devRef .tc main_v35) = W6 m ρ c (Proc.devRef .tc main_v35) := by
  rw [show W9 m ρ c (Proc.devRef .tc main_v35) = W8 m ρ c (Proc.devRef .tc main_v35) from by
    show StableHlo.after hostOps4 (W8 m ρ c) (Proc.devRef .tc main_v35) = _
    after_results_simp]
  rw [W8_keep_main_v35]
  rw [show W7 m ρ c (Proc.devRef .tc main_v35) = W6 m ρ c (Proc.devRef .tc main_v35) from by
    show StableHlo.after hostOps3 (W6 m ρ c) (Proc.devRef .tc main_v35) = _
    after_results_simp]

theorem at9_main_v39 (c : Dev nD) : W9 m ρ c (Proc.devRef .tc main_v39) = W7 m ρ c (Proc.devRef .tc main_v39) := by
  rw [show W9 m ρ c (Proc.devRef .tc main_v39) = W8 m ρ c (Proc.devRef .tc main_v39) from by
    show StableHlo.after hostOps4 (W8 m ρ c) (Proc.devRef .tc main_v39) = _
    after_results_simp]
  rw [W8_of_ne m ρ c main_v39 (by decide)]

theorem at9_main_v42 (c : Dev nD) : W9 m ρ c (Proc.devRef .tc main_v42) = W7 m ρ c (Proc.devRef .tc main_v42) := by
  rw [show W9 m ρ c (Proc.devRef .tc main_v42) = W8 m ρ c (Proc.devRef .tc main_v42) from by
    show StableHlo.after hostOps4 (W8 m ρ c) (Proc.devRef .tc main_v42) = _
    after_results_simp]
  rw [W8_of_ne m ρ c main_v42 (by decide)]

theorem at11_main_v64_0 (c : Dev nD) : W11 m ρ c (Proc.devRef .tc main_v64_0) = W10 m ρ c (Proc.devRef .tc main_v64_0) := by
  rw [show W11 m ρ c (Proc.devRef .tc main_v64_0) = W10 m ρ c (Proc.devRef .tc main_v64_0) from by
    show StableHlo.after hostOps5 (W10 m ρ c) (Proc.devRef .tc main_v64_0) = _
    after_results_simp]

theorem at11_main_v45 (c : Dev nD) : W11 m ρ c (Proc.devRef .tc main_v45) = W7 m ρ c (Proc.devRef .tc main_v45) := by
  rw [show W11 m ρ c (Proc.devRef .tc main_v45) = W10 m ρ c (Proc.devRef .tc main_v45) from by
    show StableHlo.after hostOps5 (W10 m ρ c) (Proc.devRef .tc main_v45) = _
    after_results_simp]
  rw [W10_of_ne m ρ c main_v45 (by decide)]
  rw [show W9 m ρ c (Proc.devRef .tc main_v45) = W8 m ρ c (Proc.devRef .tc main_v45) from by
    show StableHlo.after hostOps4 (W8 m ρ c) (Proc.devRef .tc main_v45) = _
    after_results_simp]
  rw [W8_of_ne m ρ c main_v45 (by decide)]

theorem at11_main_v48 (c : Dev nD) : W11 m ρ c (Proc.devRef .tc main_v48) = W7 m ρ c (Proc.devRef .tc main_v48) := by
  rw [show W11 m ρ c (Proc.devRef .tc main_v48) = W10 m ρ c (Proc.devRef .tc main_v48) from by
    show StableHlo.after hostOps5 (W10 m ρ c) (Proc.devRef .tc main_v48) = _
    after_results_simp]
  rw [W10_of_ne m ρ c main_v48 (by decide)]
  rw [show W9 m ρ c (Proc.devRef .tc main_v48) = W8 m ρ c (Proc.devRef .tc main_v48) from by
    show StableHlo.after hostOps4 (W8 m ρ c) (Proc.devRef .tc main_v48) = _
    after_results_simp]
  rw [W8_of_ne m ρ c main_v48 (by decide)]

theorem at11_main_arg0 (c : Dev nD) : W11 m ρ c (Proc.devRef .tc main_arg0) = m ((c : Thread nD τ).loc main_arg0) := by
  rw [show W11 m ρ c (Proc.devRef .tc main_arg0) = W10 m ρ c (Proc.devRef .tc main_arg0) from by
    show StableHlo.after hostOps5 (W10 m ρ c) (Proc.devRef .tc main_arg0) = _
    after_results_simp]
  rw [W10_of_ne m ρ c main_arg0 (by decide)]
  rw [show W9 m ρ c (Proc.devRef .tc main_arg0) = W8 m ρ c (Proc.devRef .tc main_arg0) from by
    show StableHlo.after hostOps4 (W8 m ρ c) (Proc.devRef .tc main_arg0) = _
    after_results_simp]
  rw [W8_of_ne m ρ c main_arg0 (by decide)]
  rw [show W7 m ρ c (Proc.devRef .tc main_arg0) = W6 m ρ c (Proc.devRef .tc main_arg0) from by
    show StableHlo.after hostOps3 (W6 m ρ c) (Proc.devRef .tc main_arg0) = _
    after_results_simp]
  rw [W6_of_ne m ρ c main_arg0 (by decide)]
  rw [show W5 m ρ c (Proc.devRef .tc main_arg0) = W4 m ρ c (Proc.devRef .tc main_arg0) from by
    show StableHlo.after hostOps2 (W4 m ρ c) (Proc.devRef .tc main_arg0) = _
    after_results_simp]
  rw [W4_keep_main_arg0]
  rw [show W3 m ρ c (Proc.devRef .tc main_arg0) = W2 m ρ c (Proc.devRef .tc main_arg0) from by
    show StableHlo.after hostOps1 (W2 m ρ c) (Proc.devRef .tc main_arg0) = _
    after_results_simp]
  rw [W2_keep_main_arg0]
  rw [show W1 m ρ c (Proc.devRef .tc main_arg0) = W0 m ρ c (Proc.devRef .tc main_arg0) from by
    show StableHlo.after hostOps0 (W0 m ρ c) (Proc.devRef .tc main_arg0) = _
    after_results_simp]

theorem at12_main_arg4 (c : Dev nD) : W12 m ρ c (Proc.devRef .tc main_arg4) = m ((c : Thread nD τ).loc main_arg4) := by
  rw [W12_of_ne m ρ c main_arg4 (by decide)]
  rw [show W11 m ρ c (Proc.devRef .tc main_arg4) = W10 m ρ c (Proc.devRef .tc main_arg4) from by
    show StableHlo.after hostOps5 (W10 m ρ c) (Proc.devRef .tc main_arg4) = _
    after_results_simp]
  rw [W10_of_ne m ρ c main_arg4 (by decide)]
  rw [show W9 m ρ c (Proc.devRef .tc main_arg4) = W8 m ρ c (Proc.devRef .tc main_arg4) from by
    show StableHlo.after hostOps4 (W8 m ρ c) (Proc.devRef .tc main_arg4) = _
    after_results_simp]
  rw [W8_of_ne m ρ c main_arg4 (by decide)]
  rw [show W7 m ρ c (Proc.devRef .tc main_arg4) = W6 m ρ c (Proc.devRef .tc main_arg4) from by
    show StableHlo.after hostOps3 (W6 m ρ c) (Proc.devRef .tc main_arg4) = _
    after_results_simp]
  rw [W6_of_ne m ρ c main_arg4 (by decide)]
  rw [show W5 m ρ c (Proc.devRef .tc main_arg4) = W4 m ρ c (Proc.devRef .tc main_arg4) from by
    show StableHlo.after hostOps2 (W4 m ρ c) (Proc.devRef .tc main_arg4) = _
    after_results_simp]
  rw [W4_of_ne m ρ c main_arg4 (by decide)]
  rw [show W3 m ρ c (Proc.devRef .tc main_arg4) = W2 m ρ c (Proc.devRef .tc main_arg4) from by
    show StableHlo.after hostOps1 (W2 m ρ c) (Proc.devRef .tc main_arg4) = _
    after_results_simp]
  rw [W2_of_ne m ρ c main_arg4 (by decide)]
  rw [show W1 m ρ c (Proc.devRef .tc main_arg4) = W0 m ρ c (Proc.devRef .tc main_arg4) from by
    show StableHlo.after hostOps0 (W0 m ρ c) (Proc.devRef .tc main_arg4) = _
    after_results_simp]

theorem at12_main_arg10 (c : Dev nD) : W12 m ρ c (Proc.devRef .tc main_arg10) = m ((c : Thread nD τ).loc main_arg10) := by
  rw [W12_of_ne m ρ c main_arg10 (by decide)]
  rw [show W11 m ρ c (Proc.devRef .tc main_arg10) = W10 m ρ c (Proc.devRef .tc main_arg10) from by
    show StableHlo.after hostOps5 (W10 m ρ c) (Proc.devRef .tc main_arg10) = _
    after_results_simp]
  rw [W10_of_ne m ρ c main_arg10 (by decide)]
  rw [show W9 m ρ c (Proc.devRef .tc main_arg10) = W8 m ρ c (Proc.devRef .tc main_arg10) from by
    show StableHlo.after hostOps4 (W8 m ρ c) (Proc.devRef .tc main_arg10) = _
    after_results_simp]
  rw [W8_of_ne m ρ c main_arg10 (by decide)]
  rw [show W7 m ρ c (Proc.devRef .tc main_arg10) = W6 m ρ c (Proc.devRef .tc main_arg10) from by
    show StableHlo.after hostOps3 (W6 m ρ c) (Proc.devRef .tc main_arg10) = _
    after_results_simp]
  rw [W6_of_ne m ρ c main_arg10 (by decide)]
  rw [show W5 m ρ c (Proc.devRef .tc main_arg10) = W4 m ρ c (Proc.devRef .tc main_arg10) from by
    show StableHlo.after hostOps2 (W4 m ρ c) (Proc.devRef .tc main_arg10) = _
    after_results_simp]
  rw [W4_of_ne m ρ c main_arg10 (by decide)]
  rw [show W3 m ρ c (Proc.devRef .tc main_arg10) = W2 m ρ c (Proc.devRef .tc main_arg10) from by
    show StableHlo.after hostOps1 (W2 m ρ c) (Proc.devRef .tc main_arg10) = _
    after_results_simp]
  rw [W2_of_ne m ρ c main_arg10 (by decide)]
  rw [show W1 m ρ c (Proc.devRef .tc main_arg10) = W0 m ρ c (Proc.devRef .tc main_arg10) from by
    show StableHlo.after hostOps0 (W0 m ρ c) (Proc.devRef .tc main_arg10) = _
    after_results_simp]

theorem at12_main_arg11 (c : Dev nD) : W12 m ρ c (Proc.devRef .tc main_arg11) = m ((c : Thread nD τ).loc main_arg11) := by
  rw [W12_of_ne m ρ c main_arg11 (by decide)]
  rw [show W11 m ρ c (Proc.devRef .tc main_arg11) = W10 m ρ c (Proc.devRef .tc main_arg11) from by
    show StableHlo.after hostOps5 (W10 m ρ c) (Proc.devRef .tc main_arg11) = _
    after_results_simp]
  rw [W10_of_ne m ρ c main_arg11 (by decide)]
  rw [show W9 m ρ c (Proc.devRef .tc main_arg11) = W8 m ρ c (Proc.devRef .tc main_arg11) from by
    show StableHlo.after hostOps4 (W8 m ρ c) (Proc.devRef .tc main_arg11) = _
    after_results_simp]
  rw [W8_of_ne m ρ c main_arg11 (by decide)]
  rw [show W7 m ρ c (Proc.devRef .tc main_arg11) = W6 m ρ c (Proc.devRef .tc main_arg11) from by
    show StableHlo.after hostOps3 (W6 m ρ c) (Proc.devRef .tc main_arg11) = _
    after_results_simp]
  rw [W6_of_ne m ρ c main_arg11 (by decide)]
  rw [show W5 m ρ c (Proc.devRef .tc main_arg11) = W4 m ρ c (Proc.devRef .tc main_arg11) from by
    show StableHlo.after hostOps2 (W4 m ρ c) (Proc.devRef .tc main_arg11) = _
    after_results_simp]
  rw [W4_of_ne m ρ c main_arg11 (by decide)]
  rw [show W3 m ρ c (Proc.devRef .tc main_arg11) = W2 m ρ c (Proc.devRef .tc main_arg11) from by
    show StableHlo.after hostOps1 (W2 m ρ c) (Proc.devRef .tc main_arg11) = _
    after_results_simp]
  rw [W2_of_ne m ρ c main_arg11 (by decide)]
  rw [show W1 m ρ c (Proc.devRef .tc main_arg11) = W0 m ρ c (Proc.devRef .tc main_arg11) from by
    show StableHlo.after hostOps0 (W0 m ρ c) (Proc.devRef .tc main_arg11) = _
    after_results_simp]

end Cert.KernelIdeal.Named

end
-- ==== Proof.KHost2.lean ====
/-
  The host stretches of the second layer and of the edge stage, read.  Before the fourth launch the program cuts the
  second layer's two weight matrices, its bias, scale and shift out of the stacked parameter arrays (a slice and a
  reshape each; the three vectors are laid out as one-row arrays).  Between the fourth and the fifth launch it
  aggregates the second layer's support rows over the graph's edges (a gather by one endpoint, a scaling by the edge
  weight, a scatter-add by the other endpoint): the very operations the reference applies to its own support, so
  equal supports give equal aggregates.  Before the last launch it gathers the embeddings of the two endpoints of
  every scored edge (the reference's two gathers of its own embedding), cuts the classifier's weight column into its
  two halves and lays the classifier's bias out as a one-by-one array.
-/
import proofs.«113632_j80152679678507_2_alg».proof.Proof.Gen.KernelIdeal.Frame
import proofs.«113632_j80152679678507_2_alg».proof.Proof.Gen.ReferenceIdeal.Read
import proofs.«113632_j80152679678507_2_alg».proof.Proof.KWalk
import proofs.«113632_j80152679678507_2_alg».proof.Proof.KOrigin
import Idealize.ShloMosaic.Lib.ValueIdx
import Idealize.ShloMosaic.Lib.ValueLayout
import Idealize.ShloMosaic.Lib.StableHlo.Run

set_option maxRecDepth 16384

noncomputable section

namespace Cert.KernelIdeal.Named

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

open Idealize.ShloMosaic.StableHlo
open Cert.ReferenceIdeal.Read (val_main_v56 val_main_v57 val_main_v70 val_main_v72 val_main_v76 val_main_v81 val_main_v83 val_main_v110 val_main_v119 val_main_v128)

variable (m : (ℓ : Loc nD τ sig) → Buf (Elt Ideal) ℓ) (ρ : Dev nD → PrngReg)

/-- The second layer's weight matrix. -/
theorem w7_v37 (c : Dev nD) :
    W7 m ρ c (Proc.devRef .tc main_v37) = val_main_v56 (F := Ideal) (m ((c : Thread nD τ).loc main_arg5)) := by
  show StableHlo.after hostOps3 (W6 m ρ c) (Proc.devRef .tc main_v37) = _
  after_results
  rw [at6_main_arg5]
  all_goals rfl

/-- The second layer's self-loop weight matrix. -/
theorem w7_v39 (c : Dev nD) :
    W7 m ρ c (Proc.devRef .tc main_v39) = val_main_v72 (F := Ideal) (m ((c : Thread nD τ).loc main_arg6)) := by
  show StableHlo.after hostOps3 (W6 m ρ c) (Proc.devRef .tc main_v39) = _
  after_results
  rw [at6_main_arg6]
  all_goals rfl

/-- The second layer's bias, as a row: entry (0, q) is entry q of the bias vector. -/
theorem w7_v42 (c : Dev nD) (q : Fin 128) :
    W7 m ρ c (Proc.devRef .tc main_v42) (ix2 (0 : Fin 1) q)
      = val_main_v76 (F := Ideal) (m ((c : Thread nD τ).loc main_arg7)) (ix1 q) := by
  have e : W7 m ρ c (Proc.devRef .tc main_v42)
      = shapeCast S1x128 (val_main_v76 (F := Ideal) (m ((c : Thread nD τ).loc main_arg7))) shapeCasts_S128_S1x128 := by
    show StableHlo.after hostOps3 (W6 m ρ c) (Proc.devRef .tc main_v42) = _
    after_results
    rw [at6_main_arg7]
    all_goals rfl
  rw [e]
  exact shapeCast_a_1a_apply _ _ (0 : Fin 1) q

/-- The second layer's scale, as a row. -/
theorem w7_v45 (c : Dev nD) (q : Fin 128) :
    W7 m ρ c (Proc.devRef .tc main_v45) (ix2 (0 : Fin 1) q)
      = val_main_v81 (F := Ideal) (m ((c : Thread nD τ).loc main_arg8)) (ix1 q) := by
  have e : W7 m ρ c (Proc.devRef .tc main_v45)
      = shapeCast S1x128 (val_main_v81 (F := Ideal) (m ((c : Thread nD τ).loc main_arg8))) shapeCasts_S128_S1x128 := by
    show StableHlo.after hostOps3 (W6 m ρ c) (Proc.devRef .tc main_v45) = _
    after_results
    rw [at6_main_arg8]
    all_goals rfl
  rw [e]
  exact shapeCast_a_1a_apply _ _ (0 : Fin 1) q

/-- The second layer's shift, as a row. -/
theorem w7_v48 (c : Dev nD) (q : Fin 128) :
    W7 m ρ c (Proc.devRef .tc main_v48) (ix2 (0 : Fin 1) q)
      = val_main_v83 (F := Ideal) (m ((c : Thread nD τ).loc main_arg9)) (ix1 q) := by
  have e : W7 m ρ c (Proc.devRef .tc main_v48)
      = shapeCast S1x128 (val_main_v83 (F := Ideal) (m ((c : Thread nD τ).loc main_arg9))) shapeCasts_S128_S1x128 := by
    show StableHlo.after hostOps3 (W6 m ρ c) (Proc.devRef .tc main_v48) = _
    after_results
    rw [at6_main_arg9]
    all_goals rfl
  rw [e]
  exact shapeCast_a_1a_apply _ _ (0 : Fin 1) q

/-- The second aggregation over the edges: on a support equal to the reference's it is the reference's aggregate. -/
theorem w9_v63 (c : Dev nD)
    (hS : W8 m ρ c (Proc.devRef .tc main_v49) = val_main_v57 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9))) :
    W9 m ρ c (Proc.devRef .tc main_v63) = val_main_v70 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) := by
  show StableHlo.after hostOps4 (W8 m ρ c) (Proc.devRef .tc main_v63) = _
  after_results_simp
  rw [at8_main_arg1, at8_main_arg2, at8_main_arg3, hS]
  all_goals rfl

/-- The embeddings of the first endpoints: on an embedding equal to the reference's, the reference's gather. -/
theorem w13_v80 (c : Dev nD)
    (hE : W12 m ρ c (Proc.devRef .tc main_v71) = val_main_v110 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9))) :
    W13 m ρ c (Proc.devRef .tc main_v80) = val_main_v119 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  show StableHlo.after hostOps6 (W12 m ρ c) (Proc.devRef .tc main_v80) = _
  after_results_simp
  rw [at12_main_arg4, hE]
  all_goals rfl

/-- The embeddings of the second endpoints. -/
theorem w13_v89 (c : Dev nD)
    (hE : W12 m ρ c (Proc.devRef .tc main_v71) = val_main_v110 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9))) :
    W13 m ρ c (Proc.devRef .tc main_v89) = val_main_v128 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  show StableHlo.after hostOps6 (W12 m ρ c) (Proc.devRef .tc main_v89) = _
  after_results_simp
  rw [at12_main_arg4, hE]
  all_goals rfl

/-- The first half of the classifier's weight column. -/
theorem w13_v90 (c : Dev nD) (k : Fin 128) :
    W13 m ρ c (Proc.devRef .tc main_v90) (ix2 k (0 : Fin 1))
      = (m ((c : Thread nD τ).loc main_arg10) : (⟨S256x1, .f32⟩ : BufTy).Contents (Elt Ideal)) (ix2 (⟨k.val, by omega⟩ : Fin 256) (0 : Fin 1)) := by
  have e : W13 m ρ c (Proc.devRef .tc main_v90)
      = extractStridedSlice S128x1 ![0, 0] (m ((c : Thread nD τ).loc main_arg10) : (⟨S256x1, .f32⟩ : BufTy).Contents (Elt Ideal)) slices_S256x1_S128x1_0_0 := by
    show StableHlo.after hostOps6 (W12 m ρ c) (Proc.devRef .tc main_v90) = _
    after_results
    rw [at12_main_arg10]
    all_goals rfl
  rw [e]
  exact extractStridedSlice_apply _ _ _ _ _ (fun a => by
    match a with
    | ⟨0, _⟩ => show k.val = 0 + k.val; omega
    | ⟨1, _⟩ => show (0 : Fin 1).val = 0 + (0 : Fin 1).val; omega)

/-- The second half of the classifier's weight column. -/
theorem w13_v91 (c : Dev nD) (k : Fin 128) :
    W13 m ρ c (Proc.devRef .tc main_v91) (ix2 k (0 : Fin 1))
      = (m ((c : Thread nD τ).loc main_arg10) : (⟨S256x1, .f32⟩ : BufTy).Contents (Elt Ideal)) (ix2 (⟨128 + k.val, by omega⟩ : Fin 256) (0 : Fin 1)) := by
  have e : W13 m ρ c (Proc.devRef .tc main_v91)
      = extractStridedSlice S128x1 ![128, 0] (m ((c : Thread nD τ).loc main_arg10) : (⟨S256x1, .f32⟩ : BufTy).Contents (Elt Ideal)) slices_S256x1_S128x1_128_0 := by
    show StableHlo.after hostOps6 (W12 m ρ c) (Proc.devRef .tc main_v91) = _
    after_results
    rw [at12_main_arg10]
    all_goals rfl
  rw [e]
  exact extractStridedSlice_apply _ _ _ _ _ (fun a => by
    match a with
    | ⟨0, _⟩ => show 128 + k.val = 128 + k.val; omega
    | ⟨1, _⟩ => show (0 : Fin 1).val = 0 + (0 : Fin 1).val; omega)

/-- The classifier's bias, as a one-by-one array. -/
theorem w13_v92 (c : Dev nD) :
    W13 m ρ c (Proc.devRef .tc main_v92) (ix2 (0 : Fin 1) (0 : Fin 1))
      = (m ((c : Thread nD τ).loc main_arg11) : (⟨S1, .f32⟩ : BufTy).Contents (Elt Ideal)) (ix1 (0 : Fin 1)) := by
  have e : W13 m ρ c (Proc.devRef .tc main_v92)
      = shapeCast S1x1 (m ((c : Thread nD τ).loc main_arg11) : (⟨S1, .f32⟩ : BufTy).Contents (Elt Ideal)) shapeCasts_S1_S1x1 := by
    show StableHlo.after hostOps6 (W12 m ρ c) (Proc.devRef .tc main_v92) = _
    after_results
    rw [at12_main_arg11]
    all_goals rfl
  rw [e]
  exact shapeCast_a_1a_apply _ _ (0 : Fin 1) (0 : Fin 1)

end Cert.KernelIdeal.Named

end
-- ==== Proof.KHost1.lean ====
/-
  The host stretches of the first layer, read.  Before the first launch the program cuts the first layer's two weight
  matrices, its bias, scale and shift out of the stacked parameter arrays (a slice and a reshape each; the three
  vectors are laid out as one-row arrays).  Between the first two launches it aggregates the support rows over the
  graph's edges (a gather by one endpoint, a scaling by the edge weight, a scatter-add by the other endpoint):
  the very operations the reference applies to its own support, so equal supports give equal aggregates.  After the
  second launch it divides the two running totals by the number of rows and forms mean and variance rows.
-/
import proofs.«113632_j80152679678507_2_alg».proof.Proof.Gen.KernelIdeal.Frame
import proofs.«113632_j80152679678507_2_alg».proof.Proof.Gen.ReferenceIdeal.Read
import proofs.«113632_j80152679678507_2_alg».proof.Proof.KWalk
import proofs.«113632_j80152679678507_2_alg».proof.Proof.KOrigin
import Idealize.ShloMosaic.Lib.ValueIdx
import Idealize.ShloMosaic.Lib.ValueLayout
import Idealize.ShloMosaic.Lib.StableHlo.Run

set_option maxRecDepth 16384

noncomputable section

namespace Cert.KernelIdeal.Named

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

open Idealize.ShloMosaic.StableHlo
open Cert.ReferenceIdeal.Read (val_main_v1 val_main_v2 val_main_v15 val_main_v17 val_main_v21 val_main_v26 val_main_v28)

variable (m : (ℓ : Loc nD τ sig) → Buf (Elt Ideal) ℓ) (ρ : Dev nD → PrngReg)

/-- The first layer's weight matrix. -/
theorem w1_v1 (c : Dev nD) :
    W1 m ρ c (Proc.devRef .tc main_v1) = val_main_v1 (F := Ideal) (m ((c : Thread nD τ).loc main_arg5)) := by
  show StableHlo.after hostOps0 (W0 m ρ c) (Proc.devRef .tc main_v1) = _
  after_results
  rfl

/-- The first layer's self-loop weight matrix. -/
theorem w1_v3 (c : Dev nD) :
    W1 m ρ c (Proc.devRef .tc main_v3) = val_main_v17 (F := Ideal) (m ((c : Thread nD τ).loc main_arg6)) := by
  show StableHlo.after hostOps0 (W0 m ρ c) (Proc.devRef .tc main_v3) = _
  after_results
  rfl

/-- The first layer's bias, as a row: entry (0, q) is entry q of the bias vector. -/
theorem w1_v6 (c : Dev nD) (q : Fin 128) :
    W1 m ρ c (Proc.devRef .tc main_v6) (ix2 (0 : Fin 1) q)
      = val_main_v21 (F := Ideal) (m ((c : Thread nD τ).loc main_arg7)) (ix1 q) := by
  have e : W1 m ρ c (Proc.devRef .tc main_v6)
      = shapeCast S1x128 (val_main_v21 (F := Ideal) (m ((c : Thread nD τ).loc main_arg7))) shapeCasts_S128_S1x128 := by
    show StableHlo.after hostOps0 (W0 m ρ c) (Proc.devRef .tc main_v6) = _
    after_results
    rfl
  rw [e]
  exact shapeCast_a_1a_apply _ _ (0 : Fin 1) q

/-- The first layer's scale, as a row. -/
theorem w1_v9 (c : Dev nD) (q : Fin 128) :
    W1 m ρ c (Proc.devRef .tc main_v9) (ix2 (0 : Fin 1) q)
      = val_main_v26 (F := Ideal) (m ((c : Thread nD τ).loc main_arg8)) (ix1 q) := by
  have e : W1 m ρ c (Proc.devRef .tc main_v9)
      = shapeCast S1x128 (val_main_v26 (F := Ideal) (m ((c : Thread nD τ).loc main_arg8))) shapeCasts_S128_S1x128 := by
    show StableHlo.after hostOps0 (W0 m ρ c) (Proc.devRef .tc main_v9) = _
    after_results
    rfl
  rw [e]
  exact shapeCast_a_1a_apply _ _ (0 : Fin 1) q

/-- The first layer's shift, as a row. -/
theorem w1_v12 (c : Dev nD) (q : Fin 128) :
    W1 m ρ c (Proc.devRef .tc main_v12) (ix2 (0 : Fin 1) q)
      = val_main_v28 (F := Ideal) (m ((c : Thread nD τ).loc main_arg9)) (ix1 q) := by
  have e : W1 m ρ c (Proc.devRef .tc main_v12)
      = shapeCast S1x128 (val_main_v28 (F := Ideal) (m ((c : Thread nD τ).loc main_arg9))) shapeCasts_S128_S1x128 := by
    show StableHlo.after hostOps0 (W0 m ρ c) (Proc.devRef .tc main_v12) = _
    after_results
    rfl
  rw [e]
  exact shapeCast_a_1a_apply _ _ (0 : Fin 1) q

/-- The aggregation over the edges: on a support equal to the reference's it is the reference's aggregate. -/
theorem w3_v27 (c : Dev nD)
    (hS : W2 m ρ c (Proc.devRef .tc main_v13) = val_main_v2 (F := Ideal) (m ((c : Thread nD τ).loc main_arg0)) (m ((c : Thread nD τ).loc main_arg5))) :
    W3 m ρ c (Proc.devRef .tc main_v27)
      = val_main_v15 (F := Ideal) (m ((c : Thread nD τ).loc main_arg0)) (m ((c : Thread nD τ).loc main_arg1))
          (m ((c : Thread nD τ).loc main_arg2)) (m ((c : Thread nD τ).loc main_arg3)) (m ((c : Thread nD τ).loc main_arg5)) := by
  show StableHlo.after hostOps1 (W2 m ρ c) (Proc.devRef .tc main_v27) = _
  after_results_simp
  rw [at2_main_arg1, at2_main_arg2, at2_main_arg3, hS]
  rfl

end Cert.KernelIdeal.Named

end
-- ==== Proof.LibDenseBlock.lean ====
/-
  A weight matrix times a block, read at an index.

  A `tpu.matmul` of a `[K, N]` left operand with an `[N, Q]` right operand, contracting the left's second axis with the
  right's first, into a zero accumulator: over the extended reals entry `(k, q)` of the result is the plain sum
  `Σ n, l (k, n) * r (n, q)`.
-/
import Idealize.ShloMosaic.Lib.ValueIdx
import Idealize.ShloMosaic.PureOps.Ideal.Laws

noncomputable section

namespace Idealize.ShloMosaic.DenseBlock

open Idealize.ShloMosaic Idealize.ShloMosaic.ValueIdx

/-- The dimension numbers of `[K, N] · [N, Q] → [K, Q]`. -/
abbrev mmDims (K N Q : Nat)
    (wf : DotDims.WF ⟨2, ![K, N]⟩ ⟨2, ![N, Q]⟩ ⟨2, ![K, Q]⟩ [1] [0] [0] [1] [] []) :
    DotDims ⟨2, ![K, N]⟩ ⟨2, ![N, Q]⟩ ⟨2, ![K, Q]⟩ where
  lhsContracting := [1]
  rhsContracting := [0]
  lhsNonContracting := [0]
  rhsNonContracting := [1]
  lhsBatch := []
  rhsBatch := []
  wf := wf

section
variable {K N Q : Nat} (wf : DotDims.WF ⟨2, ![K, N]⟩ ⟨2, ![N, Q]⟩ ⟨2, ![K, Q]⟩ [1] [0] [0] [1] [] [])

/-- The left operand's row is the result's row. -/
theorem lhs_row (j : (⟨2, ![K, Q]⟩ : Shape).Idx) (c : (mmDims K N Q wf).contr.Idx) :
    ((mmDims K N Q wf).lhsIdx j c (0 : Fin 2)).val = (j 0).val := by
  unfold DotDims.lhsIdx
  rw [dif_neg (show ¬ (0 : Fin 2) ∈ (mmDims K N Q wf).lhsBatch from List.not_mem_nil),
    dif_pos (show (0 : Fin 2) ∈ (mmDims K N Q wf).lhsNonContracting from List.mem_singleton.mpr rfl)]
  rfl

/-- The left operand's column is the contraction position. -/
theorem lhs_col (j : (⟨2, ![K, Q]⟩ : Shape).Idx) (c : (mmDims K N Q wf).contr.Idx) :
    ((mmDims K N Q wf).lhsIdx j c (1 : Fin 2)).val = (c ⟨0, Nat.one_pos⟩).val :=
  (mmDims K N Q wf).lhsIdx_val_of_single rfl j c

/-- The right operand's row is the contraction position. -/
theorem rhs_row (j : (⟨2, ![K, Q]⟩ : Shape).Idx) (c : (mmDims K N Q wf).contr.Idx) :
    ((mmDims K N Q wf).rhsIdx j c (0 : Fin 2)).val = (c ⟨0, Nat.one_pos⟩).val :=
  (mmDims K N Q wf).rhsIdx_val_of_single rfl j c

/-- The right operand's column is the result's column. -/
theorem rhs_col (j : (⟨2, ![K, Q]⟩ : Shape).Idx) (c : (mmDims K N Q wf).contr.Idx) :
    ((mmDims K N Q wf).rhsIdx j c (1 : Fin 2)).val = (j 1).val := by
  unfold DotDims.rhsIdx
  rw [dif_neg (show ¬ (1 : Fin 2) ∈ (mmDims K N Q wf).rhsBatch from List.not_mem_nil),
    dif_pos (show (1 : Fin 2) ∈ (mmDims K N Q wf).rhsNonContracting from List.mem_singleton.mpr rfl)]
  rfl

/-- Entry `(k, q)` of the product into a zero accumulator is `Σ n, l (k, n) * r (n, q)`. -/
theorem matmul_zero_apply {φ₁ φ₂ : FTy} (l : FVec Ideal ⟨2, ![K, N]⟩ φ₁) (r : FVec Ideal ⟨2, ![N, Q]⟩ φ₂)
    (k : Fin K) (q : Fin Q) :
    FloatOps.matmul (mmDims K N Q wf) none l r (constant ⟨2, ![K, Q]⟩ .f32 0x00000000#32) (ix2 k q)
      = ∑ n : Fin N, l (ix2 k n) * r (ix2 n q) := by
  rw [Ideal.matmul_constant_zero_apply, ← Equiv.sum_comp (contrEquiv1 (mmDims K N Q wf) N rfl rfl).symm]
  refine Finset.sum_congr rfl fun n _ => ?_
  have hn := contrEquiv1_symm_val (mmDims K N Q wf) N rfl rfl n
  have el : (mmDims K N Q wf).lhsIdx (ix2 k q) ((contrEquiv1 (mmDims K N Q wf) N rfl rfl).symm n) = ix2 k n :=
    funext fun a => Fin.ext (by
      match a with
      | ⟨0, _⟩ => exact lhs_row wf _ _
      | ⟨1, _⟩ => exact (lhs_col wf _ _).trans hn)
  have er : (mmDims K N Q wf).rhsIdx (ix2 k q) ((contrEquiv1 (mmDims K N Q wf) N rfl rfl).symm n) = ix2 n q :=
    funext fun a => Fin.ext (by
      match a with
      | ⟨0, _⟩ => exact (rhs_row wf _ _).trans hn
      | ⟨1, _⟩ => exact rhs_col wf _ _)
  rw [el, er]

end

end Idealize.ShloMosaic.DenseBlock

end
-- ==== Proof.KPay.lean ====
/-
  The arithmetic of each kernel body at the extended reals, read at one entry.
  Rounding to a narrower float format is the identity here, a matrix product into a zero accumulator is the
  plain sum over the contracted axis, a lane reduction is the plain sum over the reduced axis, and a row
  broadcast reads the row.  So:
   * the support body is a block of rows times a weight matrix;
   * the combining body is (aggregate + rows · W) + bias row, and its two running totals add to what they held
     the column sums of that block and of its squares;
   * the normalising body is max (((γ · (x − μ)) · (v + ε)^(-1/2)) + β) 0 per entry, the last one adding a
     residual entry as well;
   * the edge body is the logistic function of (e₁ · w₁ + e₂ · w₂) + c.
-/
import proofs.«113632_j80152679678507_2_alg».proof.Proof.Gen.KernelIdeal.Skeleton
import proofs.«113632_j80152679678507_2_alg».proof.Proof.LibDenseBlock
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen
open Idealize.ShloMosaic Idealize.ShloMosaic.ValueIdx
open scoped BigOperators

variable [Facts]

/-- A block of 5000 rows times a 128 × 128 matrix, into zero: entry (a, q) is Σ k, l (a, k) · r (k, q). -/
theorem mm5000 {φ₁ φ₂ : FTy} (l : FVec Ideal S5000x128 φ₁) (r : FVec Ideal S128x128 φ₂) (a : Fin 5000) (q : Fin 128) :
    matmul dot_S5000x128_S128x128_S5000x128_1_0_0_1_n_n none l r (constant S5000x128 .f32 0x00000000#32) (ix2 a q)
      = ∑ k : Fin 128, l (ix2 a k) * r (ix2 k q) :=
  DenseBlock.matmul_zero_apply (K := 5000) (N := 128) (Q := 128) dot_S5000x128_S128x128_S5000x128_1_0_0_1_n_n_wf l r a q

/-- A block of 10000 rows times a 128 × 1 column, into zero: entry (a, 0) is Σ k, l (a, k) · r (k, 0). -/
theorem mm10000 {φ₁ φ₂ : FTy} (l : FVec Ideal S10000x128 φ₁) (r : FVec Ideal S128x1 φ₂) (a : Fin 10000) (q : Fin 1) :
    matmul dot_S10000x128_S128x1_S10000x1_1_0_0_1_n_n none l r (constant S10000x1 .f32 0x00000000#32) (ix2 a q)
      = ∑ k : Fin 128, l (ix2 a k) * r (ix2 k q) :=
  DenseBlock.matmul_zero_apply (K := 10000) (N := 128) (Q := 1) dot_S10000x128_S128x1_S10000x1_1_0_0_1_n_n_wf l r a q

/-- The first layer's support body: rows times weights. -/
theorem support0 (x0 : Vec Ideal S5000x128 .f32) (x1 : Vec Ideal S128x128 .f32) (a : Fin 5000) (q : Fin 128) :
    k0_pay1 x0 x1 (ix2 a q) = ∑ k : Fin 128, x0 (ix2 a k) * x1 (ix2 k q) := by
  unfold k0_pay1
  simp only [shapeCast_self]
  exact mm5000 _ _ a q

/-- The second layer's support body: rows times weights. -/
theorem support3 (x0 : Vec Ideal S5000x128 .f32) (x1 : Vec Ideal S128x128 .f32) (a : Fin 5000) (q : Fin 128) :
    k3_pay1 x0 x1 (ix2 a q) = ∑ k : Fin 128, x0 (ix2 a k) * x1 (ix2 k q) := by
  unfold k3_pay1
  simp only [shapeCast_self]
  exact mm5000 _ _ a q

/-- The first layer's combining body: (aggregate + rows · W) + bias row. -/
theorem pre1 (xh : Vec Ideal S5000x128 .f32) (xW : Vec Ideal S128x128 .f32) (xa : Vec Ideal S5000x128 .f32)
    (xb : Vec Ideal S1x128 .f32) (a : Fin 5000) (q : Fin 128) :
    k1_pay3 xh xW xa xb (ix2 a q)
      = (xa (ix2 a q) + ∑ k : Fin 128, xh (ix2 a k) * xW (ix2 k q)) + xb (ix2 (0 : Fin 1) q) := by
  unfold k1_pay3
  simp only [shapeCast_self]
  exact congrArg₂ (· + ·) (congrArg (xa (ix2 a q) + ·) (mm5000 _ _ a q)) (broadcastTo_1b_ab_apply xb _ a q)

/-- The second layer's combining body: (aggregate + rows · W) + bias row. -/
theorem pre4 (xh : Vec Ideal S5000x128 .f32) (xW : Vec Ideal S128x128 .f32) (xa : Vec Ideal S5000x128 .f32)
    (xb : Vec Ideal S1x128 .f32) (a : Fin 5000) (q : Fin 128) :
    k4_pay3 xh xW xa xb (ix2 a q)
      = (xa (ix2 a q) + ∑ k : Fin 128, xh (ix2 a k) * xW (ix2 k q)) + xb (ix2 (0 : Fin 1) q) := by
  unfold k4_pay3
  simp only [shapeCast_self]
  exact congrArg₂ (· + ·) (congrArg (xa (ix2 a q) + ·) (mm5000 _ _ a q)) (broadcastTo_1b_ab_apply xb _ a q)

/-- The sum over the 5000 rows of a block, laid out as a row: entry (0, q) is Σ a, v (a, q). -/
theorem colsum_row (v : FVec Ideal S5000x128 .f32) (hacc : (0x00000000#32 : BitVec 32) = 0x00000000#32) (q : Fin 128) :
    shapeCast S1x128 (multiReduction .add [0] S128 v 0x00000000#32 reduces_S5000x128_S128 (.inl rfl) hacc) shapeCasts_S128_S1x128
        (ix2 (0 : Fin 1) q) = ∑ a : Fin 5000, v (ix2 a q) := by
  refine (shapeCast_a_1a_apply _ shapeCasts_S128_S1x128 (0 : Fin 1) q).trans ?_
  refine (Ideal.multiReduction_add_single v 0x00000000#32 reduces_S5000x128_S128 (.inl rfl) hacc (ix1 q)).trans ?_
  refine Finset.sum_congr rfl fun a _ => congrArg v ?_
  funext d
  match d with
  | ⟨0, _⟩ => rfl
  | ⟨1, _⟩ => rfl

/-- The first layer's running column sum: what it held plus the block's column sums. -/
theorem sum1 (xh : Vec Ideal S5000x128 .f32) (xW : Vec Ideal S128x128 .f32) (xa : Vec Ideal S5000x128 .f32)
    (xb : Vec Ideal S1x128 .f32) (acc : Vec Ideal S1x128 .f32) (q : Fin 128) :
    k1_pay4 xh xW xa xb acc (ix2 (0 : Fin 1) q)
      = acc (ix2 (0 : Fin 1) q) + ∑ a : Fin 5000, k1_pay3 xh xW xa xb (ix2 a q) := by
  unfold k1_pay4
  simp only [shapeCast_self]
  exact congrArg (acc (ix2 (0 : Fin 1) q) + ·) (colsum_row (k1_pay3 xh xW xa xb) rfl q)

/-- The first layer's running column sum of squares. -/
theorem sumsq1 (xh : Vec Ideal S5000x128 .f32) (xW : Vec Ideal S128x128 .f32) (xa : Vec Ideal S5000x128 .f32)
    (xb : Vec Ideal S1x128 .f32) (acc : Vec Ideal S1x128 .f32) (q : Fin 128) :
    k1_pay5 xh xW xa xb acc (ix2 (0 : Fin 1) q)
      = acc (ix2 (0 : Fin 1) q) + ∑ a : Fin 5000, k1_pay3 xh xW xa xb (ix2 a q) * k1_pay3 xh xW xa xb (ix2 a q) := by
  unfold k1_pay5
  simp only [shapeCast_self]
  exact congrArg (acc (ix2 (0 : Fin 1) q) + ·) (colsum_row (mulf (k1_pay3 xh xW xa xb) (k1_pay3 xh xW xa xb)) rfl q)

/-- The second layer's running column sum. -/
theorem sum4 (xh : Vec Ideal S5000x128 .f32) (xW : Vec Ideal S128x128 .f32) (xa : Vec Ideal S5000x128 .f32)
    (xb : Vec Ideal S1x128 .f32) (acc : Vec Ideal S1x128 .f32) (q : Fin 128) :
    k4_pay4 xh xW xa xb acc (ix2 (0 : Fin 1) q)
      = acc (ix2 (0 : Fin 1) q) + ∑ a : Fin 5000, k4_pay3 xh xW xa xb (ix2 a q) := by
  unfold k4_pay4
  simp only [shapeCast_self]
  exact congrArg (acc (ix2 (0 : Fin 1) q) + ·) (colsum_row (k4_pay3 xh xW xa xb) rfl q)

/-- The second layer's running column sum of squares. -/
theorem sumsq4 (xh : Vec Ideal S5000x128 .f32) (xW : Vec Ideal S128x128 .f32) (xa : Vec Ideal S5000x128 .f32)
    (xb : Vec Ideal S1x128 .f32) (acc : Vec Ideal S1x128 .f32) (q : Fin 128) :
    k4_pay5 xh xW xa xb acc (ix2 (0 : Fin 1) q)
      = acc (ix2 (0 : Fin 1) q) + ∑ a : Fin 5000, k4_pay3 xh xW xa xb (ix2 a q) * k4_pay3 xh xW xa xb (ix2 a q) := by
  unfold k4_pay5
  simp only [shapeCast_self]
  exact congrArg (acc (ix2 (0 : Fin 1) q) + ·) (colsum_row (mulf (k4_pay3 xh xW xa xb) (k4_pay3 xh xW xa xb)) rfl q)

/-- The reset stores the zero row. -/
theorem zero1a (j : S1x128.Idx) : k1_pay1 (F := Ideal) j = 0 := Ideal.ofBits_zero_f32
theorem zero1b (j : S1x128.Idx) : k1_pay2 (F := Ideal) j = 0 := Ideal.ofBits_zero_f32
theorem zero4a (j : S1x128.Idx) : k4_pay1 (F := Ideal) j = 0 := Ideal.ofBits_zero_f32
theorem zero4b (j : S1x128.Idx) : k4_pay2 (F := Ideal) j = 0 := Ideal.ofBits_zero_f32

/-- The first layer's normalising body, per entry. -/
theorem norm2 (xv xg : Vec Ideal S1x128 .f32) (xo : Vec Ideal S5000x128 .f32) (xm xbeta : Vec Ideal S1x128 .f32)
    (a : Fin 5000) (q : Fin 128) :
    k2_pay1 xv xg xo xm xbeta (ix2 a q)
      = max (((xg (ix2 (0 : Fin 1) q) * (xo (ix2 a q) - xm (ix2 (0 : Fin 1) q)))
          * Ideal.rsqrt (xv (ix2 (0 : Fin 1) q) + Ideal.ofBits .f32 0x3727C5AC#32)) + xbeta (ix2 (0 : Fin 1) q)) 0 := by
  unfold k2_pay1
  simp only [shapeCast_self]
  simp only [maximumf_apply, addf_apply, mulf_apply, subf_apply, broadcast_apply, broadcastTo_1b_ab_apply]
  show max _ (Ideal.ofBits .f32 0x00000000#32) = _
  rw [Ideal.ofBits_zero_f32]
  rfl

/-- The second layer's normalising body, per entry, with the residual entry added. -/
theorem norm5 (xv xg : Vec Ideal S1x128 .f32) (xo : Vec Ideal S5000x128 .f32) (xm xbeta : Vec Ideal S1x128 .f32)
    (xr : Vec Ideal S5000x128 .f32) (a : Fin 5000) (q : Fin 128) :
    k5_pay1 xv xg xo xm xbeta xr (ix2 a q)
      = max (((xg (ix2 (0 : Fin 1) q) * (xo (ix2 a q) - xm (ix2 (0 : Fin 1) q)))
          * Ideal.rsqrt (xv (ix2 (0 : Fin 1) q) + Ideal.ofBits .f32 0x3727C5AC#32)) + xbeta (ix2 (0 : Fin 1) q)) 0
        + xr (ix2 a q) := by
  unfold k5_pay1
  simp only [shapeCast_self]
  simp only [truncf_apply, maximumf_apply, addf_apply, mulf_apply, subf_apply, broadcast_apply, broadcastTo_1b_ab_apply]
  show max _ (Ideal.ofBits .f32 0x00000000#32) + _ = _
  rw [Ideal.ofBits_zero_f32]
  rfl

/-- The edge body, per edge. -/
theorem edge6 (e1 e2 : Vec Ideal S10000x128 .bf16) (w1 w2 : Vec Ideal S128x1 .f32) (cb : Vec Ideal S1x1 .f32)
    (a : Fin 10000) :
    k6_pay1 e1 e2 w1 w2 cb (ix2 a (0 : Fin 1))
      = Ideal.logistic (((∑ k : Fin 128, e1 (ix2 a k) * w1 (ix2 k (0 : Fin 1)))
          + (∑ k : Fin 128, e2 (ix2 a k) * w2 (ix2 k (0 : Fin 1)))) + cb (ix2 (0 : Fin 1) (0 : Fin 1))) := by
  unfold k6_pay1
  simp only [shapeCast_self]
  refine congrArg Ideal.logistic ?_
  refine congrArg₂ (· + ·) (congrArg₂ (· + ·) (mm10000 _ _ a 0) (mm10000 _ _ a 0)) ?_
  exact broadcastTo_1b_ab_apply cb _ a (0 : Fin 1)

end Cert.KernelIdeal.Pay

end
-- ==== Proof.Spec.lean ====
/-
  The mathematics both programs compute, stated once over the extended reals, index by index.

  A graph-convolution layer on N = 50000 nodes with D = 128 features takes node features `h`, an already
  aggregated neighbourhood term `agg`, a self-loop weight matrix `W`, and a bias row `b`, and forms
  `pre = (agg + h · W) + b`.  The layer is then normalised per feature column over all N rows (batch
  statistics: the mean and the biased variance of the column), scaled by `γ`, shifted by `β`, and
  clamped below at 0.  The variance of a column can be written in two ways — "mean of the squares minus
  the square of the mean" (`varSq`) and "mean of the squared deviations from the mean" (`varDev`); for a
  column of real numbers they agree, and the normalised layer is stated over either.
  The edge score of an edge (u, v) is the logistic function of `eu · w₁ + ev · w₂ + c` where `eu`, `ev` are
  the embeddings of its endpoints and `w₁`, `w₂` the two halves of one 256-entry weight column.
-/
import Idealize.ShloMosaic.PureOps.Ideal
import Idealize.ShloMosaic.PureOps.Ideal.Laws
import Idealize.ShloMosaic.Lib.ValueIdx

noncomputable section

namespace Cert.Gcn

open Idealize.ShloMosaic Idealize.ShloMosaic.ValueIdx
open scoped BigOperators

/-- Node features: 50000 rows of 128. -/
abbrev SN : Shape := ⟨2, ![50000, 128]⟩
/-- A weight matrix: 128 by 128. -/
abbrev SW : Shape := ⟨2, ![128, 128]⟩
/-- A feature vector: 128 entries. -/
abbrev SV : Shape := ⟨1, ![128]⟩
/-- Edge-endpoint embeddings: 500000 rows of 128. -/
abbrev SE : Shape := ⟨2, ![500000, 128]⟩
/-- Edge scores: 500000 rows of 1. -/
abbrev SO : Shape := ⟨2, ![500000, 1]⟩
/-- The classifier's weight column: 256 entries. -/
abbrev SC : Shape := ⟨2, ![256, 1]⟩
/-- Half of the classifier's weight column: 128 entries. -/
abbrev SH : Shape := ⟨2, ![128, 1]⟩

/-- The number of rows, 50000, as the value of its single-precision word. -/
def cnt : EReal := Ideal.ofBits .f32 0x47435000#32
/-- The stabiliser added to a variance: the value of the single-precision word nearest 1e-5. -/
def eps : EReal := Ideal.ofBits .f32 0x3727C5AC#32

/-- `h · W`: entry (n, q) is the sum over k of h(n, k) · W(k, q). -/
def dense (h : SN.Idx → EReal) (W : SW.Idx → EReal) : SN.Idx → EReal :=
  fun i => ∑ k : Fin 128, h (ix2 (i 0) k) * W (ix2 k (i 1))

/-- The layer before normalisation: (agg + h · W) + b, the bias added to every row. -/
def pre (agg h : SN.Idx → EReal) (W : SW.Idx → EReal) (b : SV.Idx → EReal) : SN.Idx → EReal :=
  fun i => (agg i + dense h W i) + b (ix1 (i 1))

/-- The sum of column q over all rows. -/
def colSum (o : SN.Idx → EReal) (q : Fin 128) : EReal := ∑ n : Fin 50000, o (ix2 n q)
/-- The sum of the squares of column q over all rows. -/
def colSumSq (o : SN.Idx → EReal) (q : Fin 128) : EReal := ∑ n : Fin 50000, o (ix2 n q) * o (ix2 n q)
/-- The mean of column q. -/
def mean (o : SN.Idx → EReal) (q : Fin 128) : EReal := Ideal.div (colSum o q) cnt
/-- The variance of column q as the mean of the squares minus the square of the mean. -/
def varSq (o : SN.Idx → EReal) (q : Fin 128) : EReal := Ideal.div (colSumSq o q) cnt - mean o q * mean o q
/-- The variance of column q as the mean of the squared deviations from the mean. -/
def varDev (o : SN.Idx → EReal) (q : Fin 128) : EReal :=
  Ideal.div (∑ n : Fin 50000, (o (ix2 n q) - mean o q) * (o (ix2 n q) - mean o q)) cnt

/-- The normalised, scaled, shifted and clamped layer over a given variance per column:
    max (((γ · (o − mean)) · (var + eps)^(-1/2)) + β) 0. -/
def normRelu (var : Fin 128 → EReal) (o : SN.Idx → EReal) (γ β : SV.Idx → EReal) : SN.Idx → EReal :=
  fun i => max (((γ (ix1 (i 1)) * (o i - mean o (i 1))) * Ideal.rsqrt (var (i 1) + eps)) + β (ix1 (i 1))) 0

/-- The edge score: logistic of (eu · w₁ + ev · w₂) + c. -/
def edgeScore (eu ev : SE.Idx → EReal) (w1 w2 : SH.Idx → EReal) (c : EReal) : SO.Idx → EReal :=
  fun i => Ideal.logistic (((∑ k : Fin 128, eu (ix2 (i 0) k) * w1 (ix2 k (0 : Fin 1)))
    + (∑ k : Fin 128, ev (ix2 (i 0) k) * w2 (ix2 k (0 : Fin 1)))) + c)

end Cert.Gcn

end
-- ==== Proof.SpecRows.lean ====
/-
  The same layer read through one-row arrays.  A kernel keeps a per-column quantity (a bias, a mean, a variance,
  a scale, a shift, a running column sum) as an array of ONE row of 128 entries, and applies it to every row of a
  block.  These are the layer's pieces over such rows.
-/
import proofs.«113632_j80152679678507_2_alg».proof.Proof.Spec

noncomputable section

namespace Cert.Gcn

open Idealize.ShloMosaic Idealize.ShloMosaic.ValueIdx
open scoped BigOperators

/-- A per-column quantity as one row of 128 entries. -/
abbrev SR : Shape := ⟨2, ![1, 128]⟩

/-- (agg + h · W) + b with the bias a one-row array. -/
def rowPre (agg h : SN.Idx → EReal) (W : SW.Idx → EReal) (b : SR.Idx → EReal) : SN.Idx → EReal :=
  fun i => (agg i + dense h W i) + b (ix2 (0 : Fin 1) (i 1))

/-- The column sums of an array, from zero, as one row. -/
def rowSum (o : SN.Idx → EReal) : SR.Idx → EReal := fun j => 0 + ∑ n : Fin 50000, o (ix2 n (j 1))

/-- The column sums of the squares of an array, from zero, as one row. -/
def rowSumSq (o : SN.Idx → EReal) : SR.Idx → EReal := fun j => 0 + ∑ n : Fin 50000, o (ix2 n (j 1)) * o (ix2 n (j 1))

/-- The normalised, scaled, shifted and clamped layer with mean, variance, scale and shift one-row arrays. -/
def rowNorm (o : SN.Idx → EReal) (mu var g b : SR.Idx → EReal) : SN.Idx → EReal :=
  fun i => max (((g (ix2 (0 : Fin 1) (i 1)) * (o i - mu (ix2 (0 : Fin 1) (i 1))))
      * Ideal.rsqrt (var (ix2 (0 : Fin 1) (i 1)) + eps)) + b (ix2 (0 : Fin 1) (i 1))) 0

/-- The same with a residual array added after the clamp. -/
def rowNormRes (o : SN.Idx → EReal) (mu var g b : SR.Idx → EReal) (x : SN.Idx → EReal) : SN.Idx → EReal :=
  fun i => rowNorm o mu var g b i + x i

end Cert.Gcn

end
-- ==== Proof.KReg0.lean ====
/-
  The first layer's support launch: support = h · W, ten blocks of 5000 rows.
  Point t of the grid reads rows 5000 t … 5000 t + 4999 of the node features and the whole weight matrix, and
  writes back rows 5000 t … 5000 t + 4999 of the product; the ten blocks tile the 50000 rows, so after the launch
  the output array is the whole product, whatever the node-feature and weight arrays held at entry.
-/
import proofs.«113632_j80152679678507_2_alg».proof.Proof.Gen.KernelIdeal.Frame
import proofs.«113632_j80152679678507_2_alg».proof.Proof.KPay
import proofs.«113632_j80152679678507_2_alg».proof.Proof.Spec
import proofs.«113632_j80152679678507_2_alg».proof.Proof.SpecRows
import Idealize.ShloMosaic.Lib.Pipeline.Value

set_option maxRecDepth 16384

noncomputable section

namespace Cert.KernelIdeal.Named

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

theorem hz0 : (![0, 0] : Fin 2 → Nat) = fun _ => 0 := funext fun a => by fin_cases a <;> rfl

variable (V : (c : Dev nD) → (b : Ref sig .tc) → Buf (Elt Ideal) ((c : Thread nD τ).loc b))

/-- The block indices of the windows at every point of the grid: the row blocks move with the point, the
    one-block arrays stay. -/
theorem idx0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0
    ∧ t.val < 10 :=
  (by decide +kernel : ∀ t : Fin grid0.N, _)

/-- What point t writes back is block t of the launch's function of the arrays it found. -/
theorem flushed0 (c : Dev nD) (t : Fin cfg0.N) :
    (dat0 V c).flushed 2 t
      = ((cfg0.win 2).blk t).view.read (Elt Ideal) (Cert.Gcn.dense (V c main_arg0) (V c main_v1)) := by
  show (cfg0.win 2).cut (grid0.coords t) ((dat0 V c).after 2 t) = _
  rw [after0_2]
  unfold out0_2
  rw [View.canon_unit_zero hz0]
  simp only [View.ld_unit_zero (S := S5000x128) hz0, View.ld_unit_zero (S := S128x128) hz0]
  obtain ⟨e0, e1, e2, e3, e4, e5, e6⟩ := idx0 t
  funext j
  obtain ⟨a, q, rfl⟩ : ∃ (a : Fin 5000) (q : Fin 128), j = ix2 a q := ⟨j 0, j 1, eq_ix2 j⟩
  show k0_pay1 (iblk0 V c 0 t) (iblk0 V c 1 t) (ix2 a q)
    = (Cert.Gcn.dense (V c main_arg0) (V c main_v1)) (((cfg0.win 2).blk t).view.emb (ix2 a q))
  refine (Pay.support0 _ _ a q).trans ?_
  unfold Cert.Gcn.dense
  refine Finset.sum_congr rfl fun k _ => ?_
  have h0 : iblk0 V c 0 t (ix2 a k)
      = V c main_arg0 (ix2 ((((cfg0.win 2).blk t).view.emb (ix2 a q)) 0) k) := by
    show V c main_arg0 (((cfg0.win 0).blk t).view.emb (ix2 a k)) = _
    refine congrArg (V c main_arg0) ?_
    funext d; apply Fin.ext
    match d with
    | ⟨0, _⟩ => show win0_0.index t (0 : Fin 2) * 5000 + 1 * a.val = win0_2.index t (0 : Fin 2) * 5000 + 1 * a.val; omega
    | ⟨1, _⟩ => show win0_0.index t (1 : Fin 2) * 128 + 1 * k.val = k.val; omega
  have h1 : iblk0 V c 1 t (ix2 k q)
      = V c main_v1 (ix2 k ((((cfg0.win 2).blk t).view.emb (ix2 a q)) 1)) := by
    show V c main_v1 (((cfg0.win 1).blk t).view.emb (ix2 k q)) = _
    refine congrArg (V c main_v1) ?_
    funext d; apply Fin.ext
    match d with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega
  rw [h0, h1]

/-- An index of the output array is in point t's block iff each coordinate is in the block's range. -/
theorem mem_blk0 (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v13).slice (win0_2.rect t)).set ↔ _
  rw [View.set_slice_whole, Rect.mem_set_unit]
  exact Iff.rfl

/-- The row blocks cover the array: row r is in block r / 5000. -/
theorem cover0 (i : S50000x128.Idx) :
    ∃ t : Fin cfg0.N, (cfg0.win 2).flush t = true ∧ i ∈ ((cfg0.win 2).blk t).view.set := by
  have hN : cfg0.N = 10 := N_0
  have hi0 : (i 0).val < 50000 := (i 0).isLt
  have hi1 : (i 1).val < 128 := (i 1).isLt
  let t : Fin cfg0.N := ⟨(i 0).val / 5000, by rw [hN]; omega⟩
  obtain ⟨e0, e1, e2, e3, e4, e5, e6⟩ := idx0 t
  have e' : win0_2.index t (0 : Fin 2) = (i 0).val / 5000 := e4
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After the launch the output array is the launch's function of the arrays it found. -/
theorem final0 (c : Dev nD) :
    (dat0 V c).arrAt 2 cfg0.N = Cert.Gcn.dense (V c main_arg0) (V c main_v1) :=
  (dat0 V c).arrAt_eq_of_cover 2 _ (fun t _ => flushed0 V c t) cover0

end Cert.KernelIdeal.Named

end
-- ==== Proof.LibBlockSum.lean ====
import Idealize.ShloMosaic.PureOps.Ideal
import Idealize.ShloMosaic.PureOps.Ideal.Laws

/-!
# A long sum taken block by block

A sum over n = k · s terms may be taken in k blocks of s consecutive terms: each block is summed on
its own, and the block sums are added one after another to a running total that starts from a given
value z.  Addition being commutative and associative, the final total is z plus the sum of all n
terms.  Nothing here needs the terms to be finite: the statements hold in any commutative additive
monoid, the extended reals among them.

The blocks are indexed t = 0, …, k - 1 and term r of block t is term s · t + r of the whole.
-/

namespace Idealize.ShloMosaic.BlockSum

open scoped BigOperators

variable {M : Type*} [AddCommMonoid M]

/-- Term r of block t is a term of the whole: s · t + r < n when t < k, r < s and k · s = n. -/
theorem index_lt {k s n : ℕ} (hn : k * s = n) {t : ℕ} (ht : t < k) (r : Fin s) : s * t + r.val < n := by
  have h1 : s * t + s ≤ s * k := by
    calc s * t + s = s * (t + 1) := by ring
      _ ≤ s * k := Nat.mul_le_mul_left s ht
  have h2 : s * k = n := by rw [Nat.mul_comm]; exact hn
  have := r.isLt
  omega

/-- **The sum of the block sums is the whole sum.** -/
theorem sum_blocks {k s n : ℕ} (hn : k * s = n) (f : Fin n → M) :
    ∑ t : Fin k, ∑ r : Fin s, f ⟨s * t.val + r.val, index_lt hn t.isLt r⟩ = ∑ i : Fin n, f i := by
  subst hn
  rw [← Equiv.sum_comp finProdFinEquiv f, Fintype.sum_prod_type]
  refine Finset.sum_congr rfl fun t _ => Finset.sum_congr rfl fun r _ => congrArg f (Fin.ext ?_)
  simp [finProdFinEquiv, Nat.add_comm]

/-- A running total that starts at z + B 0 and adds B (t + 1) at step t + 1 is, after step t, the start
    value plus the sum of B 0, …, B t.  The recurrence is only asked below k. -/
theorem acc_eq_sum_range (k : ℕ) (B acc : ℕ → M) (z : M) (h0 : acc 0 = z + B 0)
    (hs : ∀ t, t + 1 < k → acc (t + 1) = acc t + B (t + 1)) :
    ∀ t, t < k → acc t = z + ∑ u ∈ Finset.range (t + 1), B u := by
  intro t
  induction t with
  | zero => intro _; rw [h0, Finset.sum_range_one]
  | succ t ih =>
    intro ht
    rw [hs t ht, ih (Nat.lt_of_succ_lt ht), Finset.sum_range_succ _ (t + 1), add_assoc]

/-- **A sum over k · s = n terms taken k blocks of s at a time.**  If B t is the sum of block t (for
    t < k), and the running total acc starts at z + B 0 and adds B (t + 1) at step t + 1, then after the
    last step the total is z plus the sum of all n terms. -/
theorem blockSum_eq {k s n : ℕ} (hn : k * s = n) (hk : 0 < k) (f : Fin n → M) (B acc : ℕ → M) (z : M)
    (hB : ∀ t (ht : t < k), B t = ∑ r : Fin s, f ⟨s * t + r.val, index_lt hn ht r⟩)
    (h0 : acc 0 = z + B 0) (hs : ∀ t, t + 1 < k → acc (t + 1) = acc t + B (t + 1)) :
    acc (k - 1) = z + ∑ i : Fin n, f i := by
  rw [acc_eq_sum_range k B acc z h0 hs (k - 1) (Nat.sub_lt hk Nat.one_pos), Nat.sub_add_cancel hk,
    ← Fin.sum_univ_eq_sum_range B k, ← sum_blocks hn f]
  exact congrArg (z + ·) (Finset.sum_congr rfl fun t _ => hB t.val t.isLt)

/-- The same for any intermediate step: after step t < k the total is z plus the sum of the first
    t + 1 blocks' terms, written as a double sum. -/
theorem blockSum_partial {k s n : ℕ} (hn : k * s = n) (f : Fin n → M) (B acc : ℕ → M) (z : M)
    (hB : ∀ t (ht : t < k), B t = ∑ r : Fin s, f ⟨s * t + r.val, index_lt hn ht r⟩)
    (h0 : acc 0 = z + B 0) (hs : ∀ t, t + 1 < k → acc (t + 1) = acc t + B (t + 1)) (t : ℕ) (ht : t < k) :
    acc t = z + ∑ u : Fin (t + 1), ∑ r : Fin s,
      f ⟨s * u.val + r.val, index_lt hn (Nat.lt_of_lt_of_le u.isLt ht) r⟩ := by
  rw [acc_eq_sum_range k B acc z h0 hs t ht, ← Fin.sum_univ_eq_sum_range B (t + 1)]
  exact congrArg (z + ·) (Finset.sum_congr rfl fun u _ => hB u.val (Nat.lt_of_lt_of_le u.isLt ht))

/-! ## Ten blocks of 5000 -/

/-- 50000 terms taken ten blocks of 5000 at a time, as a running total over ℕ. -/
theorem blockSum_10x5000 (f : Fin 50000 → M) (B acc : ℕ → M) (z : M)
    (hB : ∀ t (ht : t < 10), B t = ∑ r : Fin 5000, f ⟨5000 * t + r.val, index_lt (k := 10) (by norm_num) ht r⟩)
    (h0 : acc 0 = z + B 0) (hs : ∀ t, t + 1 < 10 → acc (t + 1) = acc t + B (t + 1)) :
    acc 9 = z + ∑ i : Fin 50000, f i :=
  blockSum_eq (k := 10) (s := 5000) (by norm_num) (by norm_num) f B acc z hB h0 hs

/-- 50000 terms taken ten blocks of 5000 at a time, the ten additions written out: the total that
    starts from z and adds the ten block sums B 0, …, B 9 in order is z plus the sum of all terms. -/
theorem blockSum_10x5000_unrolled (f : Fin 50000 → M) (B : Fin 10 → M) (z : M)
    (hB : ∀ t : Fin 10, B t = ∑ r : Fin 5000, f ⟨5000 * t.val + r.val, index_lt (k := 10) (by norm_num) t.isLt r⟩) :
    z + B 0 + B 1 + B 2 + B 3 + B 4 + B 5 + B 6 + B 7 + B 8 + B 9 = z + ∑ i : Fin 50000, f i := by
  rw [← sum_blocks (k := 10) (s := 5000) (by norm_num) f]
  simp only [← hB]
  simp only [Fin.sum_univ_succ, Fin.sum_univ_zero, add_zero, add_assoc]
  rfl

/-- At the extended reals with z the zero word's value: the total is 0 + the whole sum, and so the
    whole sum. -/
theorem blockSum_10x5000_ereal (f : Fin 50000 → EReal) (B acc : ℕ → EReal)
    (hB : ∀ t (ht : t < 10), B t = ∑ r : Fin 5000, f ⟨5000 * t + r.val, index_lt (k := 10) (by norm_num) ht r⟩)
    (h0 : acc 0 = (0 : EReal) + B 0) (hs : ∀ t, t + 1 < 10 → acc (t + 1) = acc t + B (t + 1)) :
    acc 9 = (0 : EReal) + ∑ i : Fin 50000, f i :=
  blockSum_10x5000 f B acc 0 hB h0 hs

end Idealize.ShloMosaic.BlockSum
-- ==== Proof.KReg1.lean ====
/-
  A combining launch: ten blocks of 5000 rows, with two running column totals.
  Point t reads rows 5000 t … 5000 t + 4999 of the aggregated neighbourhood term and of the node features, the
  self-loop weight matrix and the one-row bias; it writes back the same rows of (agg + h · W) + b, and adds the
  column sums of that block, and of its squares, to two one-row totals that are set to zero at the first point
  and written back after the last.  Each case of the body (first point; later point) leaves in the three output
  buffers the body's arithmetic of the blocks it read.
-/
import proofs.«113632_j80152679678507_2_alg».proof.Proof.Gen.KernelIdeal.Frame
import proofs.«113632_j80152679678507_2_alg».proof.Proof.KPay
import proofs.«113632_j80152679678507_2_alg».proof.Proof.Spec
import proofs.«113632_j80152679678507_2_alg».proof.Proof.SpecRows
import proofs.«113632_j80152679678507_2_alg».proof.Proof.LibBlockSum
import Idealize.ShloMosaic.Lib.Pipeline.Value
import Idealize.ShloMosaic.Lib.Tactic

set_option maxRecDepth 16384

noncomputable section

namespace Cert.KernelIdeal.Named

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

open Idealize.ShloMosaic.Tactic

theorem hz1 : (![0, 0] : Fin 2 → Nat) = fun _ => 0 := funext fun a => by fin_cases a <;> rfl

/-! ## What each case of the body leaves in the three output buffers -/

theorem piece1A4 (c : Dev nD) (i : grid1.Coords)
    (a1 : Memref sig .tc .vmem S5000x128 .f32) (h1 : a1.IsWhole) (a2 : Memref sig .tc .vmem S5000x128 .f32) (h2 : a2.IsWhole)
    (a3 : Memref sig .tc .vmem S128x128 .f32) (h3 : a3.IsWhole) (a4 : Memref sig .tc .vmem S1x128 .f32) (h4 : a4.IsWhole)
    (a5 : Memref sig .tc .vmem S5000x128 .f32) (h5 : a5.IsWhole) (a6 : Memref sig .tc .vmem S1x128 .f32) (h6 : a6.IsWhole)
    (a7 : Memref sig .tc .vmem S1x128 .f32) (h7 : a7.IsWhole) (hc : cond1_0 i)
    (x0 x1 : Vec Ideal S5000x128 .f32) (x2 : Vec Ideal S128x128 .f32) (x3 : Vec Ideal S1x128 .f32) :
    out1_A_4 (F := Ideal) c i a1 h1 a2 h2 a3 h3 a4 h4 a5 h5 a6 h6 a7 h7 hc x0 x1 x2 x3 = k1_pay3 x1 x2 x0 x3 := by
  unfold out1_A_4
  rw [View.read_writes_eq_canon _ _ _ (cover1_A_4 c i a1 h1 a2 h2 a3 h3 a4 h4 a5 h5 a6 h6 a7 h7 hc x0 x1 x2 x3)]
  unfold kernelRun1_A
  dsimp only
  sl_unfold_words
  rw [View.canon_unit_zero hz1]
  simp only [View.readAt_eq_ld, h1.read_unread, h2.read_unread, h3.read_unread, h4.read_unread, h5.read_unread, h6.read_unread, h7.read_unread,
    View.ld_unit_zero (S := S5000x128) hz1, View.ld_unit_zero (S := S128x128) hz1, View.ld_unit_zero (S := S1x128) hz1]

theorem piece1A5 (c : Dev nD) (i : grid1.Coords)
    (a1 : Memref sig .tc .vmem S5000x128 .f32) (h1 : a1.IsWhole) (a2 : Memref sig .tc .vmem S5000x128 .f32) (h2 : a2.IsWhole)
    (a3 : Memref sig .tc .vmem S128x128 .f32) (h3 : a3.IsWhole) (a4 : Memref sig .tc .vmem S1x128 .f32) (h4 : a4.IsWhole)
    (a5 : Memref sig .tc .vmem S5000x128 .f32) (h5 : a5.IsWhole) (a6 : Memref sig .tc .vmem S1x128 .f32) (h6 : a6.IsWhole)
    (a7 : Memref sig .tc .vmem S1x128 .f32) (h7 : a7.IsWhole) (hc : cond1_0 i)
    (x0 x1 : Vec Ideal S5000x128 .f32) (x2 : Vec Ideal S128x128 .f32) (x3 : Vec Ideal S1x128 .f32) :
    out1_A_5 (F := Ideal) c i a1 h1 a2 h2 a3 h3 a4 h4 a5 h5 a6 h6 a7 h7 hc x0 x1 x2 x3 = k1_pay4 x1 x2 x0 x3 (k1_pay1 (F := Ideal)) := by
  unfold out1_A_5
  rw [View.read_writes_eq_canon _ _ _ (cover1_A_5 c i a1 h1 a2 h2 a3 h3 a4 h4 a5 h5 a6 h6 a7 h7 hc x0 x1 x2 x3)]
  unfold kernelRun1_A
  dsimp only
  sl_unfold_words
  rw [View.canon_cons_unit_zero (S := S1x128) hz1, View.readCov_unit_zero (S := S1x128) _ hz1]
  simp only [View.readAt_eq_ld, h1.read_unread, h2.read_unread, h3.read_unread, h4.read_unread, h5.read_unread, h6.read_unread, h7.read_unread,
    View.ld_unit_zero (S := S5000x128) hz1, View.ld_unit_zero (S := S128x128) hz1, View.ld_unit_zero (S := S1x128) hz1]

theorem piece1A6 (c : Dev nD) (i : grid1.Coords)
    (a1 : Memref sig .tc .vmem S5000x128 .f32) (h1 : a1.IsWhole) (a2 : Memref sig .tc .vmem S5000x128 .f32) (h2 : a2.IsWhole)
    (a3 : Memref sig .tc .vmem S128x128 .f32) (h3 : a3.IsWhole) (a4 : Memref sig .tc .vmem S1x128 .f32) (h4 : a4.IsWhole)
    (a5 : Memref sig .tc .vmem S5000x128 .f32) (h5 : a5.IsWhole) (a6 : Memref sig .tc .vmem S1x128 .f32) (h6 : a6.IsWhole)
    (a7 : Memref sig .tc .vmem S1x128 .f32) (h7 : a7.IsWhole) (hc : cond1_0 i)
    (x0 x1 : Vec Ideal S5000x128 .f32) (x2 : Vec Ideal S128x128 .f32) (x3 : Vec Ideal S1x128 .f32) :
    out1_A_6 (F := Ideal) c i a1 h1 a2 h2 a3 h3 a4 h4 a5 h5 a6 h6 a7 h7 hc x0 x1 x2 x3 = k1_pay5 x1 x2 x0 x3 (k1_pay2 (F := Ideal)) := by
  unfold out1_A_6
  rw [View.read_writes_eq_canon _ _ _ (cover1_A_6 c i a1 h1 a2 h2 a3 h3 a4 h4 a5 h5 a6 h6 a7 h7 hc x0 x1 x2 x3)]
  unfold kernelRun1_A
  dsimp only
  sl_unfold_words
  rw [View.canon_cons_unit_zero (S := S1x128) hz1, View.readCov_unit_zero (S := S1x128) _ hz1]
  simp only [View.readAt_eq_ld, h1.read_unread, h2.read_unread, h3.read_unread, h4.read_unread, h5.read_unread, h6.read_unread, h7.read_unread,
    View.ld_unit_zero (S := S5000x128) hz1, View.ld_unit_zero (S := S128x128) hz1, View.ld_unit_zero (S := S1x128) hz1]

theorem piece1B4 (c : Dev nD) (i : grid1.Coords)
    (a1 : Memref sig .tc .vmem S5000x128 .f32) (h1 : a1.IsWhole) (a2 : Memref sig .tc .vmem S5000x128 .f32) (h2 : a2.IsWhole)
    (a3 : Memref sig .tc .vmem S128x128 .f32) (h3 : a3.IsWhole) (a4 : Memref sig .tc .vmem S1x128 .f32) (h4 : a4.IsWhole)
    (a5 : Memref sig .tc .vmem S5000x128 .f32) (h5 : a5.IsWhole) (a6 : Memref sig .tc .vmem S1x128 .f32) (h6 : a6.IsWhole)
    (a7 : Memref sig .tc .vmem S1x128 .f32) (h7 : a7.IsWhole) (hc : ¬cond1_0 i)
    (x0 x1 : Vec Ideal S5000x128 .f32) (x2 : Vec Ideal S128x128 .f32) (x3 : Vec Ideal S1x128 .f32) (p5 p6 : Vec Ideal S1x128 .f32) :
    out1_B_4 (F := Ideal) c i a1 h1 a2 h2 a3 h3 a4 h4 a5 h5 a6 h6 a7 h7 hc x0 x1 x2 x3 p5 p6 = k1_pay3 x1 x2 x0 x3 := by
  unfold out1_B_4
  rw [View.read_writes_eq_canon _ _ _ (cover1_B_4 c i a1 h1 a2 h2 a3 h3 a4 h4 a5 h5 a6 h6 a7 h7 hc x0 x1 x2 x3 p5 p6)]
  unfold kernelRun1_B
  dsimp only
  sl_unfold_words
  rw [View.canon_unit_zero hz1]
  simp only [View.readAt_eq_ld, h1.read_unread, h2.read_unread, h3.read_unread, h4.read_unread, h5.read_unread, h6.read_unread, h7.read_unread,
    View.ld_unit_zero (S := S5000x128) hz1, View.ld_unit_zero (S := S128x128) hz1, View.ld_unit_zero (S := S1x128) hz1]

theorem piece1B5 (c : Dev nD) (i : grid1.Coords)
    (a1 : Memref sig .tc .vmem S5000x128 .f32) (h1 : a1.IsWhole) (a2 : Memref sig .tc .vmem S5000x128 .f32) (h2 : a2.IsWhole)
    (a3 : Memref sig .tc .vmem S128x128 .f32) (h3 : a3.IsWhole) (a4 : Memref sig .tc .vmem S1x128 .f32) (h4 : a4.IsWhole)
    (a5 : Memref sig .tc .vmem S5000x128 .f32) (h5 : a5.IsWhole) (a6 : Memref sig .tc .vmem S1x128 .f32) (h6 : a6.IsWhole)
    (a7 : Memref sig .tc .vmem S1x128 .f32) (h7 : a7.IsWhole) (hc : ¬cond1_0 i)
    (x0 x1 : Vec Ideal S5000x128 .f32) (x2 : Vec Ideal S128x128 .f32) (x3 : Vec Ideal S1x128 .f32) (p5 p6 : Vec Ideal S1x128 .f32) :
    out1_B_5 (F := Ideal) c i a1 h1 a2 h2 a3 h3 a4 h4 a5 h5 a6 h6 a7 h7 hc x0 x1 x2 x3 p5 p6 = k1_pay4 x1 x2 x0 x3 p5 := by
  unfold out1_B_5
  rw [View.read_writes_eq_canon _ _ _ (cover1_B_5 c i a1 h1 a2 h2 a3 h3 a4 h4 a5 h5 a6 h6 a7 h7 hc x0 x1 x2 x3 p5 p6)]
  unfold kernelRun1_B
  dsimp only
  sl_unfold_words
  rw [View.canon_unit_zero hz1]
  simp only [View.readAt_eq_ld, h1.read_unread, h2.read_unread, h3.read_unread, h4.read_unread, h5.read_unread, h6.read_unread, h7.read_unread,
    View.ld_unit_zero (S := S5000x128) hz1, View.ld_unit_zero (S := S128x128) hz1, View.ld_unit_zero (S := S1x128) hz1]

theorem piece1B6 (c : Dev nD) (i : grid1.Coords)
    (a1 : Memref sig .tc .vmem S5000x128 .f32) (h1 : a1.IsWhole) (a2 : Memref sig .tc .vmem S5000x128 .f32) (h2 : a2.IsWhole)
    (a3 : Memref sig .tc .vmem S128x128 .f32) (h3 : a3.IsWhole) (a4 : Memref sig .tc .vmem S1x128 .f32) (h4 : a4.IsWhole)
    (a5 : Memref sig .tc .vmem S5000x128 .f32) (h5 : a5.IsWhole) (a6 : Memref sig .tc .vmem S1x128 .f32) (h6 : a6.IsWhole)
    (a7 : Memref sig .tc .vmem S1x128 .f32) (h7 : a7.IsWhole) (hc : ¬cond1_0 i)
    (x0 x1 : Vec Ideal S5000x128 .f32) (x2 : Vec Ideal S128x128 .f32) (x3 : Vec Ideal S1x128 .f32) (p5 p6 : Vec Ideal S1x128 .f32) :
    out1_B_6 (F := Ideal) c i a1 h1 a2 h2 a3 h3 a4 h4 a5 h5 a6 h6 a7 h7 hc x0 x1 x2 x3 p5 p6 = k1_pay5 x1 x2 x0 x3 p6 := by
  unfold out1_B_6
  rw [View.read_writes_eq_canon _ _ _ (cover1_B_6 c i a1 h1 a2 h2 a3 h3 a4 h4 a5 h5 a6 h6 a7 h7 hc x0 x1 x2 x3 p5 p6)]
  unfold kernelRun1_B
  dsimp only
  sl_unfold_words
  rw [View.canon_unit_zero hz1]
  simp only [View.readAt_eq_ld, h1.read_unread, h2.read_unread, h3.read_unread, h4.read_unread, h5.read_unread, h6.read_unread, h7.read_unread,
    View.ld_unit_zero (S := S5000x128) hz1, View.ld_unit_zero (S := S128x128) hz1, View.ld_unit_zero (S := S1x128) hz1]

/-! ## The blocks the body reads at point t -/

variable (V : (c : Dev nD) → (b : Ref sig .tc) → Buf (Elt Ideal) ((c : Thread nD τ).loc b))

/-- The block indices of the seven windows at every point: the row blocks move with the point, the one-block
    arrays stay. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ t.val < 10 :=
  (by decide +kernel : ∀ t : Fin grid1.N, _)

/-- Row 5000 t + a of the whole is a row of the whole. -/
theorem row_lt1 {t : ℕ} (ht : t < 10) (a : Fin 5000) : 5000 * t + a.val < 50000 := by
  have := a.isLt; omega

/-- The layer before normalisation, of the four arrays the launch finds. -/
abbrev pre1 (c : Dev nD) : Cert.Gcn.SN.Idx → EReal :=
  Cert.Gcn.rowPre (V c main_v27) (V c main_arg0) (V c main_v3) (V c main_v6)

/-- What the body computes of the blocks it reads at point t. -/
abbrev blk1 (c : Dev nD) (t : Fin cfg1.N) : Vec Ideal S5000x128 .f32 :=
  k1_pay3 (iblk1 V c 1 t) (iblk1 V c 2 t) (iblk1 V c 0 t) (iblk1 V c 3 t)

/-- Entry (a, q) of what the body computes at point t is entry (5000 t + a, q) of the layer before normalisation. -/
theorem blk1_apply (c : Dev nD) (t : Fin cfg1.N) (ht : t.val < 10) (a : Fin 5000) (q : Fin 128) :
    blk1 V c t (ix2 a q) = pre1 V c (ix2 ⟨5000 * t.val + a.val, row_lt1 ht a⟩ q) := by
  obtain ⟨e00, e01, e10, e11, e20, e21, e30, e31, e40, e41, e50, e51, e60, e61, _⟩ := idx1 t
  refine (Pay.pre1 _ _ _ _ a q).trans ?_
  have h0 : iblk1 V c 0 t (ix2 a q) = V c main_v27 (ix2 ⟨5000 * t.val + a.val, row_lt1 ht a⟩ q) := by
    show V c main_v27 (((cfg1.win 0).blk t).view.emb (ix2 a q)) = _
    refine congrArg (V c main_v27) ?_
    funext d; apply Fin.ext
    match d with
    | ⟨0, _⟩ => show win1_0.index t (0 : Fin 2) * 5000 + 1 * a.val = 5000 * t.val + a.val; omega
    | ⟨1, _⟩ => show win1_0.index t (1 : Fin 2) * 128 + 1 * q.val = q.val; omega
  have h1 : ∀ k : Fin 128, iblk1 V c 1 t (ix2 a k) = V c main_arg0 (ix2 ⟨5000 * t.val + a.val, row_lt1 ht a⟩ k) := fun k => by
    show V c main_arg0 (((cfg1.win 1).blk t).view.emb (ix2 a k)) = _
    refine congrArg (V c main_arg0) ?_
    funext d; apply Fin.ext
    match d with
    | ⟨0, _⟩ => show win1_1.index t (0 : Fin 2) * 5000 + 1 * a.val = 5000 * t.val + a.val; omega
    | ⟨1, _⟩ => show win1_1.index t (1 : Fin 2) * 128 + 1 * k.val = k.val; omega
  have h2 : ∀ k : Fin 128, iblk1 V c 2 t (ix2 k q) = V c main_v3 (ix2 k q) := fun k => by
    show V c main_v3 (((cfg1.win 2).blk t).view.emb (ix2 k q)) = _
    refine congrArg (V c main_v3) ?_
    funext d; apply Fin.ext
    match d with
    | ⟨0, _⟩ => show win1_2.index t (0 : Fin 2) * 128 + 1 * k.val = k.val; omega
    | ⟨1, _⟩ => show win1_2.index t (1 : Fin 2) * 128 + 1 * q.val = q.val; omega
  have h3 : iblk1 V c 3 t (ix2 (0 : Fin 1) q) = V c main_v6 (ix2 (0 : Fin 1) q) := by
    show V c main_v6 (((cfg1.win 3).blk t).view.emb (ix2 (0 : Fin 1) q)) = _
    refine congrArg (V c main_v6) ?_
    funext d; apply Fin.ext
    match d with
    | ⟨0, _⟩ => show win1_3.index t (0 : Fin 2) * 1 + 1 * 0 = 0; omega
    | ⟨1, _⟩ => show win1_3.index t (1 : Fin 2) * 128 + 1 * q.val = q.val; omega
  rw [h0, h3]
  simp only [h1, h2]
  rfl

/-! ## The three output buffers after each point -/

/-- The running column total after point n: the zero row, then the column sums of blocks 0 … n added in order. -/
def acc1_5 (c : Dev nD) : (n : ℕ) → n < cfg1.N → Vec Ideal S1x128 .f32
  | 0, h => k1_pay4 (iblk1 V c 1 ⟨0, h⟩) (iblk1 V c 2 ⟨0, h⟩) (iblk1 V c 0 ⟨0, h⟩) (iblk1 V c 3 ⟨0, h⟩) (k1_pay1 (F := Ideal))
  | n + 1, h => k1_pay4 (iblk1 V c 1 ⟨n + 1, h⟩) (iblk1 V c 2 ⟨n + 1, h⟩) (iblk1 V c 0 ⟨n + 1, h⟩) (iblk1 V c 3 ⟨n + 1, h⟩)
      (acc1_5 c n (Nat.lt_of_succ_lt h))

/-- The running column total of squares after point n. -/
def acc1_6 (c : Dev nD) : (n : ℕ) → n < cfg1.N → Vec Ideal S1x128 .f32
  | 0, h => k1_pay5 (iblk1 V c 1 ⟨0, h⟩) (iblk1 V c 2 ⟨0, h⟩) (iblk1 V c 0 ⟨0, h⟩) (iblk1 V c 3 ⟨0, h⟩) (k1_pay2 (F := Ideal))
  | n + 1, h => k1_pay5 (iblk1 V c 1 ⟨n + 1, h⟩) (iblk1 V c 2 ⟨n + 1, h⟩) (iblk1 V c 0 ⟨n + 1, h⟩) (iblk1 V c 3 ⟨n + 1, h⟩)
      (acc1_6 c n (Nat.lt_of_succ_lt h))

/-- After point n the three output buffers hold the block's layer values and the two running totals: by
    induction on the point (the first point resets the totals, every later point adds to them). -/
theorem outsAt1_eq (c : Dev nD) : ∀ (n : ℕ) (h : n < cfg1.N),
    outsAt1 V c n h = (blk1 V c ⟨n, h⟩, acc1_5 V c n h, acc1_6 V c n h)
  | 0, h => (outsAt1_A V c ⟨0, h⟩ rfl).trans (by rw [piece1A4, piece1A5, piece1A6]; rfl)
  | n + 1, h => by
    have hN : cfg1.N = 10 := N_1
    have hB : ¬(⟨n + 1, h⟩ : Fin cfg1.N).val % 10 = 0 := by dsimp only; omega
    rw [outsAt1_B V c ⟨n + 1, h⟩ hB, piece1B4, piece1B5, piece1B6]
    show (_, k1_pay4 _ _ _ _ (outsAt1 V c n _).2.1, k1_pay5 _ _ _ _ (outsAt1 V c n _).2.2) = _
    rw [outsAt1_eq c n]
    rfl

/-! ## The running totals, read at an entry -/

/-- The sum of rows 5000 u … 5000 u + 4999 of a column of 50000 entries (zero past the tenth block). -/
def colBlock1 (f : Fin 50000 → EReal) (u : ℕ) : EReal :=
  if hu : u < 10 then ∑ r : Fin 5000, f ⟨5000 * u + r.val, BlockSum.index_lt (k := 10) (by norm_num) hu r⟩ else 0

theorem colBlock1_eq (f : Fin 50000 → EReal) (u : ℕ) (hu : u < 10) :
    colBlock1 f u = ∑ r : Fin 5000, f ⟨5000 * u + r.val, BlockSum.index_lt (k := 10) (by norm_num) hu r⟩ := dif_pos hu

/-- The column sums of the block of point u are the sum of rows 5000 u … 5000 u + 4999 of the layer's column. -/
theorem blk1_colsum (c : Dev nD) (u : ℕ) (hu : u < cfg1.N) (hu' : u < 10) (q : Fin 128) :
    ∑ a : Fin 5000, blk1 V c ⟨u, hu⟩ (ix2 a q) = colBlock1 (fun n => pre1 V c (ix2 n q)) u := by
  rw [colBlock1_eq _ u hu']
  exact Finset.sum_congr rfl fun a _ => blk1_apply V c ⟨u, hu⟩ hu' a q

/-- The same for the squares. -/
theorem blk1_colsumsq (c : Dev nD) (u : ℕ) (hu : u < cfg1.N) (hu' : u < 10) (q : Fin 128) :
    ∑ a : Fin 5000, blk1 V c ⟨u, hu⟩ (ix2 a q) * blk1 V c ⟨u, hu⟩ (ix2 a q)
      = colBlock1 (fun n => pre1 V c (ix2 n q) * pre1 V c (ix2 n q)) u := by
  rw [colBlock1_eq _ u hu']
  exact Finset.sum_congr rfl fun a _ => by rw [blk1_apply V c ⟨u, hu⟩ hu' a q]

/-- The running total as a function of the point alone (zero past the grid). -/
def tot1_5 (c : Dev nD) (q : Fin 128) (u : ℕ) : EReal :=
  if hu : u < cfg1.N then acc1_5 V c u hu (ix2 (0 : Fin 1) q) else 0
/-- The running total of squares as a function of the point alone (zero past the grid). -/
def tot1_6 (c : Dev nD) (q : Fin 128) (u : ℕ) : EReal :=
  if hu : u < cfg1.N then acc1_6 V c u hu (ix2 (0 : Fin 1) q) else 0

/-- After the last point the running column total is zero plus the whole column sum of the layer. -/
theorem acc1_5_last (c : Dev nD) (q : Fin 128) (h9 : 9 < cfg1.N) :
    acc1_5 V c 9 h9 (ix2 (0 : Fin 1) q) = 0 + ∑ n : Fin 50000, pre1 V c (ix2 n q) := by
  have hN : cfg1.N = 10 := N_1
  have key := BlockSum.blockSum_10x5000_ereal (fun n => pre1 V c (ix2 n q))
    (colBlock1 (fun n => pre1 V c (ix2 n q))) (tot1_5 V c q) (fun t ht => colBlock1_eq _ t ht)
    (by
      have h0 : 0 < cfg1.N := by omega
      show dite (0 < cfg1.N) _ _ = _
      rw [dif_pos h0]
      refine (Pay.sum1 _ _ _ _ _ q).trans ?_
      rw [Pay.zero1a]
      exact congrArg (0 + ·) (blk1_colsum V c 0 h0 (by norm_num) q))
    (fun t ht => by
      have h1 : t + 1 < cfg1.N := by omega
      have h0 : t < cfg1.N := by omega
      show dite (t + 1 < cfg1.N) _ _ = dite (t < cfg1.N) _ _ + _
      rw [dif_pos h1, dif_pos h0]
      refine (Pay.sum1 _ _ _ _ _ q).trans ?_
      exact congrArg (acc1_5 V c t h0 (ix2 (0 : Fin 1) q) + ·) (blk1_colsum V c (t + 1) h1 ht q))
  have e : tot1_5 V c q 9 = acc1_5 V c 9 h9 (ix2 (0 : Fin 1) q) := dif_pos h9
  rw [← e]
  exact key

/-- After the last point the running column total of squares is zero plus the whole column sum of squares. -/
theorem acc1_6_last (c : Dev nD) (q : Fin 128) (h9 : 9 < cfg1.N) :
    acc1_6 V c 9 h9 (ix2 (0 : Fin 1) q) = 0 + ∑ n : Fin 50000, pre1 V c (ix2 n q) * pre1 V c (ix2 n q) := by
  have hN : cfg1.N = 10 := N_1
  have key := BlockSum.blockSum_10x5000_ereal (fun n => pre1 V c (ix2 n q) * pre1 V c (ix2 n q))
    (colBlock1 (fun n => pre1 V c (ix2 n q) * pre1 V c (ix2 n q))) (tot1_6 V c q) (fun t ht => colBlock1_eq _ t ht)
    (by
      have h0 : 0 < cfg1.N := by omega
      show dite (0 < cfg1.N) _ _ = _
      rw [dif_pos h0]
      refine (Pay.sumsq1 _ _ _ _ _ q).trans ?_
      rw [Pay.zero1b]
      exact congrArg (0 + ·) (blk1_colsumsq V c 0 h0 (by norm_num) q))
    (fun t ht => by
      have h1 : t + 1 < cfg1.N := by omega
      have h0 : t < cfg1.N := by omega
      show dite (t + 1 < cfg1.N) _ _ = dite (t < cfg1.N) _ _ + _
      rw [dif_pos h1, dif_pos h0]
      refine (Pay.sumsq1 _ _ _ _ _ q).trans ?_
      exact congrArg (acc1_6 V c t h0 (ix2 (0 : Fin 1) q) + ·) (blk1_colsumsq V c (t + 1) h1 ht q))
  have e : tot1_6 V c q 9 = acc1_6 V c 9 h9 (ix2 (0 : Fin 1) q) := dif_pos h9
  rw [← e]
  exact key

/-! ## What is written back, and the three arrays after the launch -/

/-- What point t writes back of the layer values is block t of the layer before normalisation. -/
theorem flushed1_4 (c : Dev nD) (t : Fin cfg1.N) :
    (dat1 V c).flushed 4 t = ((cfg1.win 4).blk t).view.read (Elt Ideal) (pre1 V c) := by
  show (cfg1.win 4).cut (grid1.coords t) ((dat1 V c).after 4 t) = _
  rw [after1_4, outsAt1_eq]
  obtain ⟨e00, e01, e10, e11, e20, e21, e30, e31, e40, e41, e50, e51, e60, e61, ht⟩ := idx1 t
  funext j
  obtain ⟨a, q, rfl⟩ : ∃ (a : Fin 5000) (q : Fin 128), j = ix2 a q := ⟨j 0, j 1, eq_ix2 j⟩
  show blk1 V c t (ix2 a q) = pre1 V c (((cfg1.win 4).blk t).view.emb (ix2 a q))
  refine (blk1_apply V c t ht a q).trans (congrArg (pre1 V c) ?_)
  funext d; apply Fin.ext
  match d with
  | ⟨0, _⟩ => show 5000 * t.val + a.val = win1_4.index t (0 : Fin 2) * 5000 + 1 * a.val; omega
  | ⟨1, _⟩ => show q.val = win1_4.index t (1 : Fin 2) * 128 + 1 * q.val; omega

/-- An index of the layer array is in point t's block iff each coordinate is in the block's range. -/
theorem mem_blk1_4 (t : Fin cfg1.N) (i : S50000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v28_0).slice (win1_4.rect t)).set ↔ _
  rw [View.set_slice_whole, Rect.mem_set_unit]
  exact Iff.rfl

/-- The row blocks cover the layer array: row r is in block r / 5000. -/
theorem cover1_4 (i : S50000x128.Idx) :
    ∃ t : Fin cfg1.N, (cfg1.win 4).flush t = true ∧ i ∈ ((cfg1.win 4).blk t).view.set := by
  have hN : cfg1.N = 10 := N_1
  have hi0 : (i 0).val < 50000 := (i 0).isLt
  have hi1 : (i 1).val < 128 := (i 1).isLt
  let t : Fin cfg1.N := ⟨(i 0).val / 5000, by rw [hN]; omega⟩
  obtain ⟨e00, e01, e10, e11, e20, e21, e30, e31, e40, e41, e50, e51, e60, e61, ht⟩ := idx1 t
  have e' : win1_4.index t (0 : Fin 2) = (i 0).val / 5000 := e40
  refine ⟨t, flush1_4 t, ?_⟩
  rw [mem_blk1_4]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-- After the launch the layer array holds the layer before normalisation of the four arrays the launch found. -/
theorem final1_out (c : Dev nD) :
    (dat1 V c).arrAt 4 cfg1.N = Cert.Gcn.rowPre (V c main_v27) (V c main_arg0) (V c main_v3) (V c main_v6) :=
  (dat1 V c).arrAt_eq_of_cover 4 _ (fun t _ => flushed1_4 V c t) cover1_4

/-- The last point of the grid. -/
theorem last_lt1 : 9 < cfg1.N := by rw [show cfg1.N = 10 from N_1]; norm_num

/-- What the last point writes back of the running total is the one block of the column sums of the layer. -/
theorem flushed1_5 (c : Dev nD) (t : Fin cfg1.N) (hf : (cfg1.win 5).flush t = true) :
    (dat1 V c).flushed 5 t = ((cfg1.win 5).blk t).view.read (Elt Ideal) (Cert.Gcn.rowSum (pre1 V c)) := by
  have hN : cfg1.N = 10 := N_1
  have h9 : t.val = 9 := by have := (flush1_5 t).mp hf; have := t.isLt; omega
  obtain rfl : t = ⟨9, last_lt1⟩ := Fin.ext h9
  show (cfg1.win 5).cut (grid1.coords ⟨9, last_lt1⟩) ((dat1 V c).after 5 ⟨9, last_lt1⟩) = _
  rw [after1_5, outsAt1_eq]
  obtain ⟨e00, e01, e10, e11, e20, e21, e30, e31, e40, e41, e50, e51, e60, e61, ht⟩ := idx1 ⟨9, last_lt1⟩
  funext j
  obtain ⟨u, q, rfl⟩ : ∃ (u : Fin 1) (q : Fin 128), j = ix2 u q := ⟨j 0, j 1, eq_ix2 j⟩
  obtain rfl : u = 0 := Subsingleton.elim _ _
  show acc1_5 V c 9 last_lt1 (ix2 (0 : Fin 1) q)
    = Cert.Gcn.rowSum (pre1 V c) (((cfg1.win 5).blk ⟨9, last_lt1⟩).view.emb (ix2 (0 : Fin 1) q))
  refine (acc1_5_last V c q last_lt1).trans ?_
  unfold Cert.Gcn.rowSum
  refine congrArg (0 + ·) (Finset.sum_congr rfl fun n _ => congrArg (fun z : Fin 128 => pre1 V c (ix2 n z)) ?_)
  apply Fin.ext
  show q.val = win1_5.index ⟨9, last_lt1⟩ (1 : Fin 2) * 128 + 1 * q.val
  omega

/-- What the last point writes back of the running total of squares is the one block of the column sums of squares. -/
theorem flushed1_6 (c : Dev nD) (t : Fin cfg1.N) (hf : (cfg1.win 6).flush t = true) :
    (dat1 V c).flushed 6 t = ((cfg1.win 6).blk t).view.read (Elt Ideal) (Cert.Gcn.rowSumSq (pre1 V c)) := by
  have hN : cfg1.N = 10 := N_1
  have h9 : t.val = 9 := by have := (flush1_6 t).mp hf; have := t.isLt; omega
  obtain rfl : t = ⟨9, last_lt1⟩ := Fin.ext h9
  show (cfg1.win 6).cut (grid1.coords ⟨9, last_lt1⟩) ((dat1 V c).after 6 ⟨9, last_lt1⟩) = _
  rw [after1_6, outsAt1_eq]
  obtain ⟨e00, e01, e10, e11, e20, e21, e30, e31, e40, e41, e50, e51, e60, e61, ht⟩ := idx1 ⟨9, last_lt1⟩
  funext j
  obtain ⟨u, q, rfl⟩ : ∃ (u : Fin 1) (q : Fin 128), j = ix2 u q := ⟨j 0, j 1, eq_ix2 j⟩
  obtain rfl : u = 0 := Subsingleton.elim _ _
  show acc1_6 V c 9 last_lt1 (ix2 (0 : Fin 1) q)
    = Cert.Gcn.rowSumSq (pre1 V c) (((cfg1.win 6).blk ⟨9, last_lt1⟩).view.emb (ix2 (0 : Fin 1) q))
  refine (acc1_6_last V c q last_lt1).trans ?_
  unfold Cert.Gcn.rowSumSq
  refine congrArg (0 + ·) (Finset.sum_congr rfl fun n _ =>
    congrArg (fun z : Fin 128 => pre1 V c (ix2 n z) * pre1 V c (ix2 n z)) ?_)
  apply Fin.ext
  show q.val = win1_6.index ⟨9, last_lt1⟩ (1 : Fin 2) * 128 + 1 * q.val
  omega

/-- An index of a one-row array is in the one block of window 5 at point t iff each coordinate is in range. -/
theorem mem_blk1_5 (t : Fin cfg1.N) (i : S1x128.Idx) :
    i ∈ ((cfg1.win 5).blk t).view.set ↔ ∀ a : Fin 2, win1_5.index t a * S1x128.size a ≤ (i a).val
      ∧ (i a).val < win1_5.index t a * S1x128.size a + S1x128.size a := by
  show i ∈ ((View.whole main_v28_1).slice (win1_5.rect t)).set ↔ _
  rw [View.set_slice_whole, Rect.mem_set_unit]
  exact Iff.rfl

theorem mem_blk1_6 (t : Fin cfg1.N) (i : S1x128.Idx) :
    i ∈ ((cfg1.win 6).blk t).view.set ↔ ∀ a : Fin 2, win1_6.index t a * S1x128.size a ≤ (i a).val
      ∧ (i a).val < win1_6.index t a * S1x128.size a + S1x128.size a := by
  show i ∈ ((View.whole main_v28_2).slice (win1_6.rect t)).set ↔ _
  rw [View.set_slice_whole, Rect.mem_set_unit]
  exact Iff.rfl

/-- The one block written back at the last point covers the one-row array. -/
theorem cover1_5 (i : S1x128.Idx) :
    ∃ t : Fin cfg1.N, (cfg1.win 5).flush t = true ∧ i ∈ ((cfg1.win 5).blk t).view.set := by
  have hi0 : (i 0).val < 1 := (i 0).isLt
  have hi1 : (i 1).val < 128 := (i 1).isLt
  obtain ⟨e00, e01, e10, e11, e20, e21, e30, e31, e40, e41, e50, e51, e60, e61, ht⟩ := idx1 ⟨9, last_lt1⟩
  refine ⟨⟨9, last_lt1⟩, (flush1_5 _).mpr (by decide), ?_⟩
  rw [mem_blk1_5]
  intro a
  match a with
  | ⟨0, _⟩ => show win1_5.index ⟨9, last_lt1⟩ (0 : Fin 2) * 1 ≤ (i 0).val ∧ (i 0).val < win1_5.index ⟨9, last_lt1⟩ (0 : Fin 2) * 1 + 1; omega
  | ⟨1, _⟩ => show win1_5.index ⟨9, last_lt1⟩ (1 : Fin 2) * 128 ≤ (i 1).val ∧ (i 1).val < win1_5.index ⟨9, last_lt1⟩ (1 : Fin 2) * 128 + 128; omega

theorem cover1_6 (i : S1x128.Idx) :
    ∃ t : Fin cfg1.N, (cfg1.win 6).flush t = true ∧ i ∈ ((cfg1.win 6).blk t).view.set := by
  have hi0 : (i 0).val < 1 := (i 0).isLt
  have hi1 : (i 1).val < 128 := (i 1).isLt
  obtain ⟨e00, e01, e10, e11, e20, e21, e30, e31, e40, e41, e50, e51, e60, e61, ht⟩ := idx1 ⟨9, last_lt1⟩
  refine ⟨⟨9, last_lt1⟩, (flush1_6 _).mpr (by decide), ?_⟩
  rw [mem_blk1_6]
  intro a
  match a with
  | ⟨0, _⟩ => show win1_6.index ⟨9, last_lt1⟩ (0 : Fin 2) * 1 ≤ (i 0).val ∧ (i 0).val < win1_6.index ⟨9, last_lt1⟩ (0 : Fin 2) * 1 + 1; omega
  | ⟨1, _⟩ => show win1_6.index ⟨9, last_lt1⟩ (1 : Fin 2) * 128 ≤ (i 1).val ∧ (i 1).val < win1_6.index ⟨9, last_lt1⟩ (1 : Fin 2) * 128 + 128; omega

/-- After the launch the first one-row array holds the column sums of the layer before normalisation. -/
theorem final1_sum (c : Dev nD) :
    (dat1 V c).arrAt 5 cfg1.N
      = Cert.Gcn.rowSum (Cert.Gcn.rowPre (V c main_v27) (V c main_arg0) (V c main_v3) (V c main_v6)) :=
  (dat1 V c).arrAt_eq_of_cover 5 _ (flushed1_5 V c) cover1_5

/-- After the launch the second one-row array holds the column sums of the squares of that layer. -/
theorem final1_sumsq (c : Dev nD) :
    (dat1 V c).arrAt 6 cfg1.N
      = Cert.Gcn.rowSumSq (Cert.Gcn.rowPre (V c main_v27) (V c main_arg0) (V c main_v3) (V c main_v6)) :=
  (dat1 V c).arrAt_eq_of_cover 6 _ (flushed1_6 V c) cover1_6

end Cert.KernelIdeal.Named

end
-- ==== Proof.KReg2.lean ====
/-
  The first layer's normalising launch, ten blocks of 5000 rows.
  Point t reads rows 5000 t … 5000 t + 4999 of the layer before normalisation and the four one-row arrays (mean,
  variance, scale, shift), and writes back the same rows normalised, scaled, shifted and clamped at zero; the ten
  blocks tile the 50000 rows.
-/
import proofs.«113632_j80152679678507_2_alg».proof.Proof.Gen.KernelIdeal.Frame
import proofs.«113632_j80152679678507_2_alg».proof.Proof.KPay
import proofs.«113632_j80152679678507_2_alg».proof.Proof.Spec
import proofs.«113632_j80152679678507_2_alg».proof.Proof.SpecRows
import Idealize.ShloMosaic.Lib.Pipeline.Value

set_option maxRecDepth 16384

noncomputable section

namespace Cert.KernelIdeal.Named

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

theorem hz2 : (![0, 0] : Fin 2 → Nat) = fun _ => 0 := funext fun a => by fin_cases a <;> rfl

variable (V : (c : Dev nD) → (b : Ref sig .tc) → Buf (Elt Ideal) ((c : Thread nD τ).loc b))

/-- The block indices of the windows at every point of the grid: the row blocks move with the point, the
    one-block arrays stay. -/
theorem idx2 : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = t.val
    ∧ win2_5.index t (1 : Fin 2) = 0
    ∧ t.val < 10 :=
  (by decide +kernel : ∀ t : Fin grid2.N, _)

/-- What point t writes back is block t of the launch's function of the arrays it found. -/
theorem flushed2 (c : Dev nD) (t : Fin cfg2.N) :
    (dat2 V c).flushed 5 t
      = ((cfg2.win 5).blk t).view.read (Elt Ideal) (Cert.Gcn.rowNorm (V c main_v28_0) (V c main_v30) (V c main_v34) (V c main_v9) (V c main_v12)) := by
  show (cfg2.win 5).cut (grid2.coords t) ((dat2 V c).after 5 t) = _
  rw [after2_5]
  unfold out2_5
  rw [View.canon_unit_zero hz2]
  simp only [View.ld_unit_zero (S := S5000x128) hz2, View.ld_unit_zero (S := S1x128) hz2]
  obtain ⟨e0, e1, e2, e3, e4, e5, e6, e7, e8, e9, e10, e11, e12⟩ := idx2 t
  funext j
  obtain ⟨a, q, rfl⟩ : ∃ (a : Fin 5000) (q : Fin 128), j = ix2 a q := ⟨j 0, j 1, eq_ix2 j⟩
  show k2_pay1 (iblk2 V c 2 t) (iblk2 V c 3 t) (iblk2 V c 0 t) (iblk2 V c 1 t) (iblk2 V c 4 t) (ix2 a q)
    = (Cert.Gcn.rowNorm (V c main_v28_0) (V c main_v30) (V c main_v34) (V c main_v9) (V c main_v12)) (((cfg2.win 5).blk t).view.emb (ix2 a q))
  have hn : 5000 * t.val + a.val < 50000 := by have := a.isLt; omega
  have hemb : ((cfg2.win 5).blk t).view.emb (ix2 a q) = (ix2 (⟨5000 * t.val + a.val, hn⟩ : Fin 50000) q : S50000x128.Idx) := by
    funext d; apply Fin.ext
    match d with
    | ⟨0, _⟩ => show win2_5.index t (0 : Fin 2) * 5000 + 1 * a.val = 5000 * t.val + a.val; omega
    | ⟨1, _⟩ => show win2_5.index t (1 : Fin 2) * 128 + 1 * q.val = q.val; omega
  rw [hemb]
  refine (Pay.norm2 _ _ _ _ _ a q).trans ?_
  have h0 : iblk2 V c 0 t (ix2 a q) = V c main_v28_0 (ix2 (⟨5000 * t.val + a.val, hn⟩ : Fin 50000) q) := by
    show V c main_v28_0 (((cfg2.win 0).blk t).view.emb (ix2 a q)) = _
    refine congrArg (V c main_v28_0) ?_
    funext d; apply Fin.ext
    match d with
    | ⟨0, _⟩ => show win2_0.index t (0 : Fin 2) * 5000 + 1 * a.val = 5000 * t.val + a.val; omega
    | ⟨1, _⟩ => show win2_0.index t (1 : Fin 2) * 128 + 1 * q.val = q.val; omega
  have h1 : iblk2 V c 1 t (ix2 (0 : Fin 1) q) = V c main_v30 (ix2 (0 : Fin 1) q) := by
    show V c main_v30 (((cfg2.win 1).blk t).view.emb (ix2 (0 : Fin 1) q)) = _
    refine congrArg (V c main_v30) ?_
    funext d; apply Fin.ext
    match d with
    | ⟨0, _⟩ => show win2_1.index t (0 : Fin 2) * 1 + 1 * 0 = 0; omega
    | ⟨1, _⟩ => show win2_1.index t (1 : Fin 2) * 128 + 1 * q.val = q.val; omega
  have h2 : iblk2 V c 2 t (ix2 (0 : Fin 1) q) = V c main_v34 (ix2 (0 : Fin 1) q) := by
    show V c main_v34 (((cfg2.win 2).blk t).view.emb (ix2 (0 : Fin 1) q)) = _
    refine congrArg (V c main_v34) ?_
    funext d; apply Fin.ext
    match d with
    | ⟨0, _⟩ => show win2_2.index t (0 : Fin 2) * 1 + 1 * 0 = 0; omega
    | ⟨1, _⟩ => show win2_2.index t (1 : Fin 2) * 128 + 1 * q.val = q.val; omega
  have h3 : iblk2 V c 3 t (ix2 (0 : Fin 1) q) = V c main_v9 (ix2 (0 : Fin 1) q) := by
    show V c main_v9 (((cfg2.win 3).blk t).view.emb (ix2 (0 : Fin 1) q)) = _
    refine congrArg (V c main_v9) ?_
    funext d; apply Fin.ext
    match d with
    | ⟨0, _⟩ => show win2_3.index t (0 : Fin 2) * 1 + 1 * 0 = 0; omega
    | ⟨1, _⟩ => show win2_3.index t (1 : Fin 2) * 128 + 1 * q.val = q.val; omega
  have h4 : iblk2 V c 4 t (ix2 (0 : Fin 1) q) = V c main_v12 (ix2 (0 : Fin 1) q) := by
    show V c main_v12 (((cfg2.win 4).blk t).view.emb (ix2 (0 : Fin 1) q)) = _
    refine congrArg (V c main_v12) ?_
    funext d; apply Fin.ext
    match d with
    | ⟨0, _⟩ => show win2_4.index t (0 : Fin 2) * 1 + 1 * 0 = 0; omega
    | ⟨1, _⟩ => show win2_4.index t (1 : Fin 2) * 128 + 1 * q.val = q.val; omega
  rw [h0, h1, h2, h3, h4]
  all_goals rfl

/-- An index of the output array is in point t's block iff each coordinate is in the block's range. -/
theorem mem_blk2 (t : Fin cfg2.N) (i : S50000x128.Idx) :
    i ∈ ((cfg2.win 5).blk t).view.set ↔ ∀ a : Fin 2, win2_5.index t a * S5000x128.size a ≤ (i a).val
      ∧ (i a).val < win2_5.index t a * S5000x128.size a + S5000x128.size a := by
  show i ∈ ((View.whole main_v35).slice (win2_5.rect t)).set ↔ _
  rw [View.set_slice_whole, Rect.mem_set_unit]
  exact Iff.rfl

/-- The row blocks cover the array: row r is in block r / 5000. -/
theorem cover2 (i : S50000x128.Idx) :
    ∃ t : Fin cfg2.N, (cfg2.win 5).flush t = true ∧ i ∈ ((cfg2.win 5).blk t).view.set := by
  have hN : cfg2.N = 10 := N_2
  have hi0 : (i 0).val < 50000 := (i 0).isLt
  have hi1 : (i 1).val < 128 := (i 1).isLt
  let t : Fin cfg2.N := ⟨(i 0).val / 5000, by rw [hN]; omega⟩
  obtain ⟨e0, e1, e2, e3, e4, e5, e6, e7, e8, e9, e10, e11, e12⟩ := idx2 t
  have e' : win2_5.index t (0 : Fin 2) = (i 0).val / 5000 := e10
  refine ⟨t, flush2_5 t, ?_⟩
  rw [mem_blk2]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 128 ≤ (i 1).val ∧ (i 1).val < win2_5.index t (1 : Fin 2) * 128 + 128; omega

/-- After the launch the output array is the launch's function of the arrays it found. -/
theorem final2 (c : Dev nD) :
    (dat2 V c).arrAt 5 cfg2.N = Cert.Gcn.rowNorm (V c main_v28_0) (V c main_v30) (V c main_v34) (V c main_v9) (V c main_v12) :=
  (dat2 V c).arrAt_eq_of_cover 5 _ (fun t _ => flushed2 V c t) cover2

end Cert.KernelIdeal.Named

end
-- ==== Proof.LibNormLaw.lean ====
import Idealize.ShloMosaic.PureOps.Ideal
import Idealize.ShloMosaic.PureOps.Ideal.Laws

/-!
# Normalising a column by its mean and variance, at the extended reals

A column of real numbers x i (i ranging over a finite set of N rows) is normalised by its mean
m = (∑ x) / N and its (biased) variance v, the normalised entry being (x i₀ - m) / √(v + ε), and a
monotone squashing (tanh) of an affine image of that entry is returned.  The variance may be computed
as the mean of the squares minus the square of the mean, (∑ x²) / N - m², or as the mean of the squared
deviations, (∑ (x - m)²) / (N - 0); and the division by the root may be carried out as a product
with the reciprocal 1 / √(v + ε).  On the REAL numbers these are textbook identities.  On the extended
reals [-∞, +∞] distributivity and cancellation fail at the infinities, so the identities are proved
here under the hypothesis that every entry of the column is real: then every intermediate quantity is
real (this is exported too), the computation can be carried out in ℝ, and the two forms agree.

All quotients are the extended reals' division Ideal.div, all roots Ideal.sqrt.
-/

noncomputable section

namespace Idealize.ShloMosaic.NormLaw

open Idealize.ShloMosaic
open scoped BigOperators

/-! ## Reading real sums, quotients and roots in the extended reals -/

/-- The sum of finitely many reals, read in the extended reals, is the sum of the readings. -/
theorem coe_sum {ι : Type*} (s : Finset ι) (r : ι → ℝ) :
    ((∑ i ∈ s, r i : ℝ) : EReal) = ∑ i ∈ s, ((r i : ℝ) : EReal) := by
  classical
  induction s using Finset.induction_on with
  | empty => simp
  | insert a s ha ih => rw [Finset.sum_insert ha, Finset.sum_insert ha, EReal.coe_add, ih]

/-- A finite sum of extended reals each of which is real is real. -/
theorem sum_real {ι : Type*} (s : Finset ι) (x : ι → EReal) (hx : ∀ i, ∃ r : ℝ, x i = (r : EReal)) :
    ∃ r : ℝ, ∑ i ∈ s, x i = (r : EReal) := by
  choose r hr using hx
  exact ⟨∑ i ∈ s, r i, by rw [coe_sum]; exact Finset.sum_congr rfl fun i _ => hr i⟩

/-- The quotient of a real by a nonzero real, in the extended reals, is the real quotient. -/
theorem div_coe_coe (a : ℝ) {b : ℝ} (hb : b ≠ 0) :
    Ideal.div (a : EReal) (b : EReal) = ((a / b : ℝ) : EReal) := by
  rw [Ideal.div_coe hb, ← EReal.coe_mul, mul_one_div]

/-- The root of a nonnegative real, in the extended reals, is the real root. -/
theorem sqrt_coe_of_nonneg {r : ℝ} (hr : 0 ≤ r) : Ideal.sqrt (r : EReal) = ((Real.sqrt r : ℝ) : EReal) := by
  rw [Ideal.sqrt_coe, if_neg (not_lt.mpr hr)]

/-! ## The variance, two ways (real numbers) -/

/-- On the reals: the mean of the squares minus the square of the mean is the mean of the squared
    deviations from the mean.  N is the number of terms and is not zero. -/
theorem var_eq_real {ι : Type*} [Fintype ι] (r : ι → ℝ) {N : ℝ} (hN : N ≠ 0)
    (hcard : (Fintype.card ι : ℝ) = N) :
    (∑ i, r i * r i) / N - (∑ i, r i) / N * ((∑ i, r i) / N)
      = (∑ i, (r i - (∑ i, r i) / N) * (r i - (∑ i, r i) / N)) / (N - 0) := by
  have h : ∑ i, (r i - (∑ i, r i) / N) * (r i - (∑ i, r i) / N)
      = (∑ i, r i * r i) - 2 * ((∑ i, r i) / N) * (∑ i, r i) + N * (((∑ i, r i) / N) * ((∑ i, r i) / N)) := by
    have : ∀ i, (r i - (∑ i, r i) / N) * (r i - (∑ i, r i) / N)
        = r i * r i - 2 * ((∑ i, r i) / N) * r i + ((∑ i, r i) / N) * ((∑ i, r i) / N) := fun i => by ring
    simp only [this, Finset.sum_add_distrib, Finset.sum_sub_distrib, ← Finset.mul_sum, Finset.sum_const,
      Finset.card_univ, nsmul_eq_mul, hcard]
    ring
  rw [h, sub_zero]
  field_simp
  ring

/-- On the reals the mean of the squared deviations is not negative (N > 0). -/
theorem var_nonneg_real {ι : Type*} [Fintype ι] (r : ι → ℝ) (m : ℝ) {N : ℝ} (hN : 0 < N) :
    0 ≤ (∑ i, (r i - m) * (r i - m)) / (N - 0) := by
  rw [sub_zero]
  exact div_nonneg (Finset.sum_nonneg fun i _ => mul_self_nonneg _) hN.le

/-! ## The column's quantities, over real witnesses -/

section Column

variable {ι : Type*} [Fintype ι]

/-- The mean of a real column, in the extended reals, is the real mean. -/
theorem mean_coe (r : ι → ℝ) {N : ℝ} (hN : N ≠ 0) :
    Ideal.div (∑ i, ((r i : ℝ) : EReal)) (N : EReal) = (((∑ i, r i) / N : ℝ) : EReal) := by
  rw [← coe_sum, div_coe_coe _ hN]

/-- The variance of a real column as "mean of squares minus square of mean", in the extended reals,
    is the same expression in the reals. -/
theorem var_sq_coe (r : ι → ℝ) {N : ℝ} (hN : N ≠ 0) :
    Ideal.div (∑ i, ((r i : ℝ) : EReal) * ((r i : ℝ) : EReal)) (N : EReal)
        - Ideal.div (∑ i, ((r i : ℝ) : EReal)) (N : EReal) * Ideal.div (∑ i, ((r i : ℝ) : EReal)) (N : EReal)
      = (((∑ i, r i * r i) / N - (∑ i, r i) / N * ((∑ i, r i) / N) : ℝ) : EReal) := by
  rw [mean_coe r hN]
  simp only [← EReal.coe_mul]
  rw [← coe_sum, div_coe_coe _ hN, ← EReal.coe_sub]

/-- The variance of a real column as "mean of squared deviations", in the extended reals, is the
    same expression in the reals.  The divisor is N - 0 (a count less zero degrees of freedom). -/
theorem var_dev_coe (r : ι → ℝ) {N : ℝ} (hN : N ≠ 0) :
    Ideal.div (∑ i, (((r i : ℝ) : EReal) - Ideal.div (∑ i, ((r i : ℝ) : EReal)) (N : EReal))
          * (((r i : ℝ) : EReal) - Ideal.div (∑ i, ((r i : ℝ) : EReal)) (N : EReal))) ((N : EReal) - 0)
      = (((∑ i, (r i - (∑ i, r i) / N) * (r i - (∑ i, r i) / N)) / (N - 0) : ℝ) : EReal) := by
  rw [mean_coe r hN]
  simp only [← EReal.coe_sub, ← EReal.coe_mul]
  rw [← coe_sum, sub_zero, sub_zero, div_coe_coe _ hN]

end Column

/-! ## The laws, for a column of extended reals every entry of which is real -/

section Laws

variable {ι : Type*} [Fintype ι]

/-- **The variance, two ways.**  For a column x whose entries are all real, with n the (real, nonzero)
    number N of its rows and z = 0: the mean of the squares minus the square of the mean equals the mean
    (over n - z) of the squared deviations from the mean.  Every quotient is Ideal.div. -/
theorem var_eq (x : ι → EReal) (hx : ∀ i, ∃ r : ℝ, x i = (r : EReal)) {N : ℝ} (hN : N ≠ 0)
    (hcard : (Fintype.card ι : ℝ) = N) (n z : EReal) (hn : n = (N : EReal)) (hz : z = 0) :
    Ideal.div (∑ i, x i * x i) n - Ideal.div (∑ i, x i) n * Ideal.div (∑ i, x i) n
      = Ideal.div (∑ i, (x i - Ideal.div (∑ i, x i) n) * (x i - Ideal.div (∑ i, x i) n)) (n - z) := by
  choose r hr using hx
  obtain rfl : x = fun i => ((r i : ℝ) : EReal) := funext hr
  subst hn hz
  rw [var_sq_coe r hN, var_dev_coe r hN, var_eq_real r hN hcard]

/-- The mean of a column with real entries is real. -/
theorem mean_real (x : ι → EReal) (hx : ∀ i, ∃ r : ℝ, x i = (r : EReal)) {N : ℝ} (hN : N ≠ 0)
    (n : EReal) (hn : n = (N : EReal)) : ∃ m : ℝ, Ideal.div (∑ i, x i) n = (m : EReal) := by
  choose r hr using hx
  obtain rfl : x = fun i => ((r i : ℝ) : EReal) := funext hr
  subst hn
  exact ⟨_, mean_coe r hN⟩

/-- The variance of a column with real entries, as mean of squares minus square of mean, is a real
    number that is not negative (N the number of rows, positive). -/
theorem var_sq_real (x : ι → EReal) (hx : ∀ i, ∃ r : ℝ, x i = (r : EReal)) {N : ℝ} (hN : 0 < N)
    (hcard : (Fintype.card ι : ℝ) = N) (n : EReal) (hn : n = (N : EReal)) :
    ∃ v : ℝ, 0 ≤ v ∧
      Ideal.div (∑ i, x i * x i) n - Ideal.div (∑ i, x i) n * Ideal.div (∑ i, x i) n = (v : EReal) := by
  choose r hr using hx
  obtain rfl : x = fun i => ((r i : ℝ) : EReal) := funext hr
  subst hn
  refine ⟨_, ?_, var_sq_coe r hN.ne'⟩
  rw [var_eq_real r hN.ne' hcard]
  exact var_nonneg_real r _ hN

/-- The variance of a column with real entries, as mean of squared deviations, is a real number that
    is not negative. -/
theorem var_dev_real (x : ι → EReal) (hx : ∀ i, ∃ r : ℝ, x i = (r : EReal)) {N : ℝ} (hN : 0 < N)
    (n z : EReal) (hn : n = (N : EReal)) (hz : z = 0) :
    ∃ v : ℝ, 0 ≤ v ∧
      Ideal.div (∑ i, (x i - Ideal.div (∑ i, x i) n) * (x i - Ideal.div (∑ i, x i) n)) (n - z) = (v : EReal) := by
  choose r hr using hx
  obtain rfl : x = fun i => ((r i : ℝ) : EReal) := funext hr
  subst hn hz
  exact ⟨_, var_nonneg_real r _ hN, var_dev_coe r hN.ne'⟩

end Laws

/-! ## The root and the reciprocal of the root -/

/-- The root of a nonnegative real plus a positive real is a positive real. -/
theorem sqrt_add_real {v eps : EReal} (hv : ∃ r : ℝ, 0 ≤ r ∧ v = (r : EReal))
    (heps : ∃ e : ℝ, 0 < e ∧ eps = (e : EReal)) :
    ∃ s : ℝ, 0 < s ∧ Ideal.sqrt (v + eps) = (s : EReal) := by
  obtain ⟨r, hr, rfl⟩ := hv
  obtain ⟨e, he, rfl⟩ := heps
  refine ⟨Real.sqrt (r + e), Real.sqrt_pos.mpr (by linarith), ?_⟩
  rw [← EReal.coe_add, sqrt_coe_of_nonneg (by linarith)]

/-- The reciprocal of that root is a positive real. -/
theorem inv_sqrt_add_real {one v eps : EReal} (hone : one = 1) (hv : ∃ r : ℝ, 0 ≤ r ∧ v = (r : EReal))
    (heps : ∃ e : ℝ, 0 < e ∧ eps = (e : EReal)) :
    ∃ t : ℝ, 0 < t ∧ Ideal.div one (Ideal.sqrt (v + eps)) = (t : EReal) := by
  obtain ⟨s, hs0, hs⟩ := sqrt_add_real hv heps
  exact ⟨1 / s, one_div_pos.mpr hs0, by rw [hs, hone, Ideal.div_coe hs0.ne', one_mul]⟩

/-- **Dividing by the root is multiplying by its reciprocal**, whatever extended real X is divided:
    X * (one / √(v + ε)) = X / √(v + ε) for one = 1, v a real ≥ 0 and ε a real > 0. -/
theorem norm_eq (X : EReal) {one v eps : EReal} (hone : one = 1) (hv : ∃ r : ℝ, 0 ≤ r ∧ v = (r : EReal))
    (heps : ∃ e : ℝ, 0 < e ∧ eps = (e : EReal)) :
    X * Ideal.div one (Ideal.sqrt (v + eps)) = Ideal.div X (Ideal.sqrt (v + eps)) := by
  obtain ⟨s, hs0, hs⟩ := sqrt_add_real hv heps
  rw [hs, hone, Ideal.div_coe hs0.ne', Ideal.div_coe hs0.ne', one_mul]

/-- The two squashed results agree once the two variances do: for any numerator X, scale g and shift b,
    tanh (X * (one / √(vk + ε)) * g + b) = tanh (X / √(vr + ε) * g + b) when vk = vr is a real ≥ 0. -/
theorem squash_eq (X g b : EReal) {one vk vr eps : EReal} (hone : one = 1) (hvv : vk = vr)
    (hv : ∃ r : ℝ, 0 ≤ r ∧ vr = (r : EReal)) (heps : ∃ e : ℝ, 0 < e ∧ eps = (e : EReal)) :
    Ideal.tanh (X * Ideal.div one (Ideal.sqrt (vk + eps)) * g + b)
      = Ideal.tanh (Ideal.div X (Ideal.sqrt (vr + eps)) * g + b) := by
  subst hvv
  rw [norm_eq X hone hv heps]

/-- **The normalised, squashed column, two ways.**  For a column x with real entries, n its number of
    rows N > 0, z = 0, one = 1, ε a positive real, and any scale g, shift b and row i₀: normalising by the
    reciprocal root of "mean of squares minus square of mean" and normalising by the root of "mean of
    squared deviations" give the same value. -/
theorem bn_eq {ι : Type*} [Fintype ι] (x : ι → EReal) (hx : ∀ i, ∃ r : ℝ, x i = (r : EReal)) {N : ℝ}
    (hN : 0 < N) (hcard : (Fintype.card ι : ℝ) = N) (n z one eps : EReal) (hn : n = (N : EReal))
    (hz : z = 0) (hone : one = 1) (heps : ∃ e : ℝ, 0 < e ∧ eps = (e : EReal)) (g b : EReal) (i₀ : ι) :
    Ideal.tanh ((x i₀ - Ideal.div (∑ i, x i) n)
          * Ideal.div one (Ideal.sqrt
              (Ideal.div (∑ i, x i * x i) n - Ideal.div (∑ i, x i) n * Ideal.div (∑ i, x i) n + eps))
          * g + b)
      = Ideal.tanh (Ideal.div (x i₀ - Ideal.div (∑ i, x i) n)
          (Ideal.sqrt
              (Ideal.div (∑ i, (x i - Ideal.div (∑ i, x i) n) * (x i - Ideal.div (∑ i, x i) n)) (n - z) + eps))
          * g + b) :=
  squash_eq _ g b hone (var_eq x hx hN.ne' hcard n z hn hz) (var_dev_real x hx hN n z hn hz) heps

/-- The comparison "count less zero is above zero" is true: the word 1. -/
theorem cmp_ogt_count {N : ℝ} (hN : 0 < N) (n z zero : EReal) (hn : n = (N : EReal)) (hz : z = 0)
    (hzero : zero = 0) : Ideal.cmp .ogt (n - z) zero = 1#1 := by
  subst hn hz hzero
  simp [Ideal.cmp, hN]

/-! ## Kernel-side and host-side operations are one function here -/

/-- The host's tanh and a kernel's tanh are the same function of an extended real. -/
theorem hostTanh_eq_tanh {φ : FTy} (x : Ideal φ) :
    FloatOps.hostUnary .tanh x = FloatOps.tanh x ∧ FloatOps.tanh x = Ideal.tanh x := ⟨rfl, rfl⟩

/-- The host's root and a kernel's root are the same function of an extended real. -/
theorem hostSqrt_eq_sqrt {φ : FTy} (x : Ideal φ) :
    FloatOps.hostUnary .sqrt x = FloatOps.sqrt x ∧ FloatOps.sqrt x = Ideal.sqrt x := ⟨rfl, rfl⟩

/-- The host's quotient and a kernel's quotient are the same function of two extended reals. -/
theorem hostDivf_eq_divf {φ : FTy} (x y : Ideal φ) :
    FloatOps.hostDivf x y = FloatOps.divf x y ∧ FloatOps.divf x y = Ideal.div x y := ⟨rfl, rfl⟩

/-! ## The constants of a 50000-row column in single precision -/

/-- The pattern of 50000.0 denotes the real 50000. -/
theorem ofBits_50000 : Ideal.ofBits .f32 0x47435000#32 = ((50000 : ℝ) : EReal) := by
  simp [Ideal.ofBits, Ideal.ieee, -EReal.coe_mul]; norm_num

/-- The pattern of 1.0 denotes 1. -/
theorem ofBits_one : Ideal.ofBits .f32 0x3F800000#32 = 1 := by
  simp [Ideal.ofBits, Ideal.ieee, -EReal.coe_mul]; norm_num

/-- The single-precision number nearest 1e-5 denotes a positive real. -/
theorem ofBits_eps : ∃ e : ℝ, 0 < e ∧ Ideal.ofBits .f32 0x3727C5AC#32 = (e : EReal) := by
  refine ⟨10995116 * (2 : ℝ) ^ (-40 : ℤ), by positivity, ?_⟩
  simp [Ideal.ofBits, Ideal.ieee, -EReal.coe_mul]

/-- The integer word 0 converted to a float denotes 0. -/
theorem sitofp_zero {φ : FTy} : FloatOps.sitofp (F := Ideal) φ (0#32) = (0 : EReal) := by
  show (((0#32 : BitVec 32).toInt : ℝ) : EReal) = 0
  simp

/-- The number of rows of a 50000-row column, as a real. -/
theorem card_50000 : (Fintype.card (Fin 50000) : ℝ) = 50000 := by simp

end Idealize.ShloMosaic.NormLaw
-- ==== Proof.LibAllReal.lean ====
import Idealize.ShloMosaic.PureOps.ShapeOps
import Idealize.ShloMosaic.PureOps.Contract
import Idealize.ShloMosaic.PureOps.Ideal
import Idealize.ShloMosaic.PureOps.Ideal.Laws
import Idealize.ShloMosaic.Lib.ValueIdx
import Idealize.ShloMosaic.Lib.ValueLayout

/-!
# Arrays of extended reals all of whose entries are real numbers

At the extended reals [-∞, +∞] an entry is called real when it is (the reading of) a real number,
that is, neither infinity.  An array is *all real* when every one of its entries is.  This file
holds the definition and the test by which an entry is recognised as real: its absolute value
lies strictly below +∞.
-/

noncomputable section

namespace Idealize.ShloMosaic.AllReal

open Idealize.ShloMosaic
open scoped BigOperators

/-- An array of extended reals is all real when each entry is the reading of a real number. -/
def _root_.Idealize.ShloMosaic.AllReal {s : Shape} (v : s.Idx → EReal) : Prop := ∀ i, ∃ r : ℝ, v i = (r : EReal)

/-- An extended real whose absolute value `max x (-x)` lies strictly below +∞ is a real number:
    it is not +∞ (then the maximum is +∞) and not -∞ (then its negation is +∞). -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

end Idealize.ShloMosaic.AllReal

end
-- ==== Proof.LibAllRealDot.lean ====
import Idealize.ShloMosaic.PureOps.Contract
import Idealize.ShloMosaic.PureOps.Ideal
import Idealize.ShloMosaic.PureOps.Ideal.Laws
import proofs.«113632_j80152679678507_2_alg».proof.Proof.LibAllReal

/-!
# A matrix product of arrays of real numbers is an array of real numbers

At the extended reals the host's `dot_general` is, at each output position, the finite sum over
the contracted index of the products of an entry of the left operand and an entry of the right one
(whatever the contraction record: any number of contracted or batch axes).  A product of two reals
is real and a finite sum of reals is real, so the product of two all-real arrays is all real.  The
same holds of the kernel's matrix product onto an all-real accumulator.
-/

noncomputable section

namespace Idealize.ShloMosaic.AllReal

open Idealize.ShloMosaic
open scoped BigOperators

/-- A finite sum of extended reals each of which is a real number is a real number (induction on
    the index set: the empty sum is 0, and the sum of two reals is real). -/
theorem sum_real {ι : Type*} (s : Finset ι) (f : ι → EReal) (hf : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    obtain ⟨p, hp⟩ := hf a (Finset.mem_insert_self a s)
    obtain ⟨q, hq⟩ := ih fun i hi => hf i (Finset.mem_insert_of_mem hi)
    exact ⟨p + q, by rw [Finset.sum_insert ha, hp, hq, EReal.coe_add]⟩

/-- A finite sum of products of two families of real numbers is a real number. -/
theorem sum_mul_real {ι : Type*} (s : Finset ι) (f g : ι → EReal) (hf : ∀ i, ∃ r : ℝ, f i = (r : EReal))
    (hg : ∀ i, ∃ r : ℝ, g i = (r : EReal)) : ∃ r : ℝ, ∑ i ∈ s, f i * g i = (r : EReal) :=
  sum_real s _ fun i _ => by
    obtain ⟨p, hp⟩ := hf i
    obtain ⟨q, hq⟩ := hg i
    exact ⟨p * q, by rw [hp, hq, EReal.coe_mul]⟩

/-- The host's matrix product (`dot_general`, any contraction record, any precision) of two all-real
    arrays is all real: each entry is a finite sum of products of an entry of each operand. -/
theorem dotGeneral {sl sr so : Shape} {φ₁ φ₂ : FTy} (d : DotDims sl sr so) (prec : Option ContractPrecision)
    (a : FVec Ideal sl φ₁) (b : FVec Ideal sr φ₂) (ha : AllReal a) (hb : AllReal b) :
    AllReal (Host.dotGeneral d prec a b) := fun j => by
  show ∃ r : ℝ, FloatOps.dotGeneral d prec .single a b j = (r : EReal)
  rw [Ideal.dotGeneral_apply]
  exact sum_mul_real _ _ _ (fun k => ha _) (fun k => hb _)

/-- The same at any schedule key of the host's product. -/
theorem dotGeneralAt (sched : HostSchedule) {sl sr so : Shape} {φ₁ φ₂ : FTy} (d : DotDims sl sr so)
    (prec : Option ContractPrecision) (a : FVec Ideal sl φ₁) (b : FVec Ideal sr φ₂) (ha : AllReal a) (hb : AllReal b) :
    AllReal (Host.dotGeneralAt sched d prec a b) := fun j => by
  show ∃ r : ℝ, FloatOps.dotGeneral d prec sched a b j = (r : EReal)
  rw [Ideal.dotGeneral_apply]
  exact sum_mul_real _ _ _ (fun k => ha _) (fun k => hb _)

/-- The kernel's matrix product onto an accumulator: all real when both operands and the
    accumulator are (the accumulator's entry plus the finite sum of products). -/
theorem matmul {sl sr so : Shape} {φ₁ φ₂ : FTy} (d : DotDims sl sr so) (prec : Option ContractPrecision)
    (a : FVec Ideal sl φ₁) (b : FVec Ideal sr φ₂) (acc : FVec Ideal so .f32) (ha : AllReal a) (hb : AllReal b)
    (hacc : AllReal acc) : AllReal (Idealize.ShloMosaic.matmul d prec a b acc) := fun j => by
  show ∃ r : ℝ, FloatOps.matmul d prec a b acc j = (r : EReal)
  rw [Ideal.matmul_apply]
  obtain ⟨p, hp⟩ := hacc j
  obtain ⟨q, hq⟩ := sum_mul_real Finset.univ (fun k => a (d.lhsIdx j k)) (fun k => b (d.rhsIdx j k))
    (fun k => ha _) (fun k => hb _)
  exact ⟨p + q, by rw [hp, hq, EReal.coe_add]⟩

end Idealize.ShloMosaic.AllReal

end
-- ==== Proof.LibSparseFinite.lean ====
import Idealize.ShloMosaic.PureOps.ShapeOps
import Idealize.ShloMosaic.PureOps.Contract
import Idealize.ShloMosaic.PureOps.Ideal

/-!
# Real entries through a gather, an accumulating scatter, sums and products

At the extended reals [-∞, +∞] an entry is called real when it is (the reading of) a real number,
that is, neither infinity.  A sparse matrix product "gather the rows an index list names, scale
them, add them into the rows another index list names" keeps every entry real when its inputs are:

* a gather only copies entries of its operand (at a position the index array names, clamped into the
  operand), so whatever holds of every entry of the operand holds of every entry of the gather;
* an accumulating scatter returns, at each position, the operand's entry plus the sum of the updates
  whose target is that position (whatever the indices: they may repeat, and may point outside the
  operand, in which case the update contributes nothing); so a property that holds of 0, is closed
  under addition, and holds of every entry of the operand and every update, holds of every entry of
  the result;
* sums, differences, products, finite sums and finite sums of products of reals are real.
-/

noncomputable section

namespace Idealize.ShloMosaic.SparseFinite

open Idealize.ShloMosaic
open scoped BigOperators

/-! ## Reals among the extended reals are closed under the ring operations -/

/-- Zero is real. -/
theorem real_zero : ∃ r : ℝ, (0 : EReal) = (r : EReal) := ⟨0, EReal.coe_zero.symm⟩

/-- The sum of two reals is real. -/
theorem real_add {a b : EReal} (ha : ∃ r : ℝ, a = (r : EReal)) (hb : ∃ r : ℝ, b = (r : EReal)) :
    ∃ r : ℝ, a + b = (r : EReal) := by
  obtain ⟨p, rfl⟩ := ha; obtain ⟨q, rfl⟩ := hb; exact ⟨p + q, (EReal.coe_add p q).symm⟩

/-- The difference of two reals is real. -/
theorem real_sub {a b : EReal} (ha : ∃ r : ℝ, a = (r : EReal)) (hb : ∃ r : ℝ, b = (r : EReal)) :
    ∃ r : ℝ, a - b = (r : EReal) := by
  obtain ⟨p, rfl⟩ := ha; obtain ⟨q, rfl⟩ := hb; exact ⟨p - q, (EReal.coe_sub p q).symm⟩

/-- The product of two reals is real. -/
theorem real_mul {a b : EReal} (ha : ∃ r : ℝ, a = (r : EReal)) (hb : ∃ r : ℝ, b = (r : EReal)) :
    ∃ r : ℝ, a * b = (r : EReal) := by
  obtain ⟨p, rfl⟩ := ha; obtain ⟨q, rfl⟩ := hb; exact ⟨p * q, (EReal.coe_mul p q).symm⟩

/-- The negative of a real is real. -/
theorem real_neg {a : EReal} (ha : ∃ r : ℝ, a = (r : EReal)) : ∃ r : ℝ, -a = (r : EReal) := by
  obtain ⟨p, rfl⟩ := ha; exact ⟨-p, (EReal.coe_neg p).symm⟩

/-- A finite sum of reals is real. -/
theorem real_sum {ι : Type*} (s : Finset ι) (x : ι → EReal) (hx : ∀ i ∈ s, ∃ r : ℝ, x i = (r : EReal)) :
    ∃ r : ℝ, ∑ i ∈ s, x i = (r : EReal) :=
  Finset.sum_induction x (fun a => ∃ r : ℝ, a = (r : EReal)) (fun _ _ => real_add) real_zero hx

/-- A finite sum of products of reals (one entry of a matrix product) is real. -/
theorem real_dot {ι : Type*} (s : Finset ι) (a b : ι → EReal) (ha : ∀ i, ∃ r : ℝ, a i = (r : EReal))
    (hb : ∀ i, ∃ r : ℝ, b i = (r : EReal)) : ∃ r : ℝ, ∑ i ∈ s, a i * b i = (r : EReal) :=
  real_sum s _ fun i _ => real_mul (ha i) (hb i)

/-! ## A gather copies entries of its operand -/

section Gather

variable {α : Type} {s si t : Shape} {w : Nat}

/-- Every entry of a gather is the operand's entry at the position the gather's dimension numbers and
    index array name for it. -/
theorem gather_apply (d : GatherDims s si t) (x : s.Idx → α) (idx : IVec si w) (j : t.Idx) :
    Host.gather d x idx j = x (d.operandIdx j idx) := rfl

/-- So every entry of a gather is an entry of the operand, whatever the indices. -/
theorem gather_mem (d : GatherDims s si t) (x : s.Idx → α) (idx : IVec si w) (j : t.Idx) :
    ∃ i : s.Idx, Host.gather d x idx j = x i := ⟨_, rfl⟩

/-- A property of every entry of the operand is a property of every entry of the gather. -/
theorem gather_pred (d : GatherDims s si t) (x : s.Idx → α) (idx : IVec si w) (P : α → Prop)
    (hx : ∀ i, P (x i)) (j : t.Idx) : P (Host.gather d x idx j) := hx _

/-- A gather of an array of reals is an array of reals. -/
theorem gather_real {φ : FTy} (d : GatherDims s si t) (x : FVec Ideal s φ) (idx : IVec si w)
    (hx : ∀ i, ∃ r : ℝ, x i = (r : EReal)) (j : t.Idx) : ∃ r : ℝ, Host.gather d x idx j = (r : EReal) :=
  hx _

end Gather

/-! ## An accumulating scatter adds updates into operand entries -/

section ScatterAdd

variable {s si u : Shape} {w : Nat} {φ : FTy}

/-- At the extended reals the accumulating scatter is, at each position, the operand's entry plus the
    exact sum of the updates whose target is that position. -/
theorem scatterAdd_apply (d : ScatterDims s si u) (x : FVec Ideal s φ) (idx : IVec si w) (upd : FVec Ideal u φ)
    (i : s.Idx) : Host.scatterAdd d x idx upd i = Ideal.hostScatterAdd d x idx upd i := rfl

/-- A property that holds of 0, is closed under addition, and holds of every entry of the operand and
    of every update, holds of every entry of the accumulating scatter, whatever the indices. -/
theorem scatterAdd_pred (d : ScatterDims s si u) (x : FVec Ideal s φ) (idx : IVec si w) (upd : FVec Ideal u φ)
    (P : EReal → Prop) (h0 : P 0) (hadd : ∀ a b, P a → P b → P (a + b)) (hx : ∀ i, P (x i))
    (hupd : ∀ j, P (upd j)) (i : s.Idx) : P (Host.scatterAdd d x idx upd i) := by
  rw [scatterAdd_apply]
  unfold Ideal.hostScatterAdd
  exact hadd _ _ (hx i) (Finset.sum_induction upd P hadd h0 fun j _ => hupd j)

/-- An accumulating scatter of real updates into an operand of reals is an array of reals. -/
theorem scatterAdd_real (d : ScatterDims s si u) (x : FVec Ideal s φ) (idx : IVec si w) (upd : FVec Ideal u φ)
    (hx : ∀ i, ∃ r : ℝ, x i = (r : EReal)) (hupd : ∀ j, ∃ r : ℝ, upd j = (r : EReal)) (i : s.Idx) :
    ∃ r : ℝ, Host.scatterAdd d x idx upd i = (r : EReal) :=
  scatterAdd_pred d x idx upd (fun a => ∃ r : ℝ, a = (r : EReal)) real_zero (fun _ _ => real_add) hx hupd i

end ScatterAdd

end Idealize.ShloMosaic.SparseFinite
-- ==== Proof.Norm.lean ====
/-
  The real-number mathematics of the normalised layer.

  For a column of real numbers the two expressions of the variance agree, so the normalised layer may be
  stated over either; and when every input entry is real, every intermediate array of the layer
  (the product h · W, the layer before normalisation, the normalised layer) has only real entries.
-/
import proofs.«113632_j80152679678507_2_alg».proof.Proof.Spec
import proofs.«113632_j80152679678507_2_alg».proof.Proof.LibNormLaw
import proofs.«113632_j80152679678507_2_alg».proof.Proof.LibAllReal
import proofs.«113632_j80152679678507_2_alg».proof.Proof.LibAllRealDot
import proofs.«113632_j80152679678507_2_alg».proof.Proof.LibSparseFinite

noncomputable section

namespace Cert.Gcn

open Idealize.ShloMosaic Idealize.ShloMosaic.ValueIdx
open scoped BigOperators

/-- The number of rows is the real number 50000. -/
theorem cnt_eq : cnt = ((50000 : ℝ) : EReal) := NormLaw.ofBits_50000

/-- The stabiliser is a positive real. -/
theorem eps_pos : ∃ e : ℝ, 0 < e ∧ eps = (e : EReal) := NormLaw.ofBits_eps

/-- A column of an all-real array is a family of reals. -/
theorem col_real {o : SN.Idx → EReal} (ho : AllReal o) (q : Fin 128) :
    ∀ n : Fin 50000, ∃ r : ℝ, o (ix2 n q) = (r : EReal) := fun n => ho (ix2 n q)

/-- **The variance, two ways**: for an all-real array, in every column the mean of the squares minus the
    square of the mean is the mean of the squared deviations from the mean. -/
theorem varSq_eq_varDev (o : SN.Idx → EReal) (ho : AllReal o) (q : Fin 128) : varSq o q = varDev o q := by
  have h := NormLaw.var_eq (ι := Fin 50000) (fun n => o (ix2 n q)) (col_real ho q) (N := 50000)
    (by norm_num) NormLaw.card_50000 cnt 0 cnt_eq rfl
  rw [sub_zero] at h
  exact h

/-- The normalised layer over either variance is the same array. -/
theorem normRelu_varSq (o : SN.Idx → EReal) (γ β : SV.Idx → EReal) (ho : AllReal o) :
    normRelu (varSq o) o γ β = normRelu (varDev o) o γ β := by
  have : varSq o = varDev o := funext fun q => varSq_eq_varDev o ho q
  rw [this]

/-- The product h · W of all-real arrays is all real. -/
theorem dense_real (h : SN.Idx → EReal) (W : SW.Idx → EReal) (hh : AllReal h) (hW : AllReal W) :
    AllReal (dense h W) := fun i =>
  AllReal.sum_mul_real Finset.univ (fun k : Fin 128 => h (ix2 (i 0) k)) (fun k => W (ix2 k (i 1)))
    (fun _ => hh _) (fun _ => hW _)

/-- The layer before normalisation is all real when its four inputs are. -/
theorem pre_real (agg h : SN.Idx → EReal) (W : SW.Idx → EReal) (b : SV.Idx → EReal) (hagg : AllReal agg)
    (hh : AllReal h) (hW : AllReal W) (hb : AllReal b) : AllReal (pre agg h W b) := fun i =>
  SparseFinite.real_add (SparseFinite.real_add (hagg i) (dense_real h W hh hW i)) (hb _)

/-- The mean of a column of an all-real array is real. -/
theorem mean_real (o : SN.Idx → EReal) (ho : AllReal o) (q : Fin 128) : ∃ m : ℝ, mean o q = (m : EReal) :=
  NormLaw.mean_real (ι := Fin 50000) (fun n => o (ix2 n q)) (col_real ho q) (N := 50000) (by norm_num) cnt cnt_eq

/-- The variance (mean of squared deviations) of a column of an all-real array is a real ≥ 0. -/
theorem varDev_real (o : SN.Idx → EReal) (ho : AllReal o) (q : Fin 128) :
    ∃ v : ℝ, 0 ≤ v ∧ varDev o q = (v : EReal) := by
  have h := NormLaw.var_dev_real (ι := Fin 50000) (fun n => o (ix2 n q)) (col_real ho q) (N := 50000)
    (by norm_num) cnt 0 cnt_eq rfl
  rw [sub_zero] at h
  exact h

/-- The reciprocal root of a positive real is a real. -/
theorem rsqrt_real_of_pos {r : ℝ} (hr : 0 < r) : ∃ t : ℝ, Ideal.rsqrt (r : EReal) = (t : EReal) := by
  refine ⟨(Real.sqrt r)⁻¹, ?_⟩
  rw [Ideal.rsqrt_coe, if_neg (not_lt.mpr hr.le), if_neg hr.ne']

/-- The reciprocal root of variance plus stabiliser is real. -/
theorem rsqrt_var_real (o : SN.Idx → EReal) (ho : AllReal o) (q : Fin 128) :
    ∃ t : ℝ, Ideal.rsqrt (varDev o q + eps) = (t : EReal) := by
  obtain ⟨v, hv0, hv⟩ := varDev_real o ho q
  obtain ⟨e, he0, he⟩ := eps_pos
  rw [hv, he, ← EReal.coe_add]
  exact rsqrt_real_of_pos (by linarith)

/-- The larger of two reals is real. -/
theorem real_max {a b : EReal} (ha : ∃ r : ℝ, a = (r : EReal)) (hb : ∃ r : ℝ, b = (r : EReal)) :
    ∃ r : ℝ, max a b = (r : EReal) := by
  rcases le_total a b with h | h
  · rw [max_eq_right h]; exact hb
  · rw [max_eq_left h]; exact ha

/-- The normalised layer of all-real arrays is all real. -/
theorem normRelu_real (o : SN.Idx → EReal) (γ β : SV.Idx → EReal) (ho : AllReal o) (hγ : AllReal γ)
    (hβ : AllReal β) : AllReal (normRelu (varDev o) o γ β) := fun i =>
  real_max
    (SparseFinite.real_add
      (SparseFinite.real_mul (SparseFinite.real_mul (hγ _) (SparseFinite.real_sub (ho i) (mean_real o ho (i 1))))
        (rsqrt_var_real o ho (i 1)))
      (hβ _))
    SparseFinite.real_zero

end Cert.Gcn

end
-- ==== Proof.KLayer.lean ====
/-
  From the one-row forms to the layer.  A kernel holds a per-column quantity as a one-row array; when that row
  is the vector laid out as a row, the row forms of the layer are the layer itself.  And when the mean row is the
  column sums divided by the number of rows, and the variance row is the column sums of squares divided by the
  number of rows minus the square of the mean row, then — for an array of real numbers — the normalised layer over
  those rows is the normalised layer over the mean of squared deviations: the two variances agree on real columns.
-/
import proofs.«113632_j80152679678507_2_alg».proof.Proof.Spec
import proofs.«113632_j80152679678507_2_alg».proof.Proof.SpecRows
import proofs.«113632_j80152679678507_2_alg».proof.Proof.Norm

noncomputable section

namespace Cert.Gcn

open Idealize.ShloMosaic Idealize.ShloMosaic.ValueIdx
open scoped BigOperators

/-- The combining layer over a bias row that is the bias vector laid out as a row. -/
theorem rowPre_eq (agg h : SN.Idx → EReal) (W : SW.Idx → EReal) (b : SV.Idx → EReal) (brow : SR.Idx → EReal)
    (hb : ∀ q : Fin 128, brow (ix2 (0 : Fin 1) q) = b (ix1 q)) : rowPre agg h W brow = pre agg h W b := by
  funext i
  obtain ⟨n, q, rfl⟩ : ∃ (n : Fin 50000) (q : Fin 128), i = ix2 n q := ⟨i 0, i 1, eq_ix2 i⟩
  show (agg (ix2 n q) + dense h W (ix2 n q)) + brow (ix2 (0 : Fin 1) q) = (agg (ix2 n q) + dense h W (ix2 n q)) + b (ix1 q)
  rw [hb]

/-- The column-sum row at column q is the column sum. -/
theorem rowSum_at (o : SN.Idx → EReal) (q : Fin 128) : rowSum o (ix2 (0 : Fin 1) q) = colSum o q :=
  zero_add (colSum o q)

/-- The column-sum-of-squares row at column q is the column sum of squares. -/
theorem rowSumSq_at (o : SN.Idx → EReal) (q : Fin 128) : rowSumSq o (ix2 (0 : Fin 1) q) = colSumSq o q :=
  zero_add (colSumSq o q)

/-- The normalised layer over mean and variance rows computed from the column sums and the column sums of
    squares, for an array of reals, is the normalised layer over the mean of squared deviations. -/
theorem rowNorm_eq (o : SN.Idx → EReal) (ho : AllReal o) (mu var grow brow : SR.Idx → EReal) (g b : SV.Idx → EReal)
    (hmu : ∀ q : Fin 128, mu (ix2 (0 : Fin 1) q) = Ideal.div (rowSum o (ix2 (0 : Fin 1) q)) cnt)
    (hvar : ∀ q : Fin 128, var (ix2 (0 : Fin 1) q)
      = Ideal.div (rowSumSq o (ix2 (0 : Fin 1) q)) cnt - mu (ix2 (0 : Fin 1) q) * mu (ix2 (0 : Fin 1) q))
    (hg : ∀ q : Fin 128, grow (ix2 (0 : Fin 1) q) = g (ix1 q))
    (hb : ∀ q : Fin 128, brow (ix2 (0 : Fin 1) q) = b (ix1 q)) :
    rowNorm o mu var grow brow = normRelu (varDev o) o g b := by
  have hmean : ∀ q : Fin 128, mu (ix2 (0 : Fin 1) q) = mean o q := fun q => by
    rw [hmu, rowSum_at]; rfl
  have hv : ∀ q : Fin 128, var (ix2 (0 : Fin 1) q) = varDev o q := fun q => by
    rw [hvar, hmean, rowSumSq_at, ← varSq_eq_varDev o ho q]; rfl
  funext i
  obtain ⟨n, q, rfl⟩ : ∃ (n : Fin 50000) (q : Fin 128), i = ix2 n q := ⟨i 0, i 1, eq_ix2 i⟩
  show max (((grow (ix2 (0 : Fin 1) q) * (o (ix2 n q) - mu (ix2 (0 : Fin 1) q)))
      * Ideal.rsqrt (var (ix2 (0 : Fin 1) q) + eps)) + brow (ix2 (0 : Fin 1) q)) 0
    = max (((g (ix1 q) * (o (ix2 n q) - mean o q)) * Ideal.rsqrt (varDev o q + eps)) + b (ix1 q)) 0
  rw [hmean, hv, hg, hb]

end Cert.Gcn

end
-- ==== Proof.RefRead.lean ====
/-
  The reference program read as the specification's functions: each named stage of the reference
  (the dense products, the layer before normalisation, the normalised layer, the embedding and the
  edge score) equals the corresponding function of the specification, index by index, over the
  extended reals.
-/
import proofs.«113632_j80152679678507_2_alg».proof.Proof.Gen.ReferenceIdeal.Read
import proofs.«113632_j80152679678507_2_alg».proof.Proof.Spec

noncomputable section

namespace Cert.Gcn.Ref

open Cert.ReferenceIdeal Cert.ReferenceIdeal.Gen Cert.ReferenceIdeal.Read
open Idealize.ShloMosaic Idealize.ShloMosaic.ValueIdx Idealize.ShloMosaic.StableHlo
open scoped BigOperators

/-- Two indices of rank two agree when their coordinates do. -/
macro "idx2" : tactic => `(tactic| exact funext fun a => Fin.ext (by match a with | ⟨0, _⟩ => rfl | ⟨1, _⟩ => rfl))
/-- Two indices of rank one agree when their coordinate does. -/
macro "idx1" : tactic => `(tactic| exact funext fun a => Fin.ext (by match a with | ⟨0, _⟩ => rfl))

variable (x0 : (⟨S50000x128, .f32⟩ : BufTy).Contents (Elt Ideal))
  (x1 x2 : (⟨S800000, .i32⟩ : BufTy).Contents (Elt Ideal))
  (x3 : (⟨S800000, .f32⟩ : BufTy).Contents (Elt Ideal))
  (x4 : (⟨S2x500000, .i32⟩ : BufTy).Contents (Elt Ideal))
  (x5 x6 : (⟨S2x128x128, .f32⟩ : BufTy).Contents (Elt Ideal))
  (x7 x8 x9 : (⟨S2x128, .f32⟩ : BufTy).Contents (Elt Ideal))
  (x10 : (⟨S256x1, .f32⟩ : BufTy).Contents (Elt Ideal))
  (x11 : (⟨S1, .f32⟩ : BufTy).Contents (Elt Ideal))

/-- The first dense product of layer 1: `x · W₀`. -/
theorem sup1 : (val_main_v2 x0 x5) = dense x0 (val_main_v1 x5) := by
  funext i
  obtain ⟨n, q, rfl⟩ : ∃ n q, i = ix2 n q := ⟨i 0, i 1, eq_ix2 i⟩
  rw [val_main_v2_apply]
  unfold dense
  refine Finset.sum_congr rfl fun k _ => ?_
  have e1 : lidx_main_v2 (ix2 n q) k = ix2 n k := by idx2
  have e2 : ridx_main_v2 (ix2 n q) k = ix2 k q := by idx2
  rw [e1, e2]
  all_goals rfl

/-- The self-loop product of layer 1. -/
theorem self1 : (val_main_v18 x0 x6) = dense x0 (val_main_v17 x6) := by
  funext i
  obtain ⟨n, q, rfl⟩ : ∃ n q, i = ix2 n q := ⟨i 0, i 1, eq_ix2 i⟩
  rw [val_main_v18_apply]
  unfold dense
  refine Finset.sum_congr rfl fun k _ => ?_
  have e1 : lidx_main_v18 (ix2 n q) k = ix2 n k := by idx2
  have e2 : ridx_main_v18 (ix2 n q) k = ix2 k q := by idx2
  rw [e1, e2]
  all_goals rfl

/-- Layer 1 before normalisation: (agg + x · W) + b. -/
theorem out1 : (val_main_v24 x0 x1 x2 x3 x5 x6 x7) = pre (val_main_v15 x0 x1 x2 x3 x5) x0 (val_main_v17 x6) (val_main_v21 x7) := by
  funext i
  obtain ⟨n, q, rfl⟩ : ∃ n q, i = ix2 n q := ⟨i 0, i 1, eq_ix2 i⟩
  rw [val_main_v24_apply, val_main_v19_apply, val_main_v23_apply, val_main_v22_apply]
  have e : idx_main_v22 (idx_main_v23 (ix2 n q)) = ix1 q := by idx1
  rw [e, self1]
  rfl

/-! ### Layer 1: the normalisation, read stage by stage over the layer's pre-normalisation value. -/

/-- The column sums. -/
theorem colsum1 (q : Fin 128) : (val_main_v29 x0 x1 x2 x3 x5 x6 x7) (ix1 q) = colSum (val_main_v24 x0 x1 x2 x3 x5 x6 x7) q := by
  rw [val_main_v29_apply, val_main_cst_1_apply]
  simp only [Ideal.ofBits_def, Ideal.ofBits_zero_f32, zero_add]
  refine Finset.sum_congr rfl fun k _ => ?_
  have e : idx_main_v29 (ix1 q) k = ix2 k q := by idx2
  rw [e]

/-- The column means. -/
theorem mean1 (q : Fin 128) : (val_main_v31 x0 x1 x2 x3 x5 x6 x7) (ix1 q) = mean (val_main_v24 x0 x1 x2 x3 x5 x6 x7) q := by
  rw [val_main_v31_apply, colsum1, val_main_v30_apply, val_main_cst_2_apply]
  all_goals rfl

/-- The column means, repeated along the rows (first copy). -/
theorem meanb1 (n : Fin 50000) (q : Fin 128) : (val_main_v33 x0 x1 x2 x3 x5 x6 x7) (ix2 n q) = mean (val_main_v24 x0 x1 x2 x3 x5 x6 x7) q := by
  rw [val_main_v33_apply, val_main_v32_apply]
  have e : idx_main_v32 (idx_main_v33 (ix2 n q)) = ix1 q := by idx1
  rw [e, mean1]

/-- The column means, repeated along the rows (second copy). -/
theorem meanc1 (n : Fin 50000) (q : Fin 128) : (val_main_v40 x0 x1 x2 x3 x5 x6 x7) (ix2 n q) = mean (val_main_v24 x0 x1 x2 x3 x5 x6 x7) q := by
  rw [val_main_v40_apply, val_main_v39_apply]
  have e : idx_main_v39 (idx_main_v40 (ix2 n q)) = ix1 q := by idx1
  rw [e, mean1]

/-- The sums of the squared deviations from the column mean. -/
theorem sqsum1 (q : Fin 128) : (val_main_v36 x0 x1 x2 x3 x5 x6 x7) (ix1 q)
    = ∑ n : Fin 50000, ((val_main_v24 x0 x1 x2 x3 x5 x6 x7) (ix2 n q) - mean (val_main_v24 x0 x1 x2 x3 x5 x6 x7) q) * ((val_main_v24 x0 x1 x2 x3 x5 x6 x7) (ix2 n q) - mean (val_main_v24 x0 x1 x2 x3 x5 x6 x7) q) := by
  rw [val_main_v36_apply, val_main_cst_3_apply]
  simp only [Ideal.ofBits_def, Ideal.ofBits_zero_f32, zero_add]
  refine Finset.sum_congr rfl fun k _ => ?_
  have e : idx_main_v36 (ix1 q) k = ix2 k q := by idx2
  rw [e, val_main_v35_apply, val_main_v34_apply, meanb1]
  all_goals rfl

/-- The column variances, as means of squared deviations. -/
theorem var1 (q : Fin 128) : (val_main_v38 x0 x1 x2 x3 x5 x6 x7) (ix1 q) = varDev (val_main_v24 x0 x1 x2 x3 x5 x6 x7) q := by
  rw [val_main_v38_apply, sqsum1, val_main_v37_apply, val_main_cst_4_apply]
  all_goals rfl

/-- The reciprocal square roots of the stabilised variances. -/
theorem rs1 (q : Fin 128) : (val_main_v47 x0 x1 x2 x3 x5 x6 x7) (ix1 q) = Ideal.rsqrt (varDev (val_main_v24 x0 x1 x2 x3 x5 x6 x7) q + eps) := by
  rw [val_main_v47_apply, val_main_v46_apply, var1, val_main_v45_apply, val_main_cst_5_apply]
  all_goals rfl

/-- The same, repeated along the rows. -/
theorem rsb1 (n : Fin 50000) (q : Fin 128) : (val_main_v49 x0 x1 x2 x3 x5 x6 x7) (ix2 n q) = Ideal.rsqrt (varDev (val_main_v24 x0 x1 x2 x3 x5 x6 x7) q + eps) := by
  rw [val_main_v49_apply, val_main_v48_apply]
  have e : idx_main_v48 (idx_main_v49 (ix2 n q)) = ix1 q := by idx1
  rw [e, rs1]

/-- The scale row, repeated along the rows. -/
theorem gb1 (n : Fin 50000) (q : Fin 128) : (val_main_v43 x8) (ix2 n q) = (val_main_v26 x8) (ix1 q) := by
  rw [val_main_v43_apply, val_main_v42_apply]
  have e : idx_main_v42 (idx_main_v43 (ix2 n q)) = ix1 q := by idx1
  rw [e]

/-- The shift row, repeated along the rows. -/
theorem bb1 (n : Fin 50000) (q : Fin 128) : (val_main_v52 x9) (ix2 n q) = (val_main_v28 x9) (ix1 q) := by
  rw [val_main_v52_apply, val_main_v51_apply]
  have e : idx_main_v51 (idx_main_v52 (ix2 n q)) = ix1 q := by idx1
  rw [e]

/-- The normalised, scaled, shifted and clamped layer 1. -/
theorem h1 : (val_main_v54 x0 x1 x2 x3 x5 x6 x7 x8 x9) = normRelu (varDev (val_main_v24 x0 x1 x2 x3 x5 x6 x7)) (val_main_v24 x0 x1 x2 x3 x5 x6 x7) (val_main_v26 x8) (val_main_v28 x9) := by
  funext i
  obtain ⟨n, q, rfl⟩ : ∃ n q, i = ix2 n q := ⟨i 0, i 1, eq_ix2 i⟩
  rw [val_main_v54_apply, val_main_v53_apply, val_main_v50_apply, val_main_v44_apply, gb1, val_main_v41_apply, meanc1, rsb1, bb1,
    val_main_call0_v0_apply, val_main_call0_cst_apply]
  simp only [Ideal.ofBits_def, Ideal.ofBits_zero_f32]
  rfl

/-- The first dense product of layer 2. -/
theorem sup2 : (val_main_v57 x0 x1 x2 x3 x5 x6 x7 x8 x9) = dense (val_main_v54 x0 x1 x2 x3 x5 x6 x7 x8 x9) (val_main_v56 x5) := by
  funext i
  obtain ⟨n, q, rfl⟩ : ∃ n q, i = ix2 n q := ⟨i 0, i 1, eq_ix2 i⟩
  rw [val_main_v57_apply]
  unfold dense
  refine Finset.sum_congr rfl fun k _ => ?_
  have e1 : lidx_main_v57 (ix2 n q) k = ix2 n k := by idx2
  have e2 : ridx_main_v57 (ix2 n q) k = ix2 k q := by idx2
  rw [e1, e2]
  all_goals rfl

/-- The self-loop product of layer 2. -/
theorem self2 : (val_main_v73 x0 x1 x2 x3 x5 x6 x7 x8 x9) = dense (val_main_v54 x0 x1 x2 x3 x5 x6 x7 x8 x9) (val_main_v72 x6) := by
  funext i
  obtain ⟨n, q, rfl⟩ : ∃ n q, i = ix2 n q := ⟨i 0, i 1, eq_ix2 i⟩
  rw [val_main_v73_apply]
  unfold dense
  refine Finset.sum_congr rfl fun k _ => ?_
  have e1 : lidx_main_v73 (ix2 n q) k = ix2 n k := by idx2
  have e2 : ridx_main_v73 (ix2 n q) k = ix2 k q := by idx2
  rw [e1, e2]
  all_goals rfl

/-- Layer 2 before normalisation. -/
theorem out2 : (val_main_v79 x0 x1 x2 x3 x5 x6 x7 x8 x9) = pre (val_main_v70 x0 x1 x2 x3 x5 x6 x7 x8 x9) (val_main_v54 x0 x1 x2 x3 x5 x6 x7 x8 x9) (val_main_v72 x6) (val_main_v76 x7) := by
  funext i
  obtain ⟨n, q, rfl⟩ : ∃ n q, i = ix2 n q := ⟨i 0, i 1, eq_ix2 i⟩
  rw [val_main_v79_apply, val_main_v74_apply, val_main_v78_apply, val_main_v77_apply]
  have e : idx_main_v77 (idx_main_v78 (ix2 n q)) = ix1 q := by idx1
  rw [e, self2]
  rfl

/-! ### Layer 2: the normalisation, read stage by stage over the layer's pre-normalisation value. -/

/-- The column sums. -/
theorem colsum2 (q : Fin 128) : (val_main_v84 x0 x1 x2 x3 x5 x6 x7 x8 x9) (ix1 q) = colSum (val_main_v79 x0 x1 x2 x3 x5 x6 x7 x8 x9) q := by
  rw [val_main_v84_apply, val_main_cst_9_apply]
  simp only [Ideal.ofBits_def, Ideal.ofBits_zero_f32, zero_add]
  refine Finset.sum_congr rfl fun k _ => ?_
  have e : idx_main_v84 (ix1 q) k = ix2 k q := by idx2
  rw [e]

/-- The column means. -/
theorem mean2 (q : Fin 128) : (val_main_v86 x0 x1 x2 x3 x5 x6 x7 x8 x9) (ix1 q) = mean (val_main_v79 x0 x1 x2 x3 x5 x6 x7 x8 x9) q := by
  rw [val_main_v86_apply, colsum2, val_main_v85_apply, val_main_cst_10_apply]
  all_goals rfl

/-- The column means, repeated along the rows (first copy). -/
theorem meanb2 (n : Fin 50000) (q : Fin 128) : (val_main_v88 x0 x1 x2 x3 x5 x6 x7 x8 x9) (ix2 n q) = mean (val_main_v79 x0 x1 x2 x3 x5 x6 x7 x8 x9) q := by
  rw [val_main_v88_apply, val_main_v87_apply]
  have e : idx_main_v87 (idx_main_v88 (ix2 n q)) = ix1 q := by idx1
  rw [e, mean2]

/-- The column means, repeated along the rows (second copy). -/
theorem meanc2 (n : Fin 50000) (q : Fin 128) : (val_main_v95 x0 x1 x2 x3 x5 x6 x7 x8 x9) (ix2 n q) = mean (val_main_v79 x0 x1 x2 x3 x5 x6 x7 x8 x9) q := by
  rw [val_main_v95_apply, val_main_v94_apply]
  have e : idx_main_v94 (idx_main_v95 (ix2 n q)) = ix1 q := by idx1
  rw [e, mean2]

/-- The sums of the squared deviations from the column mean. -/
theorem sqsum2 (q : Fin 128) : (val_main_v91 x0 x1 x2 x3 x5 x6 x7 x8 x9) (ix1 q)
    = ∑ n : Fin 50000, ((val_main_v79 x0 x1 x2 x3 x5 x6 x7 x8 x9) (ix2 n q) - mean (val_main_v79 x0 x1 x2 x3 x5 x6 x7 x8 x9) q) * ((val_main_v79 x0 x1 x2 x3 x5 x6 x7 x8 x9) (ix2 n q) - mean (val_main_v79 x0 x1 x2 x3 x5 x6 x7 x8 x9) q) := by
  rw [val_main_v91_apply, val_main_cst_11_apply]
  simp only [Ideal.ofBits_def, Ideal.ofBits_zero_f32, zero_add]
  refine Finset.sum_congr rfl fun k _ => ?_
  have e : idx_main_v91 (ix1 q) k = ix2 k q := by idx2
  rw [e, val_main_v90_apply, val_main_v89_apply, meanb2]
  all_goals rfl

/-- The column variances, as means of squared deviations. -/
theorem var2 (q : Fin 128) : (val_main_v93 x0 x1 x2 x3 x5 x6 x7 x8 x9) (ix1 q) = varDev (val_main_v79 x0 x1 x2 x3 x5 x6 x7 x8 x9) q := by
  rw [val_main_v93_apply, sqsum2, val_main_v92_apply, val_main_cst_12_apply]
  all_goals rfl

/-- The reciprocal square roots of the stabilised variances. -/
theorem rs2 (q : Fin 128) : (val_main_v102 x0 x1 x2 x3 x5 x6 x7 x8 x9) (ix1 q) = Ideal.rsqrt (varDev (val_main_v79 x0 x1 x2 x3 x5 x6 x7 x8 x9) q + eps) := by
  rw [val_main_v102_apply, val_main_v101_apply, var2, val_main_v100_apply, val_main_cst_13_apply]
  all_goals rfl

/-- The same, repeated along the rows. -/
theorem rsb2 (n : Fin 50000) (q : Fin 128) : (val_main_v104 x0 x1 x2 x3 x5 x6 x7 x8 x9) (ix2 n q) = Ideal.rsqrt (varDev (val_main_v79 x0 x1 x2 x3 x5 x6 x7 x8 x9) q + eps) := by
  rw [val_main_v104_apply, val_main_v103_apply]
  have e : idx_main_v103 (idx_main_v104 (ix2 n q)) = ix1 q := by idx1
  rw [e, rs2]

/-- The scale row, repeated along the rows. -/
theorem gb2 (n : Fin 50000) (q : Fin 128) : (val_main_v98 x8) (ix2 n q) = (val_main_v81 x8) (ix1 q) := by
  rw [val_main_v98_apply, val_main_v97_apply]
  have e : idx_main_v97 (idx_main_v98 (ix2 n q)) = ix1 q := by idx1
  rw [e]

/-- The shift row, repeated along the rows. -/
theorem bb2 (n : Fin 50000) (q : Fin 128) : (val_main_v107 x9) (ix2 n q) = (val_main_v83 x9) (ix1 q) := by
  rw [val_main_v107_apply, val_main_v106_apply]
  have e : idx_main_v106 (idx_main_v107 (ix2 n q)) = ix1 q := by idx1
  rw [e]

/-- The normalised, scaled, shifted and clamped layer 2. -/
theorem h2 : (val_main_v109 x0 x1 x2 x3 x5 x6 x7 x8 x9) = normRelu (varDev (val_main_v79 x0 x1 x2 x3 x5 x6 x7 x8 x9)) (val_main_v79 x0 x1 x2 x3 x5 x6 x7 x8 x9) (val_main_v81 x8) (val_main_v83 x9) := by
  funext i
  obtain ⟨n, q, rfl⟩ : ∃ n q, i = ix2 n q := ⟨i 0, i 1, eq_ix2 i⟩
  rw [val_main_v109_apply, val_main_v108_apply, val_main_v105_apply, val_main_v99_apply, gb2, val_main_v96_apply, meanc2, rsb2, bb2,
    val_main_call1_v0_apply, val_main_call1_cst_apply]
  simp only [Ideal.ofBits_def, Ideal.ofBits_zero_f32]
  rfl

/-- The node embedding: the normalised layer 2 plus the input features. -/
theorem emb : (val_main_v110 x0 x1 x2 x3 x5 x6 x7 x8 x9) = fun i => normRelu (varDev (val_main_v79 x0 x1 x2 x3 x5 x6 x7 x8 x9)) (val_main_v79 x0 x1 x2 x3 x5 x6 x7 x8 x9) (val_main_v81 x8) (val_main_v83 x9) i + x0 i := by
  funext i
  rw [val_main_v110_apply, h2]
  rfl

end Cert.Gcn.Ref

end
-- ==== Proof.LibAllRealLayout.lean ====
import proofs.«113632_j80152679678507_2_alg».proof.Proof.LibAllReal

/-!
# All-real arrays through the operations that move, scale and build entries

An array of extended reals is all real when every entry is (the reading of) a real number.  The
property is kept by every operation whose result's entries are entries of its operands — a strided
slice, a broadcast along new or unit axes, a concatenation of a list of arrays —, by the entrywise
product and sum (products and sums of reals are real), and it holds of a constant array whose word
denotes a real number (here 1, -1 and 0 in single precision).
-/

noncomputable section

namespace Idealize.ShloMosaic.AllReal

open Idealize.ShloMosaic

/-! ## Operations that only move entries: any property of the entries is kept -/

section Move

variable {α : Type} {s t : Shape}

/-- Every entry of a strided slice is an entry of the array sliced. -/
theorem extractStridedSlice_pred (off : Fin s.rank → Nat) (x : s.Idx → α) (h : s.Slices off t) (P : α → Prop)
    (hx : ∀ i, P (x i)) (j : t.Idx) : P (extractStridedSlice t off x h j) := hx _

/-- Every entry of a broadcast is an entry of the array broadcast. -/
theorem broadcastInDim_pred (dims : Fin s.rank → Fin t.rank) (h : s.BroadcastsInDim t dims) (x : s.Idx → α)
    (P : α → Prop) (hx : ∀ i, P (x i)) (j : t.Idx) : P (broadcastInDim t dims h x j) := hx _

/-- Every entry of a concatenation is an entry of one of the arrays concatenated. -/
theorem concatenate_pred (a : Fin t.rank) (xs : List ((s : Shape) × (s.Idx → α)))
    (h : Shape.Concatenates (xs.map (·.1)) t a) (P : α → Prop) (hall : ∀ p ∈ xs, ∀ i, P (p.2 i)) (j : t.Idx) :
    P (concatenate t a xs h j) := by
  unfold concatenate
  exact hall _ (List.getElem_mem _) _

end Move

/-! ## All-real arrays -/

section Real

variable {s t : Shape}

/-- A strided slice of an all-real array is all real. -/
theorem extractStridedSlice_allReal {φ : FTy} (off : Fin s.rank → Nat) (x : FVec Ideal s φ) (h : s.Slices off t)
    (hx : AllReal x) : AllReal (extractStridedSlice t off x h) :=
  fun j => extractStridedSlice_pred off x h (fun a => ∃ r : ℝ, a = (r : EReal)) hx j

/-- A broadcast of an all-real array is all real. -/
theorem broadcastInDim_allReal {φ : FTy} (dims : Fin s.rank → Fin t.rank) (h : s.BroadcastsInDim t dims)
    (x : FVec Ideal s φ) (hx : AllReal x) : AllReal (broadcastInDim t dims h x) :=
  fun j => broadcastInDim_pred dims h x (fun a => ∃ r : ℝ, a = (r : EReal)) hx j

/-- A concatenation of all-real arrays is all real. -/
theorem concatenate_allReal (a : Fin t.rank) (xs : List ((s : Shape) × (s.Idx → EReal)))
    (h : Shape.Concatenates (xs.map (·.1)) t a) (hall : ∀ p ∈ xs, AllReal p.2) :
    AllReal (concatenate t a xs h) :=
  fun j => concatenate_pred a xs h (fun a => ∃ r : ℝ, a = (r : EReal)) (fun p hp i => hall p hp i) j

/-- The entrywise product of two all-real arrays is all real. -/
theorem mulf_allReal {φ : FTy} (x y : FVec Ideal s φ) (hx : AllReal x) (hy : AllReal y) : AllReal (mulf x y) := by
  intro i
  obtain ⟨p, hp⟩ := hx i
  obtain ⟨q, hq⟩ := hy i
  exact ⟨p * q, by show x i * y i = _; rw [hp, hq, EReal.coe_mul]⟩

/-- The entrywise sum of two all-real arrays is all real. -/
theorem addf_allReal {φ : FTy} (x y : FVec Ideal s φ) (hx : AllReal x) (hy : AllReal y) : AllReal (addf x y) := by
  intro i
  obtain ⟨p, hp⟩ := hx i
  obtain ⟨q, hq⟩ := hy i
  exact ⟨p + q, by show x i + y i = _; rw [hp, hq, EReal.coe_add]⟩

/-- A constant array is all real when its word denotes a real number. -/
theorem constant_of {φ : FTy} (b : BitVec φ.bits) (hb : ∃ r : ℝ, Ideal.ofBits φ b = (r : EReal)) :
    AllReal (constant (F := Ideal) s φ b) := fun _ => hb

/-- The single-precision word of 1 denotes the real 1. -/
theorem ofBits_one : Ideal.ofBits .f32 0x3F800000#32 = ((1 : ℝ) : EReal) := by
  simp [Ideal.ofBits, Ideal.ieee, -EReal.coe_mul]; norm_num
/-- The single-precision word of -1 denotes the real -1. -/
theorem ofBits_negOne : Ideal.ofBits .f32 0xBF800000#32 = ((-1 : ℝ) : EReal) := by
  simp [Ideal.ofBits, Ideal.ieee, -EReal.coe_mul]; norm_num
/-- The single-precision word of 0 denotes the real 0. -/
theorem ofBits_zero : Ideal.ofBits .f32 0x00000000#32 = ((0 : ℝ) : EReal) := by
  simp [Ideal.ofBits, Ideal.ieee]

/-- The constant array of 1 is all real. -/
theorem constant_one : AllReal (constant (F := Ideal) s .f32 0x3F800000#32) := constant_of _ ⟨1, ofBits_one⟩
/-- The constant array of -1 is all real. -/
theorem constant_negOne : AllReal (constant (F := Ideal) s .f32 0xBF800000#32) := constant_of _ ⟨-1, ofBits_negOne⟩
/-- The constant array of 0 is all real. -/
theorem constant_zero : AllReal (constant (F := Ideal) s .f32 0x00000000#32) := constant_of _ ⟨0, ofBits_zero⟩

end Real

end Idealize.ShloMosaic.AllReal

end
-- ==== Proof.RealChain.lean ====
/-
  Every intermediate array of the reference's two graph-convolution layers has only real entries when
  the floating-point inputs do.

  The layer before normalisation is built from the inputs by operations each of which keeps "all real":
  slices, reshapes and broadcasts only move entries; a matrix product is a finite sum of products; an
  entrywise product or sum of reals is real; a gather copies entries (whatever the integer indices are);
  an accumulating scatter adds finitely many update entries to an entry of its operand (whatever the
  indices are).  The normalised layer is all real by the real-number mathematics of the normalisation.
-/
import proofs.«113632_j80152679678507_2_alg».proof.Proof.Gen.ReferenceIdeal.Read
import proofs.«113632_j80152679678507_2_alg».proof.Proof.Spec
import proofs.«113632_j80152679678507_2_alg».proof.Proof.Norm
import proofs.«113632_j80152679678507_2_alg».proof.Proof.LibAllReal
import proofs.«113632_j80152679678507_2_alg».proof.Proof.LibAllRealLayout
import proofs.«113632_j80152679678507_2_alg».proof.Proof.LibAllRealDot
import proofs.«113632_j80152679678507_2_alg».proof.Proof.LibSparseFinite

noncomputable section

namespace Cert.Gcn.Ref

open Idealize.ShloMosaic Cert.ReferenceIdeal Cert.ReferenceIdeal.Gen Cert.ReferenceIdeal.Read

/-- A reshape only moves entries: every entry of the result is an entry of the operand. -/
theorem shapeCast_allReal {s t : Shape} {φ : FTy} (x : FVec Ideal s φ) (h : s.ShapeCasts t) (hx : AllReal x) :
    AllReal (shapeCast t x h) := fun _ => hx _

variable (x0 : (⟨S50000x128, .f32⟩ : BufTy).Contents (Elt Ideal))
  (x1 x2 : (⟨S800000, .i32⟩ : BufTy).Contents (Elt Ideal))
  (x3 : (⟨S800000, .f32⟩ : BufTy).Contents (Elt Ideal))
  (x5 x6 : (⟨S2x128x128, .f32⟩ : BufTy).Contents (Elt Ideal))
  (x7 x8 x9 : (⟨S2x128, .f32⟩ : BufTy).Contents (Elt Ideal))

/-! ## The first layer before normalisation -/

theorem real_v1 (h5 : AllReal x5) : AllReal (val_main_v1 (F := Ideal) x5) := by
  unfold val_main_v1 val_main_v0
  exact shapeCast_allReal (φ := .f32) _ _ (AllReal.extractStridedSlice_allReal (φ := .f32) _ x5 _ h5)

theorem real_v2 (h0 : AllReal x0) (h5 : AllReal x5) : AllReal (val_main_v2 (F := Ideal) x0 x5) := by
  unfold val_main_v2
  exact AllReal.dotGeneral (φ₁ := .f32) (φ₂ := .f32) _ _ x0 _ h0 (real_v1 x5 h5)

theorem real_v11 (h3 : AllReal x3) : AllReal (val_main_v11 (F := Ideal) x3) := by
  unfold val_main_v11 val_main_v3
  exact AllReal.broadcastInDim_allReal (φ := .f32) _ _ _ (AllReal.broadcastInDim_allReal (φ := .f32) _ _ x3 h3)

theorem real_v12 (h0 : AllReal x0) (h3 : AllReal x3) (h5 : AllReal x5) :
    AllReal (val_main_v12 (F := Ideal) x0 x2 x3 x5) := by
  unfold val_main_v12 val_main_v10
  exact AllReal.mulf_allReal (φ := .f32) _ _ (real_v11 x3 h3)
    (fun j => SparseFinite.gather_real (φ := .f32) _ _ _ (real_v2 x0 x5 h0 h5) j)

theorem real_v13 : AllReal (val_main_v13 (F := Ideal)) := by
  unfold val_main_v13 val_main_cst
  exact AllReal.broadcastInDim_allReal (φ := .f32) _ _ _ AllReal.constant_zero

/-- The aggregated neighbourhood term of the first layer is all real. -/
theorem real_v15 (h0 : AllReal x0) (h3 : AllReal x3) (h5 : AllReal x5) :
    AllReal (val_main_v15 (F := Ideal) x0 x1 x2 x3 x5) := by
  unfold val_main_v15
  exact fun i => SparseFinite.scatterAdd_real (φ := .f32) _ _ _ _ real_v13 (real_v12 x0 x2 x3 x5 h0 h3 h5) i

theorem real_v17 (h6 : AllReal x6) : AllReal (val_main_v17 (F := Ideal) x6) := by
  unfold val_main_v17 val_main_v16
  exact shapeCast_allReal (φ := .f32) _ _ (AllReal.extractStridedSlice_allReal (φ := .f32) _ x6 _ h6)

theorem real_v18 (h0 : AllReal x0) (h6 : AllReal x6) : AllReal (val_main_v18 (F := Ideal) x0 x6) := by
  unfold val_main_v18
  exact AllReal.dotGeneral (φ₁ := .f32) (φ₂ := .f32) _ _ x0 _ h0 (real_v17 x6 h6)

theorem real_v23 (h7 : AllReal x7) : AllReal (val_main_v23 (F := Ideal) x7) := by
  unfold val_main_v23 val_main_v22 val_main_v21 val_main_v20
  exact AllReal.broadcastInDim_allReal (φ := .f32) _ _ _ (AllReal.broadcastInDim_allReal (φ := .f32) _ _ _
    (shapeCast_allReal (φ := .f32) _ _ (AllReal.extractStridedSlice_allReal (φ := .f32) _ x7 _ h7)))

/-- The first layer before normalisation is all real. -/
theorem real_v24 (h0 : AllReal x0) (h3 : AllReal x3) (h5 : AllReal x5) (h6 : AllReal x6) (h7 : AllReal x7) :
    AllReal (val_main_v24 (F := Ideal) x0 x1 x2 x3 x5 x6 x7) := by
  unfold val_main_v24 val_main_v19
  exact AllReal.addf_allReal (φ := .f32) _ _
    (AllReal.addf_allReal (φ := .f32) _ _ (real_v15 x0 x1 x2 x3 x5 h0 h3 h5) (real_v18 x0 x6 h0 h6)) (real_v23 x7 h7)

/-! ## The first layer, normalised -/

theorem real_v26 (h8 : AllReal x8) : AllReal (val_main_v26 (F := Ideal) x8) := by
  unfold val_main_v26 val_main_v25
  exact shapeCast_allReal (φ := .f32) _ _ (AllReal.extractStridedSlice_allReal (φ := .f32) _ x8 _ h8)

theorem real_v28 (h9 : AllReal x9) : AllReal (val_main_v28 (F := Ideal) x9) := by
  unfold val_main_v28 val_main_v27
  exact shapeCast_allReal (φ := .f32) _ _ (AllReal.extractStridedSlice_allReal (φ := .f32) _ x9 _ h9)

/-- The normalised first layer is all real, given its reading as the normalised layer of the mathematics. -/
theorem real_v54 (h0 : AllReal x0) (h3 : AllReal x3) (h5 : AllReal x5) (h6 : AllReal x6) (h7 : AllReal x7)
    (h8 : AllReal x8) (h9 : AllReal x9)
    (hR : val_main_v54 (F := Ideal) x0 x1 x2 x3 x5 x6 x7 x8 x9
      = normRelu (varDev (val_main_v24 (F := Ideal) x0 x1 x2 x3 x5 x6 x7))
          (val_main_v24 (F := Ideal) x0 x1 x2 x3 x5 x6 x7) (val_main_v26 (F := Ideal) x8)
          (val_main_v28 (F := Ideal) x9)) :
    AllReal (val_main_v54 (F := Ideal) x0 x1 x2 x3 x5 x6 x7 x8 x9) := by
  rw [hR]
  exact normRelu_real _ _ _ (real_v24 x0 x1 x2 x3 x5 x6 x7 h0 h3 h5 h6 h7) (real_v26 x8 h8) (real_v28 x9 h9)

/-! ## The second layer before normalisation, over an all-real first layer -/

theorem real_v56 (h5 : AllReal x5) : AllReal (val_main_v56 (F := Ideal) x5) := by
  unfold val_main_v56 val_main_v55
  exact shapeCast_allReal (φ := .f32) _ _ (AllReal.extractStridedSlice_allReal (φ := .f32) _ x5 _ h5)

theorem real_v57 (hh : AllReal (val_main_v54 (F := Ideal) x0 x1 x2 x3 x5 x6 x7 x8 x9)) (h5 : AllReal x5) :
    AllReal (val_main_v57 (F := Ideal) x0 x1 x2 x3 x5 x6 x7 x8 x9) := by
  unfold val_main_v57
  exact AllReal.dotGeneral (φ₁ := .f32) (φ₂ := .f32) _ _ _ _ hh (real_v56 x5 h5)

theorem real_v66 (h3 : AllReal x3) : AllReal (val_main_v66 (F := Ideal) x3) := by
  unfold val_main_v66 val_main_v58
  exact AllReal.broadcastInDim_allReal (φ := .f32) _ _ _ (AllReal.broadcastInDim_allReal (φ := .f32) _ _ x3 h3)

theorem real_v67 (hh : AllReal (val_main_v54 (F := Ideal) x0 x1 x2 x3 x5 x6 x7 x8 x9)) (h3 : AllReal x3)
    (h5 : AllReal x5) : AllReal (val_main_v67 (F := Ideal) x0 x1 x2 x3 x5 x6 x7 x8 x9) := by
  unfold val_main_v67 val_main_v65
  exact AllReal.mulf_allReal (φ := .f32) _ _ (real_v66 x3 h3)
    (fun j => SparseFinite.gather_real (φ := .f32) _ _ _ (real_v57 x0 x1 x2 x3 x5 x6 x7 x8 x9 hh h5) j)

theorem real_v68 : AllReal (val_main_v68 (F := Ideal)) := by
  unfold val_main_v68 val_main_cst_8
  exact AllReal.broadcastInDim_allReal (φ := .f32) _ _ _ AllReal.constant_zero

/-- The aggregated neighbourhood term of the second layer is all real. -/
theorem real_v70 (hh : AllReal (val_main_v54 (F := Ideal) x0 x1 x2 x3 x5 x6 x7 x8 x9)) (h3 : AllReal x3)
    (h5 : AllReal x5) : AllReal (val_main_v70 (F := Ideal) x0 x1 x2 x3 x5 x6 x7 x8 x9) := by
  unfold val_main_v70
  exact fun i => SparseFinite.scatterAdd_real (φ := .f32) _ _ _ _ real_v68 (real_v67 x0 x1 x2 x3 x5 x6 x7 x8 x9 hh h3 h5) i

theorem real_v72 (h6 : AllReal x6) : AllReal (val_main_v72 (F := Ideal) x6) := by
  unfold val_main_v72 val_main_v71
  exact shapeCast_allReal (φ := .f32) _ _ (AllReal.extractStridedSlice_allReal (φ := .f32) _ x6 _ h6)

theorem real_v73 (hh : AllReal (val_main_v54 (F := Ideal) x0 x1 x2 x3 x5 x6 x7 x8 x9)) (h6 : AllReal x6) :
    AllReal (val_main_v73 (F := Ideal) x0 x1 x2 x3 x5 x6 x7 x8 x9) := by
  unfold val_main_v73
  exact AllReal.dotGeneral (φ₁ := .f32) (φ₂ := .f32) _ _ _ _ hh (real_v72 x6 h6)

theorem real_v78 (h7 : AllReal x7) : AllReal (val_main_v78 (F := Ideal) x7) := by
  unfold val_main_v78 val_main_v77 val_main_v76 val_main_v75
  exact AllReal.broadcastInDim_allReal (φ := .f32) _ _ _ (AllReal.broadcastInDim_allReal (φ := .f32) _ _ _
    (shapeCast_allReal (φ := .f32) _ _ (AllReal.extractStridedSlice_allReal (φ := .f32) _ x7 _ h7)))

/-- The second layer before normalisation is all real. -/
theorem real_v79 (hh : AllReal (val_main_v54 (F := Ideal) x0 x1 x2 x3 x5 x6 x7 x8 x9)) (h3 : AllReal x3)
    (h5 : AllReal x5) (h6 : AllReal x6) (h7 : AllReal x7) :
    AllReal (val_main_v79 (F := Ideal) x0 x1 x2 x3 x5 x6 x7 x8 x9) := by
  unfold val_main_v79 val_main_v74
  exact AllReal.addf_allReal (φ := .f32) _ _
    (AllReal.addf_allReal (φ := .f32) _ _ (real_v70 x0 x1 x2 x3 x5 x6 x7 x8 x9 hh h3 h5)
      (real_v73 x0 x1 x2 x3 x5 x6 x7 x8 x9 hh h6))
    (real_v78 x7 h7)

end Cert.Gcn.Ref

end
-- ==== Proof.KChain1.lean ====
/-
  The first layer of the kernel, launch by launch, is the first layer of the reference.
  Support: the first launch's product is the reference's product.  Aggregate: the host's gather / scale /
  scatter-add on equal supports.  Before normalisation: the second launch's (agg + h · W) + b is the reference's, and
  its two running totals are the column sums and the column sums of squares of that array.  Mean and variance rows:
  the host divides by the number of rows.  After normalisation: the third launch's rows are the reference's
  normalised layer, because for an array of reals "mean of squares minus square of mean" is "mean of squared
  deviations"; the array is real because the inputs and parameters are.
-/
import proofs.«113632_j80152679678507_2_alg».proof.Proof.Gen.KernelIdeal.Frame
import proofs.«113632_j80152679678507_2_alg».proof.Proof.Gen.ReferenceIdeal.Read
import proofs.«113632_j80152679678507_2_alg».proof.Proof.KWalk
import proofs.«113632_j80152679678507_2_alg».proof.Proof.KOrigin
import proofs.«113632_j80152679678507_2_alg».proof.Proof.KHost1
import proofs.«113632_j80152679678507_2_alg».proof.Proof.KReg0
import proofs.«113632_j80152679678507_2_alg».proof.Proof.KReg1
import proofs.«113632_j80152679678507_2_alg».proof.Proof.KReg2
import proofs.«113632_j80152679678507_2_alg».proof.Proof.KLayer
import proofs.«113632_j80152679678507_2_alg».proof.Proof.RefRead
import proofs.«113632_j80152679678507_2_alg».proof.Proof.RealChain
import Idealize.ShloMosaic.Lib.ValueIdx
import Idealize.ShloMosaic.Lib.StableHlo.Run

set_option maxRecDepth 16384

noncomputable section

namespace Cert.KernelIdeal.Named

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

open Idealize.ShloMosaic.StableHlo
open Cert.ReferenceIdeal.Read (val_main_v1 val_main_v2 val_main_v15 val_main_v17 val_main_v21 val_main_v24 val_main_v26 val_main_v28 val_main_v54)

variable (m : (ℓ : Loc nD τ sig) → Buf (Elt Ideal) ℓ) (ρ : Dev nD → PrngReg)

/-- After the first launch the support array is the reference's support. -/
theorem c1_support (c : Dev nD) :
    W2 m ρ c (Proc.devRef .tc main_v13) = val_main_v2 (F := Ideal) (m ((c : Thread nD τ).loc main_arg0)) (m ((c : Thread nD τ).loc main_arg5)) := by
  refine (W2_arr m ρ c 2).trans ?_
  refine (final0 (V1 m ρ) c).trans ?_
  refine Eq.trans ?_ (Cert.Gcn.Ref.sup1 _ _).symm
  exact congrArg₂ Cert.Gcn.dense (at1_main_arg0 m ρ c) (w1_v1 m ρ c)

/-- The aggregate the second launch reads is the reference's aggregate. -/
theorem c1_agg (c : Dev nD) :
    W3 m ρ c (Proc.devRef .tc main_v27) = val_main_v15 (F := Ideal) (m ((c : Thread nD τ).loc main_arg0)) (m ((c : Thread nD τ).loc main_arg1)) (m ((c : Thread nD τ).loc main_arg2)) (m ((c : Thread nD τ).loc main_arg3)) (m ((c : Thread nD τ).loc main_arg5)) :=
  w3_v27 m ρ c (c1_support m ρ c)

/-- The layer before normalisation, over the arrays the second launch finds, is the reference's. -/
theorem c1_pre_raw (c : Dev nD) :
    Cert.Gcn.rowPre (V3 m ρ c main_v27) (V3 m ρ c main_arg0) (V3 m ρ c main_v3) (V3 m ρ c main_v6)
      = val_main_v24 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) := by
  refine Eq.trans ?_ (Cert.Gcn.Ref.out1 _ _ _ _ _ _ _).symm
  rw [show V3 m ρ c main_v27 = _ from c1_agg m ρ c, show V3 m ρ c main_arg0 = _ from at3_main_arg0 m ρ c,
    show V3 m ρ c main_v3 = _ from (at3_main_v3 m ρ c).trans (w1_v3 m ρ c)]
  refine Cert.Gcn.rowPre_eq _ _ _ _ _ fun q => ?_
  rw [show V3 m ρ c main_v6 = W1 m ρ c (Proc.devRef .tc main_v6) from at3_main_v6 m ρ c]
  exact w1_v6 m ρ c q

/-- After the second launch: the layer before normalisation. -/
theorem c1_pre (c : Dev nD) :
    W4 m ρ c (Proc.devRef .tc main_v28_0) = val_main_v24 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) :=
  ((W4_arr m ρ c 4).trans (final1_out (V3 m ρ) c)).trans (c1_pre_raw m ρ c)

/-- After the second launch: its column sums, as a row. -/
theorem c1_sum (c : Dev nD) :
    W4 m ρ c (Proc.devRef .tc main_v28_1) = Cert.Gcn.rowSum (val_main_v24 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7))) :=
  ((W4_arr m ρ c 5).trans (final1_sum (V3 m ρ) c)).trans (congrArg Cert.Gcn.rowSum (c1_pre_raw m ρ c))

/-- After the second launch: the column sums of its squares, as a row. -/
theorem c1_sumsq (c : Dev nD) :
    W4 m ρ c (Proc.devRef .tc main_v28_2) = Cert.Gcn.rowSumSq (val_main_v24 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7))) :=
  ((W4_arr m ρ c 6).trans (final1_sumsq (V3 m ρ) c)).trans (congrArg Cert.Gcn.rowSumSq (c1_pre_raw m ρ c))

/-- The mean row: the column sums divided by the number of rows. -/
theorem w5_v30 (c : Dev nD) (q : Fin 128) :
    W5 m ρ c (Proc.devRef .tc main_v30) (ix2 (0 : Fin 1) q)
      = Ideal.div (W4 m ρ c (Proc.devRef .tc main_v28_1) (ix2 (0 : Fin 1) q)) Cert.Gcn.cnt := by
  have e : W5 m ρ c (Proc.devRef .tc main_v30)
      = Host.divf (W4 m ρ c (Proc.devRef .tc main_v28_1))
          (broadcastInDim S1x128 ![] bcast_S_S1x128 (constant (F := Ideal) S_ .f32 0x47435000#32)) := by
    show StableHlo.after hostOps2 (W4 m ρ c) (Proc.devRef .tc main_v30) = _
    after_results
  rw [e]
  rfl

/-- The variance row: the column sums of squares divided by the number of rows, minus the square of the mean row. -/
theorem w5_v34 (c : Dev nD) (q : Fin 128) (μ : EReal) (hμ : W5 m ρ c (Proc.devRef .tc main_v30) (ix2 (0 : Fin 1) q) = μ) :
    W5 m ρ c (Proc.devRef .tc main_v34) (ix2 (0 : Fin 1) q)
      = Ideal.div (W4 m ρ c (Proc.devRef .tc main_v28_2) (ix2 (0 : Fin 1) q)) Cert.Gcn.cnt - μ * μ := by
  subst hμ
  have e30 : W5 m ρ c (Proc.devRef .tc main_v30)
      = Host.divf (W4 m ρ c (Proc.devRef .tc main_v28_1))
          (broadcastInDim S1x128 ![] bcast_S_S1x128 (constant (F := Ideal) S_ .f32 0x47435000#32)) := by
    show StableHlo.after hostOps2 (W4 m ρ c) (Proc.devRef .tc main_v30) = _
    after_results
  have e : W5 m ρ c (Proc.devRef .tc main_v34)
      = subf (Host.divf (W4 m ρ c (Proc.devRef .tc main_v28_2))
          (broadcastInDim S1x128 ![] bcast_S_S1x128 (constant (F := Ideal) S_ .f32 0x47435000#32)))
          (mulf (W5 m ρ c (Proc.devRef .tc main_v30)) (W5 m ρ c (Proc.devRef .tc main_v30))) := by
    rw [e30]
    show StableHlo.after hostOps2 (W4 m ρ c) (Proc.devRef .tc main_v34) = _
    after_results
  rw [e]
  rfl

/-- After the third launch: the first layer's output is the reference's, for finite parameters and inputs. -/
theorem c1_out (c : Dev nD) (h0 : AllReal (m ((c : Thread nD τ).loc main_arg0))) (h3 : AllReal (m ((c : Thread nD τ).loc main_arg3))) (h5 : AllReal (m ((c : Thread nD τ).loc main_arg5)))
    (h6 : AllReal (m ((c : Thread nD τ).loc main_arg6))) (h7 : AllReal (m ((c : Thread nD τ).loc main_arg7))) :
    W6 m ρ c (Proc.devRef .tc main_v35) = val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W6_arr m ρ c 5).trans ?_
  refine (final2 (V5 m ρ) c).trans ?_
  refine Eq.trans ?_ (Cert.Gcn.Ref.h1 _ _ _ _ _ _ _ _ _).symm
  rw [show V5 m ρ c main_v28_0 = _ from (at5_main_v28_0 m ρ c).trans (c1_pre m ρ c)]
  refine Cert.Gcn.rowNorm_eq _ (Cert.Gcn.Ref.real_v24 _ _ _ _ _ _ _ h0 h3 h5 h6 h7) _ _ _ _ _ _ (fun q => ?_) (fun q => ?_) (fun q => ?_) (fun q => ?_)
  · show W5 m ρ c (Proc.devRef .tc main_v30) (ix2 (0 : Fin 1) q) = _
    rw [w5_v30, c1_sum]
  · show W5 m ρ c (Proc.devRef .tc main_v34) (ix2 (0 : Fin 1) q) = _
    rw [w5_v34 m ρ c q _ rfl, c1_sumsq]
  · rw [show V5 m ρ c main_v9 = W1 m ρ c (Proc.devRef .tc main_v9) from at5_main_v9 m ρ c]
    exact w1_v9 m ρ c q
  · rw [show V5 m ρ c main_v12 = W1 m ρ c (Proc.devRef .tc main_v12) from at5_main_v12 m ρ c]
    exact w1_v12 m ρ c q

end Cert.KernelIdeal.Named

end
-- ==== Proof.KReg3.lean ====
/-
  The second layer's support launch: support = h · W, ten blocks of 5000 rows.
  Point t of the grid reads rows 5000 t … 5000 t + 4999 of the node features and the whole weight matrix, and
  writes back rows 5000 t … 5000 t + 4999 of the product; the ten blocks tile the 50000 rows, so after the launch
  the output array is the whole product, whatever the node-feature and weight arrays held at entry.
-/
import proofs.«113632_j80152679678507_2_alg».proof.Proof.Gen.KernelIdeal.Frame
import proofs.«113632_j80152679678507_2_alg».proof.Proof.KPay
import proofs.«113632_j80152679678507_2_alg».proof.Proof.Spec
import proofs.«113632_j80152679678507_2_alg».proof.Proof.SpecRows
import Idealize.ShloMosaic.Lib.Pipeline.Value

set_option maxRecDepth 16384

noncomputable section

namespace Cert.KernelIdeal.Named

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

theorem hz3 : (![0, 0] : Fin 2 → Nat) = fun _ => 0 := funext fun a => by fin_cases a <;> rfl

variable (V : (c : Dev nD) → (b : Ref sig .tc) → Buf (Elt Ideal) ((c : Thread nD τ).loc b))

/-- The block indices of the windows at every point of the grid: the row blocks move with the point, the
    one-block arrays stay. -/
theorem idx3 : ∀ t : Fin cfg3.N, win3_0.index t (0 : Fin 2) = t.val
    ∧ win3_0.index t (1 : Fin 2) = 0
    ∧ win3_1.index t (0 : Fin 2) = 0
    ∧ win3_1.index t (1 : Fin 2) = 0
    ∧ win3_2.index t (0 : Fin 2) = t.val
    ∧ win3_2.index t (1 : Fin 2) = 0
    ∧ t.val < 10 :=
  (by decide +kernel : ∀ t : Fin grid3.N, _)

/-- What point t writes back is block t of the launch's function of the arrays it found. -/
theorem flushed3 (c : Dev nD) (t : Fin cfg3.N) :
    (dat3 V c).flushed 2 t
      = ((cfg3.win 2).blk t).view.read (Elt Ideal) (Cert.Gcn.dense (V c main_v35) (V c main_v37)) := by
  show (cfg3.win 2).cut (grid3.coords t) ((dat3 V c).after 2 t) = _
  rw [after3_2]
  unfold out3_2
  rw [View.canon_unit_zero hz3]
  simp only [View.ld_unit_zero (S := S5000x128) hz3, View.ld_unit_zero (S := S128x128) hz3]
  obtain ⟨e0, e1, e2, e3, e4, e5, e6⟩ := idx3 t
  funext j
  obtain ⟨a, q, rfl⟩ : ∃ (a : Fin 5000) (q : Fin 128), j = ix2 a q := ⟨j 0, j 1, eq_ix2 j⟩
  show k3_pay1 (iblk3 V c 0 t) (iblk3 V c 1 t) (ix2 a q)
    = (Cert.Gcn.dense (V c main_v35) (V c main_v37)) (((cfg3.win 2).blk t).view.emb (ix2 a q))
  refine (Pay.support3 _ _ a q).trans ?_
  unfold Cert.Gcn.dense
  refine Finset.sum_congr rfl fun k _ => ?_
  have h0 : iblk3 V c 0 t (ix2 a k)
      = V c main_v35 (ix2 ((((cfg3.win 2).blk t).view.emb (ix2 a q)) 0) k) := by
    show V c main_v35 (((cfg3.win 0).blk t).view.emb (ix2 a k)) = _
    refine congrArg (V c main_v35) ?_
    funext d; apply Fin.ext
    match d with
    | ⟨0, _⟩ => show win3_0.index t (0 : Fin 2) * 5000 + 1 * a.val = win3_2.index t (0 : Fin 2) * 5000 + 1 * a.val; omega
    | ⟨1, _⟩ => show win3_0.index t (1 : Fin 2) * 128 + 1 * k.val = k.val; omega
  have h1 : iblk3 V c 1 t (ix2 k q)
      = V c main_v37 (ix2 k ((((cfg3.win 2).blk t).view.emb (ix2 a q)) 1)) := by
    show V c main_v37 (((cfg3.win 1).blk t).view.emb (ix2 k q)) = _
    refine congrArg (V c main_v37) ?_
    funext d; apply Fin.ext
    match d with
    | ⟨0, _⟩ => show win3_1.index t (0 : Fin 2) * 128 + 1 * k.val = k.val; omega
    | ⟨1, _⟩ => show win3_1.index t (1 : Fin 2) * 128 + 1 * q.val = win3_2.index t (1 : Fin 2) * 128 + 1 * q.val; omega
  rw [h0, h1]

/-- An index of the output array is in point t's block iff each coordinate is in the block's range. -/
theorem mem_blk3 (t : Fin cfg3.N) (i : S50000x128.Idx) :
    i ∈ ((cfg3.win 2).blk t).view.set ↔ ∀ a : Fin 2, win3_2.index t a * S5000x128.size a ≤ (i a).val
      ∧ (i a).val < win3_2.index t a * S5000x128.size a + S5000x128.size a := by
  show i ∈ ((View.whole main_v49).slice (win3_2.rect t)).set ↔ _
  rw [View.set_slice_whole, Rect.mem_set_unit]
  exact Iff.rfl

/-- The row blocks cover the array: row r is in block r / 5000. -/
theorem cover3 (i : S50000x128.Idx) :
    ∃ t : Fin cfg3.N, (cfg3.win 2).flush t = true ∧ i ∈ ((cfg3.win 2).blk t).view.set := by
  have hN : cfg3.N = 10 := N_3
  have hi0 : (i 0).val < 50000 := (i 0).isLt
  have hi1 : (i 1).val < 128 := (i 1).isLt
  let t : Fin cfg3.N := ⟨(i 0).val / 5000, by rw [hN]; omega⟩
  obtain ⟨e0, e1, e2, e3, e4, e5, e6⟩ := idx3 t
  have e' : win3_2.index t (0 : Fin 2) = (i 0).val / 5000 := e4
  refine ⟨t, flush3_2 t, ?_⟩
  rw [mem_blk3]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- After the launch the output array is the launch's function of the arrays it found. -/
theorem final3 (c : Dev nD) :
    (dat3 V c).arrAt 2 cfg3.N = Cert.Gcn.dense (V c main_v35) (V c main_v37) :=
  (dat3 V c).arrAt_eq_of_cover 2 _ (fun t _ => flushed3 V c t) cover3

end Cert.KernelIdeal.Named

end
-- ==== Proof.KReg4.lean ====
/-
  The second layer's combining launch: ten blocks of 5000 rows, with two running column totals.
  Point t reads rows 5000 t … 5000 t + 4999 of the aggregated neighbourhood term and of the node features, the
  self-loop weight matrix and the one-row bias; it writes back the same rows of (agg + h · W) + b, and adds the
  column sums of that block, and of its squares, to two one-row totals that are set to zero at the first point
  and written back after the last.  Each case of the body (first point; later point) leaves in the three output
  buffers the body's arithmetic of the blocks it read.
-/
import proofs.«113632_j80152679678507_2_alg».proof.Proof.Gen.KernelIdeal.Frame
import proofs.«113632_j80152679678507_2_alg».proof.Proof.KPay
import proofs.«113632_j80152679678507_2_alg».proof.Proof.Spec
import proofs.«113632_j80152679678507_2_alg».proof.Proof.SpecRows
import proofs.«113632_j80152679678507_2_alg».proof.Proof.LibBlockSum
import Idealize.ShloMosaic.Lib.Pipeline.Value
import Idealize.ShloMosaic.Lib.Tactic

set_option maxRecDepth 16384

noncomputable section

namespace Cert.KernelIdeal.Named

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

open Idealize.ShloMosaic.Tactic

theorem hz4 : (![0, 0] : Fin 2 → Nat) = fun _ => 0 := funext fun a => by fin_cases a <;> rfl

/-! ## What each case of the body leaves in the three output buffers -/

theorem piece4A4 (c : Dev nD) (i : grid4.Coords)
    (a1 : Memref sig .tc .vmem S5000x128 .f32) (h1 : a1.IsWhole) (a2 : Memref sig .tc .vmem S5000x128 .f32) (h2 : a2.IsWhole)
    (a3 : Memref sig .tc .vmem S128x128 .f32) (h3 : a3.IsWhole) (a4 : Memref sig .tc .vmem S1x128 .f32) (h4 : a4.IsWhole)
    (a5 : Memref sig .tc .vmem S5000x128 .f32) (h5 : a5.IsWhole) (a6 : Memref sig .tc .vmem S1x128 .f32) (h6 : a6.IsWhole)
    (a7 : Memref sig .tc .vmem S1x128 .f32) (h7 : a7.IsWhole) (hc : cond4_0 i)
    (x0 x1 : Vec Ideal S5000x128 .f32) (x2 : Vec Ideal S128x128 .f32) (x3 : Vec Ideal S1x128 .f32) :
    out4_A_4 (F := Ideal) c i a1 h1 a2 h2 a3 h3 a4 h4 a5 h5 a6 h6 a7 h7 hc x0 x1 x2 x3 = k4_pay3 x1 x2 x0 x3 := by
  unfold out4_A_4
  rw [View.read_writes_eq_canon _ _ _ (cover4_A_4 c i a1 h1 a2 h2 a3 h3 a4 h4 a5 h5 a6 h6 a7 h7 hc x0 x1 x2 x3)]
  unfold kernelRun4_A
  dsimp only
  sl_unfold_words
  rw [View.canon_unit_zero hz4]
  simp only [View.readAt_eq_ld, h1.read_unread, h2.read_unread, h3.read_unread, h4.read_unread, h5.read_unread, h6.read_unread, h7.read_unread,
    View.ld_unit_zero (S := S5000x128) hz4, View.ld_unit_zero (S := S128x128) hz4, View.ld_unit_zero (S := S1x128) hz4]

theorem piece4A5 (c : Dev nD) (i : grid4.Coords)
    (a1 : Memref sig .tc .vmem S5000x128 .f32) (h1 : a1.IsWhole) (a2 : Memref sig .tc .vmem S5000x128 .f32) (h2 : a2.IsWhole)
    (a3 : Memref sig .tc .vmem S128x128 .f32) (h3 : a3.IsWhole) (a4 : Memref sig .tc .vmem S1x128 .f32) (h4 : a4.IsWhole)
    (a5 : Memref sig .tc .vmem S5000x128 .f32) (h5 : a5.IsWhole) (a6 : Memref sig .tc .vmem S1x128 .f32) (h6 : a6.IsWhole)
    (a7 : Memref sig .tc .vmem S1x128 .f32) (h7 : a7.IsWhole) (hc : cond4_0 i)
    (x0 x1 : Vec Ideal S5000x128 .f32) (x2 : Vec Ideal S128x128 .f32) (x3 : Vec Ideal S1x128 .f32) :
    out4_A_5 (F := Ideal) c i a1 h1 a2 h2 a3 h3 a4 h4 a5 h5 a6 h6 a7 h7 hc x0 x1 x2 x3 = k4_pay4 x1 x2 x0 x3 (k4_pay1 (F := Ideal)) := by
  unfold out4_A_5
  rw [View.read_writes_eq_canon _ _ _ (cover4_A_5 c i a1 h1 a2 h2 a3 h3 a4 h4 a5 h5 a6 h6 a7 h7 hc x0 x1 x2 x3)]
  unfold kernelRun4_A
  dsimp only
  sl_unfold_words
  rw [View.canon_cons_unit_zero (S := S1x128) hz4, View.readCov_unit_zero (S := S1x128) _ hz4]
  simp only [View.readAt_eq_ld, h1.read_unread, h2.read_unread, h3.read_unread, h4.read_unread, h5.read_unread, h6.read_unread, h7.read_unread,
    View.ld_unit_zero (S := S5000x128) hz4, View.ld_unit_zero (S := S128x128) hz4, View.ld_unit_zero (S := S1x128) hz4]

theorem piece4A6 (c : Dev nD) (i : grid4.Coords)
    (a1 : Memref sig .tc .vmem S5000x128 .f32) (h1 : a1.IsWhole) (a2 : Memref sig .tc .vmem S5000x128 .f32) (h2 : a2.IsWhole)
    (a3 : Memref sig .tc .vmem S128x128 .f32) (h3 : a3.IsWhole) (a4 : Memref sig .tc .vmem S1x128 .f32) (h4 : a4.IsWhole)
    (a5 : Memref sig .tc .vmem S5000x128 .f32) (h5 : a5.IsWhole) (a6 : Memref sig .tc .vmem S1x128 .f32) (h6 : a6.IsWhole)
    (a7 : Memref sig .tc .vmem S1x128 .f32) (h7 : a7.IsWhole) (hc : cond4_0 i)
    (x0 x1 : Vec Ideal S5000x128 .f32) (x2 : Vec Ideal S128x128 .f32) (x3 : Vec Ideal S1x128 .f32) :
    out4_A_6 (F := Ideal) c i a1 h1 a2 h2 a3 h3 a4 h4 a5 h5 a6 h6 a7 h7 hc x0 x1 x2 x3 = k4_pay5 x1 x2 x0 x3 (k4_pay2 (F := Ideal)) := by
  unfold out4_A_6
  rw [View.read_writes_eq_canon _ _ _ (cover4_A_6 c i a1 h1 a2 h2 a3 h3 a4 h4 a5 h5 a6 h6 a7 h7 hc x0 x1 x2 x3)]
  unfold kernelRun4_A
  dsimp only
  sl_unfold_words
  rw [View.canon_cons_unit_zero (S := S1x128) hz4, View.readCov_unit_zero (S := S1x128) _ hz4]
  simp only [View.readAt_eq_ld, h1.read_unread, h2.read_unread, h3.read_unread, h4.read_unread, h5.read_unread, h6.read_unread, h7.read_unread,
    View.ld_unit_zero (S := S5000x128) hz4, View.ld_unit_zero (S := S128x128) hz4, View.ld_unit_zero (S := S1x128) hz4]

theorem piece4B4 (c : Dev nD) (i : grid4.Coords)
    (a1 : Memref sig .tc .vmem S5000x128 .f32) (h1 : a1.IsWhole) (a2 : Memref sig .tc .vmem S5000x128 .f32) (h2 : a2.IsWhole)
    (a3 : Memref sig .tc .vmem S128x128 .f32) (h3 : a3.IsWhole) (a4 : Memref sig .tc .vmem S1x128 .f32) (h4 : a4.IsWhole)
    (a5 : Memref sig .tc .vmem S5000x128 .f32) (h5 : a5.IsWhole) (a6 : Memref sig .tc .vmem S1x128 .f32) (h6 : a6.IsWhole)
    (a7 : Memref sig .tc .vmem S1x128 .f32) (h7 : a7.IsWhole) (hc : ¬cond4_0 i)
    (x0 x1 : Vec Ideal S5000x128 .f32) (x2 : Vec Ideal S128x128 .f32) (x3 : Vec Ideal S1x128 .f32) (p5 p6 : Vec Ideal S1x128 .f32) :
    out4_B_4 (F := Ideal) c i a1 h1 a2 h2 a3 h3 a4 h4 a5 h5 a6 h6 a7 h7 hc x0 x1 x2 x3 p5 p6 = k4_pay3 x1 x2 x0 x3 := by
  unfold out4_B_4
  rw [View.read_writes_eq_canon _ _ _ (cover4_B_4 c i a1 h1 a2 h2 a3 h3 a4 h4 a5 h5 a6 h6 a7 h7 hc x0 x1 x2 x3 p5 p6)]
  unfold kernelRun4_B
  dsimp only
  sl_unfold_words
  rw [View.canon_unit_zero hz4]
  simp only [View.readAt_eq_ld, h1.read_unread, h2.read_unread, h3.read_unread, h4.read_unread, h5.read_unread, h6.read_unread, h7.read_unread,
    View.ld_unit_zero (S := S5000x128) hz4, View.ld_unit_zero (S := S128x128) hz4, View.ld_unit_zero (S := S1x128) hz4]

theorem piece4B5 (c : Dev nD) (i : grid4.Coords)
    (a1 : Memref sig .tc .vmem S5000x128 .f32) (h1 : a1.IsWhole) (a2 : Memref sig .tc .vmem S5000x128 .f32) (h2 : a2.IsWhole)
    (a3 : Memref sig .tc .vmem S128x128 .f32) (h3 : a3.IsWhole) (a4 : Memref sig .tc .vmem S1x128 .f32) (h4 : a4.IsWhole)
    (a5 : Memref sig .tc .vmem S5000x128 .f32) (h5 : a5.IsWhole) (a6 : Memref sig .tc .vmem S1x128 .f32) (h6 : a6.IsWhole)
    (a7 : Memref sig .tc .vmem S1x128 .f32) (h7 : a7.IsWhole) (hc : ¬cond4_0 i)
    (x0 x1 : Vec Ideal S5000x128 .f32) (x2 : Vec Ideal S128x128 .f32) (x3 : Vec Ideal S1x128 .f32) (p5 p6 : Vec Ideal S1x128 .f32) :
    out4_B_5 (F := Ideal) c i a1 h1 a2 h2 a3 h3 a4 h4 a5 h5 a6 h6 a7 h7 hc x0 x1 x2 x3 p5 p6 = k4_pay4 x1 x2 x0 x3 p5 := by
  unfold out4_B_5
  rw [View.read_writes_eq_canon _ _ _ (cover4_B_5 c i a1 h1 a2 h2 a3 h3 a4 h4 a5 h5 a6 h6 a7 h7 hc x0 x1 x2 x3 p5 p6)]
  unfold kernelRun4_B
  dsimp only
  sl_unfold_words
  rw [View.canon_unit_zero hz4]
  simp only [View.readAt_eq_ld, h1.read_unread, h2.read_unread, h3.read_unread, h4.read_unread, h5.read_unread, h6.read_unread, h7.read_unread,
    View.ld_unit_zero (S := S5000x128) hz4, View.ld_unit_zero (S := S128x128) hz4, View.ld_unit_zero (S := S1x128) hz4]

theorem piece4B6 (c : Dev nD) (i : grid4.Coords)
    (a1 : Memref sig .tc .vmem S5000x128 .f32) (h1 : a1.IsWhole) (a2 : Memref sig .tc .vmem S5000x128 .f32) (h2 : a2.IsWhole)
    (a3 : Memref sig .tc .vmem S128x128 .f32) (h3 : a3.IsWhole) (a4 : Memref sig .tc .vmem S1x128 .f32) (h4 : a4.IsWhole)
    (a5 : Memref sig .tc .vmem S5000x128 .f32) (h5 : a5.IsWhole) (a6 : Memref sig .tc .vmem S1x128 .f32) (h6 : a6.IsWhole)
    (a7 : Memref sig .tc .vmem S1x128 .f32) (h7 : a7.IsWhole) (hc : ¬cond4_0 i)
    (x0 x1 : Vec Ideal S5000x128 .f32) (x2 : Vec Ideal S128x128 .f32) (x3 : Vec Ideal S1x128 .f32) (p5 p6 : Vec Ideal S1x128 .f32) :
    out4_B_6 (F := Ideal) c i a1 h1 a2 h2 a3 h3 a4 h4 a5 h5 a6 h6 a7 h7 hc x0 x1 x2 x3 p5 p6 = k4_pay5 x1 x2 x0 x3 p6 := by
  unfold out4_B_6
  rw [View.read_writes_eq_canon _ _ _ (cover4_B_6 c i a1 h1 a2 h2 a3 h3 a4 h4 a5 h5 a6 h6 a7 h7 hc x0 x1 x2 x3 p5 p6)]
  unfold kernelRun4_B
  dsimp only
  sl_unfold_words
  rw [View.canon_unit_zero hz4]
  simp only [View.readAt_eq_ld, h1.read_unread, h2.read_unread, h3.read_unread, h4.read_unread, h5.read_unread, h6.read_unread, h7.read_unread,
    View.ld_unit_zero (S := S5000x128) hz4, View.ld_unit_zero (S := S128x128) hz4, View.ld_unit_zero (S := S1x128) hz4]

/-! ## The blocks the body reads at point t -/

variable (V : (c : Dev nD) → (b : Ref sig .tc) → Buf (Elt Ideal) ((c : Thread nD τ).loc b))

/-- The block indices of the seven windows at every point: the row blocks move with the point, the one-block
    arrays stay. -/
theorem idx4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ t.val < 10 :=
  (by decide +kernel : ∀ t : Fin grid4.N, _)

/-- Row 5000 t + a of the whole is a row of the whole. -/
theorem row_lt4 {t : ℕ} (ht : t < 10) (a : Fin 5000) : 5000 * t + a.val < 50000 := by
  have := a.isLt; omega

/-- The layer before normalisation, of the four arrays the launch finds. -/
abbrev pre4 (c : Dev nD) : Cert.Gcn.SN.Idx → EReal :=
  Cert.Gcn.rowPre (V c main_v63) (V c main_v35) (V c main_v39) (V c main_v42)

/-- What the body computes of the blocks it reads at point t. -/
abbrev blk4 (c : Dev nD) (t : Fin cfg4.N) : Vec Ideal S5000x128 .f32 :=
  k4_pay3 (iblk4 V c 1 t) (iblk4 V c 2 t) (iblk4 V c 0 t) (iblk4 V c 3 t)

/-- Entry (a, q) of what the body computes at point t is entry (5000 t + a, q) of the layer before normalisation. -/
theorem blk4_apply (c : Dev nD) (t : Fin cfg4.N) (ht : t.val < 10) (a : Fin 5000) (q : Fin 128) :
    blk4 V c t (ix2 a q) = pre4 V c (ix2 ⟨5000 * t.val + a.val, row_lt4 ht a⟩ q) := by
  obtain ⟨e00, e01, e10, e11, e20, e21, e30, e31, e40, e41, e50, e51, e60, e61, _⟩ := idx4 t
  refine (Pay.pre4 _ _ _ _ a q).trans ?_
  have h0 : iblk4 V c 0 t (ix2 a q) = V c main_v63 (ix2 ⟨5000 * t.val + a.val, row_lt4 ht a⟩ q) := by
    show V c main_v63 (((cfg4.win 0).blk t).view.emb (ix2 a q)) = _
    refine congrArg (V c main_v63) ?_
    funext d; apply Fin.ext
    match d with
    | ⟨0, _⟩ => show win4_0.index t (0 : Fin 2) * 5000 + 1 * a.val = 5000 * t.val + a.val; omega
    | ⟨1, _⟩ => show win4_0.index t (1 : Fin 2) * 128 + 1 * q.val = q.val; omega
  have h1 : ∀ k : Fin 128, iblk4 V c 1 t (ix2 a k) = V c main_v35 (ix2 ⟨5000 * t.val + a.val, row_lt4 ht a⟩ k) := fun k => by
    show V c main_v35 (((cfg4.win 1).blk t).view.emb (ix2 a k)) = _
    refine congrArg (V c main_v35) ?_
    funext d; apply Fin.ext
    match d with
    | ⟨0, _⟩ => show win4_1.index t (0 : Fin 2) * 5000 + 1 * a.val = 5000 * t.val + a.val; omega
    | ⟨1, _⟩ => show win4_1.index t (1 : Fin 2) * 128 + 1 * k.val = k.val; omega
  have h2 : ∀ k : Fin 128, iblk4 V c 2 t (ix2 k q) = V c main_v39 (ix2 k q) := fun k => by
    show V c main_v39 (((cfg4.win 2).blk t).view.emb (ix2 k q)) = _
    refine congrArg (V c main_v39) ?_
    funext d; apply Fin.ext
    match d with
    | ⟨0, _⟩ => show win4_2.index t (0 : Fin 2) * 128 + 1 * k.val = k.val; omega
    | ⟨1, _⟩ => show win4_2.index t (1 : Fin 2) * 128 + 1 * q.val = q.val; omega
  have h3 : iblk4 V c 3 t (ix2 (0 : Fin 1) q) = V c main_v42 (ix2 (0 : Fin 1) q) := by
    show V c main_v42 (((cfg4.win 3).blk t).view.emb (ix2 (0 : Fin 1) q)) = _
    refine congrArg (V c main_v42) ?_
    funext d; apply Fin.ext
    match d with
    | ⟨0, _⟩ => show win4_3.index t (0 : Fin 2) * 1 + 1 * 0 = 0; omega
    | ⟨1, _⟩ => show win4_3.index t (1 : Fin 2) * 128 + 1 * q.val = q.val; omega
  rw [h0, h3]
  simp only [h1, h2]
  rfl

/-! ## The three output buffers after each point -/

/-- The running column total after point n: the zero row, then the column sums of blocks 0 … n added in order. -/
def acc4_5 (c : Dev nD) : (n : ℕ) → n < cfg4.N → Vec Ideal S1x128 .f32
  | 0, h => k4_pay4 (iblk4 V c 1 ⟨0, h⟩) (iblk4 V c 2 ⟨0, h⟩) (iblk4 V c 0 ⟨0, h⟩) (iblk4 V c 3 ⟨0, h⟩) (k4_pay1 (F := Ideal))
  | n + 1, h => k4_pay4 (iblk4 V c 1 ⟨n + 1, h⟩) (iblk4 V c 2 ⟨n + 1, h⟩) (iblk4 V c 0 ⟨n + 1, h⟩) (iblk4 V c 3 ⟨n + 1, h⟩)
      (acc4_5 c n (Nat.lt_of_succ_lt h))

/-- The running column total of squares after point n. -/
def acc4_6 (c : Dev nD) : (n : ℕ) → n < cfg4.N → Vec Ideal S1x128 .f32
  | 0, h => k4_pay5 (iblk4 V c 1 ⟨0, h⟩) (iblk4 V c 2 ⟨0, h⟩) (iblk4 V c 0 ⟨0, h⟩) (iblk4 V c 3 ⟨0, h⟩) (k4_pay2 (F := Ideal))
  | n + 1, h => k4_pay5 (iblk4 V c 1 ⟨n + 1, h⟩) (iblk4 V c 2 ⟨n + 1, h⟩) (iblk4 V c 0 ⟨n + 1, h⟩) (iblk4 V c 3 ⟨n + 1, h⟩)
      (acc4_6 c n (Nat.lt_of_succ_lt h))

/-- After point n the three output buffers hold the block's layer values and the two running totals: by
    induction on the point (the first point resets the totals, every later point adds to them). -/
theorem outsAt4_eq (c : Dev nD) : ∀ (n : ℕ) (h : n < cfg4.N),
    outsAt4 V c n h = (blk4 V c ⟨n, h⟩, acc4_5 V c n h, acc4_6 V c n h)
  | 0, h => (outsAt4_A V c ⟨0, h⟩ rfl).trans (by rw [piece4A4, piece4A5, piece4A6]; rfl)
  | n + 1, h => by
    have hN : cfg4.N = 10 := N_4
    have hB : ¬(⟨n + 1, h⟩ : Fin cfg4.N).val % 10 = 0 := by dsimp only; omega
    rw [outsAt4_B V c ⟨n + 1, h⟩ hB, piece4B4, piece4B5, piece4B6]
    show (_, k4_pay4 _ _ _ _ (outsAt4 V c n _).2.1, k4_pay5 _ _ _ _ (outsAt4 V c n _).2.2) = _
    rw [outsAt4_eq c n]
    rfl

/-! ## The running totals, read at an entry -/

/-- The sum of rows 5000 u … 5000 u + 4999 of a column of 50000 entries (zero past the tenth block). -/
def colBlock4 (f : Fin 50000 → EReal) (u : ℕ) : EReal :=
  if hu : u < 10 then ∑ r : Fin 5000, f ⟨5000 * u + r.val, BlockSum.index_lt (k := 10) (by norm_num) hu r⟩ else 0

theorem colBlock4_eq (f : Fin 50000 → EReal) (u : ℕ) (hu : u < 10) :
    colBlock4 f u = ∑ r : Fin 5000, f ⟨5000 * u + r.val, BlockSum.index_lt (k := 10) (by norm_num) hu r⟩ := dif_pos hu

/-- The column sums of the block of point u are the sum of rows 5000 u … 5000 u + 4999 of the layer's column. -/
theorem blk4_colsum (c : Dev nD) (u : ℕ) (hu : u < cfg4.N) (hu' : u < 10) (q : Fin 128) :
    ∑ a : Fin 5000, blk4 V c ⟨u, hu⟩ (ix2 a q) = colBlock4 (fun n => pre4 V c (ix2 n q)) u := by
  rw [colBlock4_eq _ u hu']
  exact Finset.sum_congr rfl fun a _ => blk4_apply V c ⟨u, hu⟩ hu' a q

/-- The same for the squares. -/
theorem blk4_colsumsq (c : Dev nD) (u : ℕ) (hu : u < cfg4.N) (hu' : u < 10) (q : Fin 128) :
    ∑ a : Fin 5000, blk4 V c ⟨u, hu⟩ (ix2 a q) * blk4 V c ⟨u, hu⟩ (ix2 a q)
      = colBlock4 (fun n => pre4 V c (ix2 n q) * pre4 V c (ix2 n q)) u := by
  rw [colBlock4_eq _ u hu']
  exact Finset.sum_congr rfl fun a _ => by rw [blk4_apply V c ⟨u, hu⟩ hu' a q]

/-- The running total as a function of the point alone (zero past the grid). -/
def tot4_5 (c : Dev nD) (q : Fin 128) (u : ℕ) : EReal :=
  if hu : u < cfg4.N then acc4_5 V c u hu (ix2 (0 : Fin 1) q) else 0
/-- The running total of squares as a function of the point alone (zero past the grid). -/
def tot4_6 (c : Dev nD) (q : Fin 128) (u : ℕ) : EReal :=
  if hu : u < cfg4.N then acc4_6 V c u hu (ix2 (0 : Fin 1) q) else 0

/-- After the last point the running column total is zero plus the whole column sum of the layer. -/
theorem acc4_5_last (c : Dev nD) (q : Fin 128) (h9 : 9 < cfg4.N) :
    acc4_5 V c 9 h9 (ix2 (0 : Fin 1) q) = 0 + ∑ n : Fin 50000, pre4 V c (ix2 n q) := by
  have hN : cfg4.N = 10 := N_4
  have key := BlockSum.blockSum_10x5000_ereal (fun n => pre4 V c (ix2 n q))
    (colBlock4 (fun n => pre4 V c (ix2 n q))) (tot4_5 V c q) (fun t ht => colBlock4_eq _ t ht)
    (by
      have h0 : 0 < cfg4.N := by omega
      show dite (0 < cfg4.N) _ _ = _
      rw [dif_pos h0]
      refine (Pay.sum4 _ _ _ _ _ q).trans ?_
      rw [Pay.zero4a]
      exact congrArg (0 + ·) (blk4_colsum V c 0 h0 (by norm_num) q))
    (fun t ht => by
      have h1 : t + 1 < cfg4.N := by omega
      have h0 : t < cfg4.N := by omega
      show dite (t + 1 < cfg4.N) _ _ = dite (t < cfg4.N) _ _ + _
      rw [dif_pos h1, dif_pos h0]
      refine (Pay.sum4 _ _ _ _ _ q).trans ?_
      exact congrArg (acc4_5 V c t h0 (ix2 (0 : Fin 1) q) + ·) (blk4_colsum V c (t + 1) h1 ht q))
  have e : tot4_5 V c q 9 = acc4_5 V c 9 h9 (ix2 (0 : Fin 1) q) := dif_pos h9
  rw [← e]
  exact key

/-- After the last point the running column total of squares is zero plus the whole column sum of squares. -/
theorem acc4_6_last (c : Dev nD) (q : Fin 128) (h9 : 9 < cfg4.N) :
    acc4_6 V c 9 h9 (ix2 (0 : Fin 1) q) = 0 + ∑ n : Fin 50000, pre4 V c (ix2 n q) * pre4 V c (ix2 n q) := by
  have hN : cfg4.N = 10 := N_4
  have key := BlockSum.blockSum_10x5000_ereal (fun n => pre4 V c (ix2 n q) * pre4 V c (ix2 n q))
    (colBlock4 (fun n => pre4 V c (ix2 n q) * pre4 V c (ix2 n q))) (tot4_6 V c q) (fun t ht => colBlock4_eq _ t ht)
    (by
      have h0 : 0 < cfg4.N := by omega
      show dite (0 < cfg4.N) _ _ = _
      rw [dif_pos h0]
      refine (Pay.sumsq4 _ _ _ _ _ q).trans ?_
      rw [Pay.zero4b]
      exact congrArg (0 + ·) (blk4_colsumsq V c 0 h0 (by norm_num) q))
    (fun t ht => by
      have h1 : t + 1 < cfg4.N := by omega
      have h0 : t < cfg4.N := by omega
      show dite (t + 1 < cfg4.N) _ _ = dite (t < cfg4.N) _ _ + _
      rw [dif_pos h1, dif_pos h0]
      refine (Pay.sumsq4 _ _ _ _ _ q).trans ?_
      exact congrArg (acc4_6 V c t h0 (ix2 (0 : Fin 1) q) + ·) (blk4_colsumsq V c (t + 1) h1 ht q))
  have e : tot4_6 V c q 9 = acc4_6 V c 9 h9 (ix2 (0 : Fin 1) q) := dif_pos h9
  rw [← e]
  exact key

/-! ## What is written back, and the three arrays after the launch -/

/-- What point t writes back of the layer values is block t of the layer before normalisation. -/
theorem flushed4_4 (c : Dev nD) (t : Fin cfg4.N) :
    (dat4 V c).flushed 4 t = ((cfg4.win 4).blk t).view.read (Elt Ideal) (pre4 V c) := by
  show (cfg4.win 4).cut (grid4.coords t) ((dat4 V c).after 4 t) = _
  rw [after4_4, outsAt4_eq]
  obtain ⟨e00, e01, e10, e11, e20, e21, e30, e31, e40, e41, e50, e51, e60, e61, ht⟩ := idx4 t
  funext j
  obtain ⟨a, q, rfl⟩ : ∃ (a : Fin 5000) (q : Fin 128), j = ix2 a q := ⟨j 0, j 1, eq_ix2 j⟩
  show blk4 V c t (ix2 a q) = pre4 V c (((cfg4.win 4).blk t).view.emb (ix2 a q))
  refine (blk4_apply V c t ht a q).trans (congrArg (pre4 V c) ?_)
  funext d; apply Fin.ext
  match d with
  | ⟨0, _⟩ => show 5000 * t.val + a.val = win4_4.index t (0 : Fin 2) * 5000 + 1 * a.val; omega
  | ⟨1, _⟩ => show q.val = win4_4.index t (1 : Fin 2) * 128 + 1 * q.val; omega

/-- An index of the layer array is in point t's block iff each coordinate is in the block's range. -/
theorem mem_blk4_4 (t : Fin cfg4.N) (i : S50000x128.Idx) :
    i ∈ ((cfg4.win 4).blk t).view.set ↔ ∀ a : Fin 2, win4_4.index t a * S5000x128.size a ≤ (i a).val
      ∧ (i a).val < win4_4.index t a * S5000x128.size a + S5000x128.size a := by
  show i ∈ ((View.whole main_v64_0).slice (win4_4.rect t)).set ↔ _
  rw [View.set_slice_whole, Rect.mem_set_unit]
  exact Iff.rfl

/-- The row blocks cover the layer array: row r is in block r / 5000. -/
theorem cover4_4 (i : S50000x128.Idx) :
    ∃ t : Fin cfg4.N, (cfg4.win 4).flush t = true ∧ i ∈ ((cfg4.win 4).blk t).view.set := by
  have hN : cfg4.N = 10 := N_4
  have hi0 : (i 0).val < 50000 := (i 0).isLt
  have hi1 : (i 1).val < 128 := (i 1).isLt
  let t : Fin cfg4.N := ⟨(i 0).val / 5000, by rw [hN]; omega⟩
  obtain ⟨e00, e01, e10, e11, e20, e21, e30, e31, e40, e41, e50, e51, e60, e61, ht⟩ := idx4 t
  have e' : win4_4.index t (0 : Fin 2) = (i 0).val / 5000 := e40
  refine ⟨t, flush4_4 t, ?_⟩
  rw [mem_blk4_4]
  intro a
  match a with
  | ⟨0, _⟩ => show win4_4.index t (0 : Fin 2) * 5000 ≤ (i 0).val ∧ (i 0).val < win4_4.index t (0 : Fin 2) * 5000 + 5000; omega
  | ⟨1, _⟩ => show win4_4.index t (1 : Fin 2) * 128 ≤ (i 1).val ∧ (i 1).val < win4_4.index t (1 : Fin 2) * 128 + 128; omega

/-- After the launch the layer array holds the layer before normalisation of the four arrays the launch found. -/
theorem final4_out (c : Dev nD) :
    (dat4 V c).arrAt 4 cfg4.N = Cert.Gcn.rowPre (V c main_v63) (V c main_v35) (V c main_v39) (V c main_v42) :=
  (dat4 V c).arrAt_eq_of_cover 4 _ (fun t _ => flushed4_4 V c t) cover4_4

/-- The last point of the grid. -/
theorem last_lt4 : 9 < cfg4.N := by rw [show cfg4.N = 10 from N_4]; norm_num

/-- What the last point writes back of the running total is the one block of the column sums of the layer. -/
theorem flushed4_5 (c : Dev nD) (t : Fin cfg4.N) (hf : (cfg4.win 5).flush t = true) :
    (dat4 V c).flushed 5 t = ((cfg4.win 5).blk t).view.read (Elt Ideal) (Cert.Gcn.rowSum (pre4 V c)) := by
  have hN : cfg4.N = 10 := N_4
  have h9 : t.val = 9 := by have := (flush4_5 t).mp hf; have := t.isLt; omega
  obtain rfl : t = ⟨9, last_lt4⟩ := Fin.ext h9
  show (cfg4.win 5).cut (grid4.coords ⟨9, last_lt4⟩) ((dat4 V c).after 5 ⟨9, last_lt4⟩) = _
  rw [after4_5, outsAt4_eq]
  obtain ⟨e00, e01, e10, e11, e20, e21, e30, e31, e40, e41, e50, e51, e60, e61, ht⟩ := idx4 ⟨9, last_lt4⟩
  funext j
  obtain ⟨u, q, rfl⟩ : ∃ (u : Fin 1) (q : Fin 128), j = ix2 u q := ⟨j 0, j 1, eq_ix2 j⟩
  obtain rfl : u = 0 := Subsingleton.elim _ _
  show acc4_5 V c 9 last_lt4 (ix2 (0 : Fin 1) q)
    = Cert.Gcn.rowSum (pre4 V c) (((cfg4.win 5).blk ⟨9, last_lt4⟩).view.emb (ix2 (0 : Fin 1) q))
  refine (acc4_5_last V c q last_lt4).trans ?_
  unfold Cert.Gcn.rowSum
  refine congrArg (0 + ·) (Finset.sum_congr rfl fun n _ => congrArg (fun z : Fin 128 => pre4 V c (ix2 n z)) ?_)
  apply Fin.ext
  show q.val = win4_5.index ⟨9, last_lt4⟩ (1 : Fin 2) * 128 + 1 * q.val
  omega

/-- What the last point writes back of the running total of squares is the one block of the column sums of squares. -/
theorem flushed4_6 (c : Dev nD) (t : Fin cfg4.N) (hf : (cfg4.win 6).flush t = true) :
    (dat4 V c).flushed 6 t = ((cfg4.win 6).blk t).view.read (Elt Ideal) (Cert.Gcn.rowSumSq (pre4 V c)) := by
  have hN : cfg4.N = 10 := N_4
  have h9 : t.val = 9 := by have := (flush4_6 t).mp hf; have := t.isLt; omega
  obtain rfl : t = ⟨9, last_lt4⟩ := Fin.ext h9
  show (cfg4.win 6).cut (grid4.coords ⟨9, last_lt4⟩) ((dat4 V c).after 6 ⟨9, last_lt4⟩) = _
  rw [after4_6, outsAt4_eq]
  obtain ⟨e00, e01, e10, e11, e20, e21, e30, e31, e40, e41, e50, e51, e60, e61, ht⟩ := idx4 ⟨9, last_lt4⟩
  funext j
  obtain ⟨u, q, rfl⟩ : ∃ (u : Fin 1) (q : Fin 128), j = ix2 u q := ⟨j 0, j 1, eq_ix2 j⟩
  obtain rfl : u = 0 := Subsingleton.elim _ _
  show acc4_6 V c 9 last_lt4 (ix2 (0 : Fin 1) q)
    = Cert.Gcn.rowSumSq (pre4 V c) (((cfg4.win 6).blk ⟨9, last_lt4⟩).view.emb (ix2 (0 : Fin 1) q))
  refine (acc4_6_last V c q last_lt4).trans ?_
  unfold Cert.Gcn.rowSumSq
  refine congrArg (0 + ·) (Finset.sum_congr rfl fun n _ =>
    congrArg (fun z : Fin 128 => pre4 V c (ix2 n z) * pre4 V c (ix2 n z)) ?_)
  apply Fin.ext
  show q.val = win4_6.index ⟨9, last_lt4⟩ (1 : Fin 2) * 128 + 1 * q.val
  omega

/-- An index of a one-row array is in the one block of window 5 at point t iff each coordinate is in range. -/
theorem mem_blk4_5 (t : Fin cfg4.N) (i : S1x128.Idx) :
    i ∈ ((cfg4.win 5).blk t).view.set ↔ ∀ a : Fin 2, win4_5.index t a * S1x128.size a ≤ (i a).val
      ∧ (i a).val < win4_5.index t a * S1x128.size a + S1x128.size a := by
  show i ∈ ((View.whole main_v64_1).slice (win4_5.rect t)).set ↔ _
  rw [View.set_slice_whole, Rect.mem_set_unit]
  exact Iff.rfl

theorem mem_blk4_6 (t : Fin cfg4.N) (i : S1x128.Idx) :
    i ∈ ((cfg4.win 6).blk t).view.set ↔ ∀ a : Fin 2, win4_6.index t a * S1x128.size a ≤ (i a).val
      ∧ (i a).val < win4_6.index t a * S1x128.size a + S1x128.size a := by
  show i ∈ ((View.whole main_v64_2).slice (win4_6.rect t)).set ↔ _
  rw [View.set_slice_whole, Rect.mem_set_unit]
  exact Iff.rfl

/-- The one block written back at the last point covers the one-row array. -/
theorem cover4_5 (i : S1x128.Idx) :
    ∃ t : Fin cfg4.N, (cfg4.win 5).flush t = true ∧ i ∈ ((cfg4.win 5).blk t).view.set := by
  have hi0 : (i 0).val < 1 := (i 0).isLt
  have hi1 : (i 1).val < 128 := (i 1).isLt
  obtain ⟨e00, e01, e10, e11, e20, e21, e30, e31, e40, e41, e50, e51, e60, e61, ht⟩ := idx4 ⟨9, last_lt4⟩
  refine ⟨⟨9, last_lt4⟩, (flush4_5 _).mpr (by decide), ?_⟩
  rw [mem_blk4_5]
  intro a
  match a with
  | ⟨0, _⟩ => show win4_5.index ⟨9, last_lt4⟩ (0 : Fin 2) * 1 ≤ (i 0).val ∧ (i 0).val < win4_5.index ⟨9, last_lt4⟩ (0 : Fin 2) * 1 + 1; omega
  | ⟨1, _⟩ => show win4_5.index ⟨9, last_lt4⟩ (1 : Fin 2) * 128 ≤ (i 1).val ∧ (i 1).val < win4_5.index ⟨9, last_lt4⟩ (1 : Fin 2) * 128 + 128; omega

theorem cover4_6 (i : S1x128.Idx) :
    ∃ t : Fin cfg4.N, (cfg4.win 6).flush t = true ∧ i ∈ ((cfg4.win 6).blk t).view.set := by
  have hi0 : (i 0).val < 1 := (i 0).isLt
  have hi1 : (i 1).val < 128 := (i 1).isLt
  obtain ⟨e00, e01, e10, e11, e20, e21, e30, e31, e40, e41, e50, e51, e60, e61, ht⟩ := idx4 ⟨9, last_lt4⟩
  refine ⟨⟨9, last_lt4⟩, (flush4_6 _).mpr (by decide), ?_⟩
  rw [mem_blk4_6]
  intro a
  match a with
  | ⟨0, _⟩ => show win4_6.index ⟨9, last_lt4⟩ (0 : Fin 2) * 1 ≤ (i 0).val ∧ (i 0).val < win4_6.index ⟨9, last_lt4⟩ (0 : Fin 2) * 1 + 1; omega
  | ⟨1, _⟩ => show win4_6.index ⟨9, last_lt4⟩ (1 : Fin 2) * 128 ≤ (i 1).val ∧ (i 1).val < win4_6.index ⟨9, last_lt4⟩ (1 : Fin 2) * 128 + 128; omega

/-- After the launch the first one-row array holds the column sums of the layer before normalisation. -/
theorem final4_sum (c : Dev nD) :
    (dat4 V c).arrAt 5 cfg4.N
      = Cert.Gcn.rowSum (Cert.Gcn.rowPre (V c main_v63) (V c main_v35) (V c main_v39) (V c main_v42)) :=
  (dat4 V c).arrAt_eq_of_cover 5 _ (flushed4_5 V c) cover4_5

/-- After the launch the second one-row array holds the column sums of the squares of that layer. -/
theorem final4_sumsq (c : Dev nD) :
    (dat4 V c).arrAt 6 cfg4.N
      = Cert.Gcn.rowSumSq (Cert.Gcn.rowPre (V c main_v63) (V c main_v35) (V c main_v39) (V c main_v42)) :=
  (dat4 V c).arrAt_eq_of_cover 6 _ (flushed4_6 V c) cover4_6

end Cert.KernelIdeal.Named

end
-- ==== Proof.KReg5.lean ====
/-
  The second layer's normalising launch with the residual, ten blocks of 5000 rows.
  Point t reads rows 5000 t … 5000 t + 4999 of the layer before normalisation and of the network's input, and the
  four one-row arrays (mean, variance, scale, shift), and writes back the same rows normalised, scaled, shifted,
  clamped at zero, plus the input rows; the ten blocks tile the 50000 rows.
-/
import proofs.«113632_j80152679678507_2_alg».proof.Proof.Gen.KernelIdeal.Frame
import proofs.«113632_j80152679678507_2_alg».proof.Proof.KPay
import proofs.«113632_j80152679678507_2_alg».proof.Proof.Spec
import proofs.«113632_j80152679678507_2_alg».proof.Proof.SpecRows
import Idealize.ShloMosaic.Lib.Pipeline.Value

set_option maxRecDepth 16384

noncomputable section

namespace Cert.KernelIdeal.Named

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

theorem hz5 : (![0, 0] : Fin 2 → Nat) = fun _ => 0 := funext fun a => by fin_cases a <;> rfl

variable (V : (c : Dev nD) → (b : Ref sig .tc) → Buf (Elt Ideal) ((c : Thread nD τ).loc b))

/-- The block indices of the windows at every point of the grid: the row blocks move with the point, the
    one-block arrays stay. -/
theorem idx5 : ∀ t : Fin cfg5.N, win5_0.index t (0 : Fin 2) = t.val
    ∧ win5_0.index t (1 : Fin 2) = 0
    ∧ win5_1.index t (0 : Fin 2) = 0
    ∧ win5_1.index t (1 : Fin 2) = 0
    ∧ win5_2.index t (0 : Fin 2) = 0
    ∧ win5_2.index t (1 : Fin 2) = 0
    ∧ win5_3.index t (0 : Fin 2) = 0
    ∧ win5_3.index t (1 : Fin 2) = 0
    ∧ win5_4.index t (0 : Fin 2) = 0
    ∧ win5_4.index t (1 : Fin 2) = 0
    ∧ win5_5.index t (0 : Fin 2) = t.val
    ∧ win5_5.index t (1 : Fin 2) = 0
    ∧ win5_6.index t (0 : Fin 2) = t.val
    ∧ win5_6.index t (1 : Fin 2) = 0
    ∧ t.val < 10 :=
  (by decide +kernel : ∀ t : Fin grid5.N, _)

set_option maxHeartbeats 2000000 in
/-- What point t writes back is block t of the launch's function of the arrays it found. -/
theorem flushed5 (c : Dev nD) (t : Fin cfg5.N) :
    (dat5 V c).flushed 6 t
      = ((cfg5.win 6).blk t).view.read (Elt Ideal) (Cert.Gcn.rowNormRes (V c main_v64_0) (V c main_v66) (V c main_v70) (V c main_v45) (V c main_v48) (V c main_arg0)) := by
  show (cfg5.win 6).cut (grid5.coords t) ((dat5 V c).after 6 t) = _
  rw [after5_6]
  unfold out5_6
  rw [View.canon_unit_zero hz5]
  simp only [View.ld_unit_zero (S := S5000x128) hz5, View.ld_unit_zero (S := S1x128) hz5]
  obtain ⟨e0, e1, e2, e3, e4, e5, e6, e7, e8, e9, e10, e11, e12, e13, e14⟩ := idx5 t
  funext j
  obtain ⟨a, q, rfl⟩ : ∃ (a : Fin 5000) (q : Fin 128), j = ix2 a q := ⟨j 0, j 1, eq_ix2 j⟩
  show k5_pay1 (iblk5 V c 2 t) (iblk5 V c 3 t) (iblk5 V c 0 t) (iblk5 V c 1 t) (iblk5 V c 4 t) (iblk5 V c 5 t) (ix2 a q)
    = (Cert.Gcn.rowNormRes (V c main_v64_0) (V c main_v66) (V c main_v70) (V c main_v45) (V c main_v48) (V c main_arg0)) (((cfg5.win 6).blk t).view.emb (ix2 a q))
  have hn : 5000 * t.val + a.val < 50000 := by have := a.isLt; omega
  have hemb : ((cfg5.win 6).blk t).view.emb (ix2 a q) = (ix2 (⟨5000 * t.val + a.val, hn⟩ : Fin 50000) q : S50000x128.Idx) := by
    funext d; apply Fin.ext
    match d with
    | ⟨0, _⟩ => show win5_6.index t (0 : Fin 2) * 5000 + 1 * a.val = 5000 * t.val + a.val; omega
    | ⟨1, _⟩ => show win5_6.index t (1 : Fin 2) * 128 + 1 * q.val = q.val; omega
  rw [hemb]
  refine (Pay.norm5 _ _ _ _ _ _ a q).trans ?_
  have h0 : iblk5 V c 0 t (ix2 a q) = V c main_v64_0 (ix2 (⟨5000 * t.val + a.val, hn⟩ : Fin 50000) q) := by
    show V c main_v64_0 (((cfg5.win 0).blk t).view.emb (ix2 a q)) = _
    refine congrArg (V c main_v64_0) ?_
    funext d; apply Fin.ext
    match d with
    | ⟨0, _⟩ => show win5_0.index t (0 : Fin 2) * 5000 + 1 * a.val = 5000 * t.val + a.val; omega
    | ⟨1, _⟩ => show win5_0.index t (1 : Fin 2) * 128 + 1 * q.val = q.val; omega
  have h1 : iblk5 V c 1 t (ix2 (0 : Fin 1) q) = V c main_v66 (ix2 (0 : Fin 1) q) := by
    show V c main_v66 (((cfg5.win 1).blk t).view.emb (ix2 (0 : Fin 1) q)) = _
    refine congrArg (V c main_v66) ?_
    funext d; apply Fin.ext
    match d with
    | ⟨0, _⟩ => show win5_1.index t (0 : Fin 2) * 1 + 1 * 0 = 0; omega
    | ⟨1, _⟩ => show win5_1.index t (1 : Fin 2) * 128 + 1 * q.val = q.val; omega
  have h2 : iblk5 V c 2 t (ix2 (0 : Fin 1) q) = V c main_v70 (ix2 (0 : Fin 1) q) := by
    show V c main_v70 (((cfg5.win 2).blk t).view.emb (ix2 (0 : Fin 1) q)) = _
    refine congrArg (V c main_v70) ?_
    funext d; apply Fin.ext
    match d with
    | ⟨0, _⟩ => show win5_2.index t (0 : Fin 2) * 1 + 1 * 0 = 0; omega
    | ⟨1, _⟩ => show win5_2.index t (1 : Fin 2) * 128 + 1 * q.val = q.val; omega
  have h3 : iblk5 V c 3 t (ix2 (0 : Fin 1) q) = V c main_v45 (ix2 (0 : Fin 1) q) := by
    show V c main_v45 (((cfg5.win 3).blk t).view.emb (ix2 (0 : Fin 1) q)) = _
    refine congrArg (V c main_v45) ?_
    funext d; apply Fin.ext
    match d with
    | ⟨0, _⟩ => show win5_3.index t (0 : Fin 2) * 1 + 1 * 0 = 0; omega
    | ⟨1, _⟩ => show win5_3.index t (1 : Fin 2) * 128 + 1 * q.val = q.val; omega
  have h4 : iblk5 V c 4 t (ix2 (0 : Fin 1) q) = V c main_v48 (ix2 (0 : Fin 1) q) := by
    show V c main_v48 (((cfg5.win 4).blk t).view.emb (ix2 (0 : Fin 1) q)) = _
    refine congrArg (V c main_v48) ?_
    funext d; apply Fin.ext
    match d with
    | ⟨0, _⟩ => show win5_4.index t (0 : Fin 2) * 1 + 1 * 0 = 0; omega
    | ⟨1, _⟩ => show win5_4.index t (1 : Fin 2) * 128 + 1 * q.val = q.val; omega
  have h5 : iblk5 V c 5 t (ix2 a q) = V c main_arg0 (ix2 (⟨5000 * t.val + a.val, hn⟩ : Fin 50000) q) := by
    show V c main_arg0 (((cfg5.win 5).blk t).view.emb (ix2 a q)) = _
    refine congrArg (V c main_arg0) ?_
    funext d; apply Fin.ext
    match d with
    | ⟨0, _⟩ => show win5_5.index t (0 : Fin 2) * 5000 + 1 * a.val = 5000 * t.val + a.val; omega
    | ⟨1, _⟩ => show win5_5.index t (1 : Fin 2) * 128 + 1 * q.val = q.val; omega
  rw [h0, h1, h2, h3, h4, h5]
  all_goals rfl

/-- An index of the output array is in point t's block iff each coordinate is in the block's range. -/
theorem mem_blk5 (t : Fin cfg5.N) (i : S50000x128.Idx) :
    i ∈ ((cfg5.win 6).blk t).view.set ↔ ∀ a : Fin 2, win5_6.index t a * S5000x128.size a ≤ (i a).val
      ∧ (i a).val < win5_6.index t a * S5000x128.size a + S5000x128.size a := by
  show i ∈ ((View.whole main_v71).slice (win5_6.rect t)).set ↔ _
  rw [View.set_slice_whole, Rect.mem_set_unit]
  exact Iff.rfl

/-- The row blocks cover the array: row r is in block r / 5000. -/
theorem cover5 (i : S50000x128.Idx) :
    ∃ t : Fin cfg5.N, (cfg5.win 6).flush t = true ∧ i ∈ ((cfg5.win 6).blk t).view.set := by
  have hN : cfg5.N = 10 := N_5
  have hi0 : (i 0).val < 50000 := (i 0).isLt
  have hi1 : (i 1).val < 128 := (i 1).isLt
  let t : Fin cfg5.N := ⟨(i 0).val / 5000, by rw [hN]; omega⟩
  obtain ⟨e0, e1, e2, e3, e4, e5, e6, e7, e8, e9, e10, e11, e12, e13, e14⟩ := idx5 t
  have e' : win5_6.index t (0 : Fin 2) = (i 0).val / 5000 := e12
  refine ⟨t, flush5_6 t, ?_⟩
  rw [mem_blk5]
  intro a
  match a with
  | ⟨0, _⟩ => show win5_6.index t (0 : Fin 2) * 5000 ≤ (i 0).val ∧ (i 0).val < win5_6.index t (0 : Fin 2) * 5000 + 5000; omega
  | ⟨1, _⟩ => show win5_6.index t (1 : Fin 2) * 128 ≤ (i 1).val ∧ (i 1).val < win5_6.index t (1 : Fin 2) * 128 + 128; omega

/-- After the launch the output array is the launch's function of the arrays it found. -/
theorem final5 (c : Dev nD) :
    (dat5 V c).arrAt 6 cfg5.N = Cert.Gcn.rowNormRes (V c main_v64_0) (V c main_v66) (V c main_v70) (V c main_v45) (V c main_v48) (V c main_arg0) :=
  (dat5 V c).arrAt_eq_of_cover 6 _ (fun t _ => flushed5 V c t) cover5

end Cert.KernelIdeal.Named

end
-- ==== Proof.KChain2.lean ====
/-
  The second layer of the kernel, launch by launch, is the second layer of the reference; the sixth launch adds the
  network's input to the normalised layer, which gives the reference's node embeddings.  The steps are the first
  layer's, over the first layer's output in place of the input.
-/
import proofs.«113632_j80152679678507_2_alg».proof.Proof.Gen.KernelIdeal.Frame
import proofs.«113632_j80152679678507_2_alg».proof.Proof.Gen.ReferenceIdeal.Read
import proofs.«113632_j80152679678507_2_alg».proof.Proof.KWalk
import proofs.«113632_j80152679678507_2_alg».proof.Proof.KOrigin
import proofs.«113632_j80152679678507_2_alg».proof.Proof.KHost2
import proofs.«113632_j80152679678507_2_alg».proof.Proof.KChain1
import proofs.«113632_j80152679678507_2_alg».proof.Proof.KReg3
import proofs.«113632_j80152679678507_2_alg».proof.Proof.KReg4
import proofs.«113632_j80152679678507_2_alg».proof.Proof.KReg5
import proofs.«113632_j80152679678507_2_alg».proof.Proof.KLayer
import proofs.«113632_j80152679678507_2_alg».proof.Proof.RefRead
import proofs.«113632_j80152679678507_2_alg».proof.Proof.RealChain
import Idealize.ShloMosaic.Lib.ValueIdx
import Idealize.ShloMosaic.Lib.StableHlo.Run

set_option maxRecDepth 16384

noncomputable section

namespace Cert.KernelIdeal.Named

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

open Idealize.ShloMosaic.StableHlo
open Cert.ReferenceIdeal.Read (val_main_v54 val_main_v56 val_main_v57 val_main_v70 val_main_v72 val_main_v76 val_main_v79 val_main_v81 val_main_v83 val_main_v110)

variable (m : (ℓ : Loc nD τ sig) → Buf (Elt Ideal) ℓ) (ρ : Dev nD → PrngReg)

/-- The first layer's output as the fourth launch finds it. -/
theorem c2_h (c : Dev nD) (h0 : AllReal (m ((c : Thread nD τ).loc main_arg0))) (h3 : AllReal (m ((c : Thread nD τ).loc main_arg3))) (h5 : AllReal (m ((c : Thread nD τ).loc main_arg5)))
    (h6 : AllReal (m ((c : Thread nD τ).loc main_arg6))) (h7 : AllReal (m ((c : Thread nD τ).loc main_arg7))) :
    W7 m ρ c (Proc.devRef .tc main_v35) = val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) :=
  (at7_main_v35 m ρ c).trans (c1_out m ρ c h0 h3 h5 h6 h7)

/-- After the fourth launch the support array is the reference's second support. -/
theorem c2_support (c : Dev nD) (h0 : AllReal (m ((c : Thread nD τ).loc main_arg0))) (h3 : AllReal (m ((c : Thread nD τ).loc main_arg3))) (h5 : AllReal (m ((c : Thread nD τ).loc main_arg5)))
    (h6 : AllReal (m ((c : Thread nD τ).loc main_arg6))) (h7 : AllReal (m ((c : Thread nD τ).loc main_arg7))) :
    W8 m ρ c (Proc.devRef .tc main_v49) = val_main_v57 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W8_arr m ρ c 2).trans ?_
  refine (final3 (V7 m ρ) c).trans ?_
  refine Eq.trans ?_ (Cert.Gcn.Ref.sup2 _ _ _ _ _ _ _ _ _).symm
  exact congrArg₂ Cert.Gcn.dense (c2_h m ρ c h0 h3 h5 h6 h7) (w7_v37 m ρ c)

/-- The aggregate the fifth launch reads is the reference's second aggregate. -/
theorem c2_agg (c : Dev nD) (h0 : AllReal (m ((c : Thread nD τ).loc main_arg0))) (h3 : AllReal (m ((c : Thread nD τ).loc main_arg3))) (h5 : AllReal (m ((c : Thread nD τ).loc main_arg5)))
    (h6 : AllReal (m ((c : Thread nD τ).loc main_arg6))) (h7 : AllReal (m ((c : Thread nD τ).loc main_arg7))) :
    W9 m ρ c (Proc.devRef .tc main_v63) = val_main_v70 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) :=
  w9_v63 m ρ c (c2_support m ρ c h0 h3 h5 h6 h7)

/-- The second layer before normalisation, over the arrays the fifth launch finds, is the reference's. -/
theorem c2_pre_raw (c : Dev nD) (h0 : AllReal (m ((c : Thread nD τ).loc main_arg0))) (h3 : AllReal (m ((c : Thread nD τ).loc main_arg3))) (h5 : AllReal (m ((c : Thread nD τ).loc main_arg5)))
    (h6 : AllReal (m ((c : Thread nD τ).loc main_arg6))) (h7 : AllReal (m ((c : Thread nD τ).loc main_arg7))) :
    Cert.Gcn.rowPre (V9 m ρ c main_v63) (V9 m ρ c main_v35) (V9 m ρ c main_v39) (V9 m ρ c main_v42)
      = val_main_v79 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) := by
  refine Eq.trans ?_ (Cert.Gcn.Ref.out2 _ _ _ _ _ _ _ _ _).symm
  rw [show V9 m ρ c main_v63 = _ from c2_agg m ρ c h0 h3 h5 h6 h7,
    show V9 m ρ c main_v35 = _ from (at9_main_v35 m ρ c).trans (c1_out m ρ c h0 h3 h5 h6 h7),
    show V9 m ρ c main_v39 = _ from (at9_main_v39 m ρ c).trans (w7_v39 m ρ c)]
  refine Cert.Gcn.rowPre_eq _ _ _ _ _ fun q => ?_
  rw [show V9 m ρ c main_v42 = W7 m ρ c (Proc.devRef .tc main_v42) from at9_main_v42 m ρ c]
  exact w7_v42 m ρ c q

/-- After the fifth launch: the second layer before normalisation. -/
theorem c2_pre (c : Dev nD) (h0 : AllReal (m ((c : Thread nD τ).loc main_arg0))) (h3 : AllReal (m ((c : Thread nD τ).loc main_arg3))) (h5 : AllReal (m ((c : Thread nD τ).loc main_arg5)))
    (h6 : AllReal (m ((c : Thread nD τ).loc main_arg6))) (h7 : AllReal (m ((c : Thread nD τ).loc main_arg7))) :
    W10 m ρ c (Proc.devRef .tc main_v64_0) = val_main_v79 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) :=
  ((W10_arr m ρ c 4).trans (final4_out (V9 m ρ) c)).trans (c2_pre_raw m ρ c h0 h3 h5 h6 h7)

/-- After the fifth launch: its column sums, as a row. -/
theorem c2_sum (c : Dev nD) (h0 : AllReal (m ((c : Thread nD τ).loc main_arg0))) (h3 : AllReal (m ((c : Thread nD τ).loc main_arg3))) (h5 : AllReal (m ((c : Thread nD τ).loc main_arg5)))
    (h6 : AllReal (m ((c : Thread nD τ).loc main_arg6))) (h7 : AllReal (m ((c : Thread nD τ).loc main_arg7))) :
    W10 m ρ c (Proc.devRef .tc main_v64_1) = Cert.Gcn.rowSum (val_main_v79 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9))) :=
  ((W10_arr m ρ c 5).trans (final4_sum (V9 m ρ) c)).trans (congrArg Cert.Gcn.rowSum (c2_pre_raw m ρ c h0 h3 h5 h6 h7))

/-- After the fifth launch: the column sums of its squares, as a row. -/
theorem c2_sumsq (c : Dev nD) (h0 : AllReal (m ((c : Thread nD τ).loc main_arg0))) (h3 : AllReal (m ((c : Thread nD τ).loc main_arg3))) (h5 : AllReal (m ((c : Thread nD τ).loc main_arg5)))
    (h6 : AllReal (m ((c : Thread nD τ).loc main_arg6))) (h7 : AllReal (m ((c : Thread nD τ).loc main_arg7))) :
    W10 m ρ c (Proc.devRef .tc main_v64_2) = Cert.Gcn.rowSumSq (val_main_v79 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9))) :=
  ((W10_arr m ρ c 6).trans (final4_sumsq (V9 m ρ) c)).trans (congrArg Cert.Gcn.rowSumSq (c2_pre_raw m ρ c h0 h3 h5 h6 h7))

/-- The second mean row: the column sums divided by the number of rows. -/
theorem w11_v66 (c : Dev nD) (q : Fin 128) :
    W11 m ρ c (Proc.devRef .tc main_v66) (ix2 (0 : Fin 1) q)
      = Ideal.div (W10 m ρ c (Proc.devRef .tc main_v64_1) (ix2 (0 : Fin 1) q)) Cert.Gcn.cnt := by
  have e : W11 m ρ c (Proc.devRef .tc main_v66)
      = Host.divf (W10 m ρ c (Proc.devRef .tc main_v64_1))
          (broadcastInDim S1x128 ![] bcast_S_S1x128 (constant (F := Ideal) S_ .f32 0x47435000#32)) := by
    show StableHlo.after hostOps5 (W10 m ρ c) (Proc.devRef .tc main_v66) = _
    after_results
  rw [e]
  rfl

/-- The second variance row. -/
theorem w11_v70 (c : Dev nD) (q : Fin 128) (μ : EReal) (hμ : W11 m ρ c (Proc.devRef .tc main_v66) (ix2 (0 : Fin 1) q) = μ) :
    W11 m ρ c (Proc.devRef .tc main_v70) (ix2 (0 : Fin 1) q)
      = Ideal.div (W10 m ρ c (Proc.devRef .tc main_v64_2) (ix2 (0 : Fin 1) q)) Cert.Gcn.cnt - μ * μ := by
  subst hμ
  have e66 : W11 m ρ c (Proc.devRef .tc main_v66)
      = Host.divf (W10 m ρ c (Proc.devRef .tc main_v64_1))
          (broadcastInDim S1x128 ![] bcast_S_S1x128 (constant (F := Ideal) S_ .f32 0x47435000#32)) := by
    show StableHlo.after hostOps5 (W10 m ρ c) (Proc.devRef .tc main_v66) = _
    after_results
  have e : W11 m ρ c (Proc.devRef .tc main_v70)
      = subf (Host.divf (W10 m ρ c (Proc.devRef .tc main_v64_2))
          (broadcastInDim S1x128 ![] bcast_S_S1x128 (constant (F := Ideal) S_ .f32 0x47435000#32)))
          (mulf (W11 m ρ c (Proc.devRef .tc main_v66)) (W11 m ρ c (Proc.devRef .tc main_v66))) := by
    rw [e66]
    show StableHlo.after hostOps5 (W10 m ρ c) (Proc.devRef .tc main_v70) = _
    after_results
  rw [e]
  rfl

/-- After the sixth launch: the node embeddings are the reference's, for finite parameters and inputs. -/
theorem c2_out (c : Dev nD) (h0 : AllReal (m ((c : Thread nD τ).loc main_arg0))) (h3 : AllReal (m ((c : Thread nD τ).loc main_arg3))) (h5 : AllReal (m ((c : Thread nD τ).loc main_arg5)))
    (h6 : AllReal (m ((c : Thread nD τ).loc main_arg6))) (h7 : AllReal (m ((c : Thread nD τ).loc main_arg7))) (h8 : AllReal (m ((c : Thread nD τ).loc main_arg8))) (h9 : AllReal (m ((c : Thread nD τ).loc main_arg9))) :
    W12 m ρ c (Proc.devRef .tc main_v71) = val_main_v110 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W12_arr m ρ c 6).trans ?_
  refine (final5 (V11 m ρ) c).trans ?_
  refine Eq.trans ?_ (Cert.Gcn.Ref.emb _ _ _ _ _ _ _ _ _).symm
  have hh : AllReal (val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9))) :=
    Cert.Gcn.Ref.real_v54 _ _ _ _ _ _ _ _ _ h0 h3 h5 h6 h7 h8 h9 (Cert.Gcn.Ref.h1 _ _ _ _ _ _ _ _ _)
  have hn : Cert.Gcn.rowNorm (V11 m ρ c main_v64_0) (V11 m ρ c main_v66) (V11 m ρ c main_v70) (V11 m ρ c main_v45) (V11 m ρ c main_v48)
      = Cert.Gcn.normRelu (Cert.Gcn.varDev (val_main_v79 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)))) (val_main_v79 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)))
          (val_main_v81 (F := Ideal) (m ((c : Thread nD τ).loc main_arg8))) (val_main_v83 (F := Ideal) (m ((c : Thread nD τ).loc main_arg9))) := by
    rw [show V11 m ρ c main_v64_0 = _ from (at11_main_v64_0 m ρ c).trans (c2_pre m ρ c h0 h3 h5 h6 h7)]
    refine Cert.Gcn.rowNorm_eq _ (Cert.Gcn.Ref.real_v79 _ _ _ _ _ _ _ _ _ hh h3 h5 h6 h7) _ _ _ _ _ _ (fun q => ?_) (fun q => ?_) (fun q => ?_) (fun q => ?_)
    · show W11 m ρ c (Proc.devRef .tc main_v66) (ix2 (0 : Fin 1) q) = _
      rw [w11_v66, c2_sum m ρ c h0 h3 h5 h6 h7]
    · show W11 m ρ c (Proc.devRef .tc main_v70) (ix2 (0 : Fin 1) q) = _
      rw [w11_v70 m ρ c q _ rfl, c2_sumsq m ρ c h0 h3 h5 h6 h7]
    · rw [show V11 m ρ c main_v45 = W7 m ρ c (Proc.devRef .tc main_v45) from at11_main_v45 m ρ c]
      exact w7_v45 m ρ c q
    · rw [show V11 m ρ c main_v48 = W7 m ρ c (Proc.devRef .tc main_v48) from at11_main_v48 m ρ c]
      exact w7_v48 m ρ c q
  show (fun i => Cert.Gcn.rowNorm (V11 m ρ c main_v64_0) (V11 m ρ c main_v66) (V11 m ρ c main_v70) (V11 m ρ c main_v45) (V11 m ρ c main_v48) i
      + V11 m ρ c main_arg0 i) = _
  rw [hn, show V11 m ρ c main_arg0 = _ from at11_main_arg0 m ρ c]

end Cert.KernelIdeal.Named

end
-- ==== Proof.KReg6.lean ====
/-
  The edge-score launch, fifty blocks of 10000 edges.
  Point t reads rows 10000 t … 10000 t + 9999 of the two endpoint-embedding arrays, the two halves of the weight
  column and the one-entry bias, and writes back the scores of those 10000 edges; the fifty blocks tile the 500000
  edges.
-/
import proofs.«113632_j80152679678507_2_alg».proof.Proof.Gen.KernelIdeal.Frame
import proofs.«113632_j80152679678507_2_alg».proof.Proof.KPay
import proofs.«113632_j80152679678507_2_alg».proof.Proof.Spec
import proofs.«113632_j80152679678507_2_alg».proof.Proof.SpecRows
import Idealize.ShloMosaic.Lib.Pipeline.Value

set_option maxRecDepth 16384

noncomputable section

namespace Cert.KernelIdeal.Named

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

theorem hz6 : (![0, 0] : Fin 2 → Nat) = fun _ => 0 := funext fun a => by fin_cases a <;> rfl

variable (V : (c : Dev nD) → (b : Ref sig .tc) → Buf (Elt Ideal) ((c : Thread nD τ).loc b))

/-- The block indices of the windows at every point of the grid: the row blocks move with the point, the
    one-block arrays stay. -/
theorem idx6 : ∀ t : Fin cfg6.N, win6_0.index t (0 : Fin 2) = t.val
    ∧ win6_0.index t (1 : Fin 2) = 0
    ∧ win6_1.index t (0 : Fin 2) = t.val
    ∧ win6_1.index t (1 : Fin 2) = 0
    ∧ win6_2.index t (0 : Fin 2) = 0
    ∧ win6_2.index t (1 : Fin 2) = 0
    ∧ win6_3.index t (0 : Fin 2) = 0
    ∧ win6_3.index t (1 : Fin 2) = 0
    ∧ win6_4.index t (0 : Fin 2) = 0
    ∧ win6_4.index t (1 : Fin 2) = 0
    ∧ win6_5.index t (0 : Fin 2) = t.val
    ∧ win6_5.index t (1 : Fin 2) = 0
    ∧ t.val < 50 :=
  (by decide +kernel : ∀ t : Fin grid6.N, _)

set_option maxHeartbeats 2000000 in
/-- What point t writes back is block t of the launch's function of the arrays it found. -/
theorem flushed6 (c : Dev nD) (t : Fin cfg6.N) :
    (dat6 V c).flushed 5 t
      = ((cfg6.win 5).blk t).view.read (Elt Ideal) (Cert.Gcn.edgeScore (V c main_v80) (V c main_v89) (V c main_v90) (V c main_v91) (V c main_v92 (ix2 (0 : Fin 1) (0 : Fin 1)))) := by
  show (cfg6.win 5).cut (grid6.coords t) ((dat6 V c).after 5 t) = _
  rw [after6_5]
  unfold out6_5
  rw [View.canon_unit_zero hz6]
  simp only [View.ld_unit_zero (S := S10000x128) hz6, View.ld_unit_zero (S := S128x1) hz6, View.ld_unit_zero (S := S1x1) hz6, View.ld_unit_zero (S := S10000x1) hz6]
  obtain ⟨e0, e1, e2, e3, e4, e5, e6, e7, e8, e9, e10, e11, e12⟩ := idx6 t
  funext j
  obtain ⟨a, q, rfl⟩ : ∃ (a : Fin 10000) (q : Fin 1), j = ix2 a q := ⟨j 0, j 1, eq_ix2 j⟩
  show k6_pay1 (iblk6 V c 0 t) (iblk6 V c 1 t) (iblk6 V c 2 t) (iblk6 V c 3 t) (iblk6 V c 4 t) (ix2 a q)
    = (Cert.Gcn.edgeScore (V c main_v80) (V c main_v89) (V c main_v90) (V c main_v91) (V c main_v92 (ix2 (0 : Fin 1) (0 : Fin 1)))) (((cfg6.win 5).blk t).view.emb (ix2 a q))
  have hq : q = 0 := Subsingleton.elim _ _
  subst hq
  refine (Pay.edge6 _ _ _ _ _ a).trans ?_
  unfold Cert.Gcn.edgeScore
  refine congrArg Ideal.logistic ?_
  have he1 : ∀ k : Fin 128, iblk6 V c 0 t (ix2 a k)
      = V c main_v80 (ix2 ((((cfg6.win 5).blk t).view.emb (ix2 a (0 : Fin 1))) 0) k) := fun k => by
    show V c main_v80 (((cfg6.win 0).blk t).view.emb (ix2 a k)) = _
    refine congrArg (V c main_v80) ?_
    funext d; apply Fin.ext
    match d with
    | ⟨0, _⟩ => show win6_0.index t (0 : Fin 2) * 10000 + 1 * a.val = win6_5.index t (0 : Fin 2) * 10000 + 1 * a.val; omega
    | ⟨1, _⟩ => show win6_0.index t (1 : Fin 2) * 128 + 1 * k.val = k.val; omega
  have he2 : ∀ k : Fin 128, iblk6 V c 1 t (ix2 a k)
      = V c main_v89 (ix2 ((((cfg6.win 5).blk t).view.emb (ix2 a (0 : Fin 1))) 0) k) := fun k => by
    show V c main_v89 (((cfg6.win 1).blk t).view.emb (ix2 a k)) = _
    refine congrArg (V c main_v89) ?_
    funext d; apply Fin.ext
    match d with
    | ⟨0, _⟩ => show win6_1.index t (0 : Fin 2) * 10000 + 1 * a.val = win6_5.index t (0 : Fin 2) * 10000 + 1 * a.val; omega
    | ⟨1, _⟩ => show win6_1.index t (1 : Fin 2) * 128 + 1 * k.val = k.val; omega
  have hw1 : ∀ k : Fin 128, iblk6 V c 2 t (ix2 k (0 : Fin 1)) = V c main_v90 (ix2 k (0 : Fin 1)) := fun k => by
    show V c main_v90 (((cfg6.win 2).blk t).view.emb (ix2 k (0 : Fin 1))) = _
    refine congrArg (V c main_v90) ?_
    funext d; apply Fin.ext
    match d with
    | ⟨0, _⟩ => show win6_2.index t (0 : Fin 2) * 128 + 1 * k.val = k.val; omega
    | ⟨1, _⟩ => show win6_2.index t (1 : Fin 2) * 1 + 1 * 0 = 0; omega
  have hw2 : ∀ k : Fin 128, iblk6 V c 3 t (ix2 k (0 : Fin 1)) = V c main_v91 (ix2 k (0 : Fin 1)) := fun k => by
    show V c main_v91 (((cfg6.win 3).blk t).view.emb (ix2 k (0 : Fin 1))) = _
    refine congrArg (V c main_v91) ?_
    funext d; apply Fin.ext
    match d with
    | ⟨0, _⟩ => show win6_3.index t (0 : Fin 2) * 128 + 1 * k.val = k.val; omega
    | ⟨1, _⟩ => show win6_3.index t (1 : Fin 2) * 1 + 1 * 0 = 0; omega
  have hc : iblk6 V c 4 t (ix2 (0 : Fin 1) (0 : Fin 1)) = V c main_v92 (ix2 (0 : Fin 1) (0 : Fin 1)) := by
    show V c main_v92 (((cfg6.win 4).blk t).view.emb (ix2 (0 : Fin 1) (0 : Fin 1))) = _
    refine congrArg (V c main_v92) ?_
    funext d; apply Fin.ext
    match d with
    | ⟨0, _⟩ => show win6_4.index t (0 : Fin 2) * 1 + 1 * 0 = 0; omega
    | ⟨1, _⟩ => show win6_4.index t (1 : Fin 2) * 1 + 1 * 0 = 0; omega
  refine congrArg₂ (· + ·) (congrArg₂ (· + ·) (Finset.sum_congr rfl fun k _ => ?_) (Finset.sum_congr rfl fun k _ => ?_)) hc
  · rw [he1 k, hw1 k]
  · rw [he2 k, hw2 k]

/-- An index of the output array is in point t's block iff each coordinate is in the block's range. -/
theorem mem_blk6 (t : Fin cfg6.N) (i : S500000x1.Idx) :
    i ∈ ((cfg6.win 5).blk t).view.set ↔ ∀ a : Fin 2, win6_5.index t a * S10000x1.size a ≤ (i a).val
      ∧ (i a).val < win6_5.index t a * S10000x1.size a + S10000x1.size a := by
  show i ∈ ((View.whole main_v93).slice (win6_5.rect t)).set ↔ _
  rw [View.set_slice_whole, Rect.mem_set_unit]
  exact Iff.rfl

/-- The row blocks cover the array: row r is in block r / 10000. -/
theorem cover6 (i : S500000x1.Idx) :
    ∃ t : Fin cfg6.N, (cfg6.win 5).flush t = true ∧ i ∈ ((cfg6.win 5).blk t).view.set := by
  have hN : cfg6.N = 50 := N_6
  have hi0 : (i 0).val < 500000 := (i 0).isLt
  have hi1 : (i 1).val < 1 := (i 1).isLt
  let t : Fin cfg6.N := ⟨(i 0).val / 10000, by rw [hN]; omega⟩
  obtain ⟨e0, e1, e2, e3, e4, e5, e6, e7, e8, e9, e10, e11, e12⟩ := idx6 t
  have e' : win6_5.index t (0 : Fin 2) = (i 0).val / 10000 := e10
  refine ⟨t, flush6_5 t, ?_⟩
  rw [mem_blk6]
  intro a
  match a with
  | ⟨0, _⟩ => show win6_5.index t (0 : Fin 2) * 10000 ≤ (i 0).val ∧ (i 0).val < win6_5.index t (0 : Fin 2) * 10000 + 10000; omega
  | ⟨1, _⟩ => show win6_5.index t (1 : Fin 2) * 1 ≤ (i 1).val ∧ (i 1).val < win6_5.index t (1 : Fin 2) * 1 + 1; omega

/-- After the launch the output array is the launch's function of the arrays it found. -/
theorem final6 (c : Dev nD) :
    (dat6 V c).arrAt 5 cfg6.N = Cert.Gcn.edgeScore (V c main_v80) (V c main_v89) (V c main_v90) (V c main_v91) (V c main_v92 (ix2 (0 : Fin 1) (0 : Fin 1))) :=
  (dat6 V c).arrAt_eq_of_cover 5 _ (fun t _ => flushed6 V c t) cover6

end Cert.KernelIdeal.Named

end
-- ==== Proof.RefScore.lean ====
/-
  The reference program's edge score read as the specification's function: the logistic function of
  the dot product of the joined endpoint embeddings with the 256-entry weight column, plus the bias,
  is the logistic function of the two half dot products plus the bias.
-/
import proofs.«113632_j80152679678507_2_alg».proof.Proof.Gen.ReferenceIdeal.Read
import proofs.«113632_j80152679678507_2_alg».proof.Proof.Spec
import Idealize.ShloMosaic.Lib.IdealHost

noncomputable section

namespace Cert.Gcn.Ref

open Cert.ReferenceIdeal Cert.ReferenceIdeal.Gen Cert.ReferenceIdeal.Read
open Idealize.ShloMosaic Idealize.ShloMosaic.ValueIdx Idealize.ShloMosaic.StableHlo
open scoped BigOperators

/-- Two indices of rank two agree when their coordinates do. -/
macro "sidx2" : tactic => `(tactic| exact funext fun a => Fin.ext (by match a with | ⟨0, _⟩ => rfl | ⟨1, _⟩ => rfl))
/-- Two indices of rank one agree when their coordinate does. -/
macro "sidx1" : tactic => `(tactic| exact funext fun a => Fin.ext (by match a with | ⟨0, _⟩ => rfl))

variable (x0 : (⟨S50000x128, .f32⟩ : BufTy).Contents (Elt Ideal))
  (x1 x2 : (⟨S800000, .i32⟩ : BufTy).Contents (Elt Ideal))
  (x3 : (⟨S800000, .f32⟩ : BufTy).Contents (Elt Ideal))
  (x4 : (⟨S2x500000, .i32⟩ : BufTy).Contents (Elt Ideal))
  (x5 x6 : (⟨S2x128x128, .f32⟩ : BufTy).Contents (Elt Ideal))
  (x7 x8 x9 : (⟨S2x128, .f32⟩ : BufTy).Contents (Elt Ideal))
  (x10 : (⟨S256x1, .f32⟩ : BufTy).Contents (Elt Ideal))
  (x11 : (⟨S1, .f32⟩ : BufTy).Contents (Elt Ideal))

/-! ### The edge score. -/

/-- The joined embedding row reads the first endpoint's embedding on its first 128 columns. -/
theorem cat_left (e : Fin 500000) (k : Fin 128) :
    (val_main_v129 x0 x1 x2 x3 x4 x5 x6 x7 x8 x9) (ix2 e (⟨k.val, by omega⟩ : Fin 256)) = (val_main_v119 x0 x1 x2 x3 x4 x5 x6 x7 x8 x9) (ix2 e k) := by
  unfold val_main_v129
  exact concatenate_pair_apply_left _ _ _ concatenates_S500000x128_S500000x128_S500000x256_d1 _ rfl (ix2 e k)
    (fun b => by match b with | ⟨0, _⟩ => rfl | ⟨1, _⟩ => rfl)

/-- The joined embedding row reads the second endpoint's embedding on its last 128 columns. -/
theorem cat_right (e : Fin 500000) (k : Fin 128) :
    (val_main_v129 x0 x1 x2 x3 x4 x5 x6 x7 x8 x9) (ix2 e (⟨128 + k.val, by omega⟩ : Fin 256)) = (val_main_v128 x0 x1 x2 x3 x4 x5 x6 x7 x8 x9) (ix2 e k) := by
  unfold val_main_v129
  exact concatenate_pair_apply_right _ _ _ concatenates_S500000x128_S500000x128_S500000x256_d1 _ rfl rfl (ix2 e k)
    (fun b hb => by match b with | ⟨0, _⟩ => rfl | ⟨1, _⟩ => exact absurd rfl hb)
    (by show k.val + 128 = 128 + k.val; omega)

/-- A sum over 256 indices is the sum over the first 128 plus the sum over the last 128. -/
theorem sum_256_split (f : Fin 256 → EReal) :
    ∑ k : Fin 256, f k = (∑ k : Fin 128, f ⟨k.val, by omega⟩) + ∑ k : Fin 128, f ⟨128 + k.val, by omega⟩ :=
  Fin.sum_univ_add (a := 128) (b := 128) f

/-- The edge score of the reference: the logistic function of the two half dot products plus the bias. -/
theorem score (w1 w2 : SH.Idx → EReal) (c : EReal)
    (hw1 : ∀ k : Fin 128, w1 (ix2 k (0 : Fin 1)) = x10 (ix2 (⟨k.val, by omega⟩ : Fin 256) (0 : Fin 1)))
    (hw2 : ∀ k : Fin 128, w2 (ix2 k (0 : Fin 1)) = x10 (ix2 (⟨128 + k.val, by omega⟩ : Fin 256) (0 : Fin 1)))
    (hc : c = x11 (ix1 (0 : Fin 1))) :
    (val_main_v139 x0 x1 x2 x3 x4 x5 x6 x7 x8 x9 x10 x11) = edgeScore (val_main_v119 x0 x1 x2 x3 x4 x5 x6 x7 x8 x9) (val_main_v128 x0 x1 x2 x3 x4 x5 x6 x7 x8 x9) w1 w2 c := by
  funext i
  obtain ⟨e, z, rfl⟩ : ∃ e z, i = ix2 e z := ⟨i 0, i 1, eq_ix2 i⟩
  obtain rfl : z = 0 := Subsingleton.elim _ _
  have hdot : (val_main_v130 x0 x1 x2 x3 x4 x5 x6 x7 x8 x9 x10) (ix2 e (0 : Fin 1))
      = (∑ k : Fin 128, (val_main_v119 x0 x1 x2 x3 x4 x5 x6 x7 x8 x9) (ix2 e k) * w1 (ix2 k (0 : Fin 1)))
        + ∑ k : Fin 128, (val_main_v128 x0 x1 x2 x3 x4 x5 x6 x7 x8 x9) (ix2 e k) * w2 (ix2 k (0 : Fin 1)) := by
    have h0 := val_main_v130_apply x0 x1 x2 x3 x4 x5 x6 x7 x8 x9 x10 (ix2 e (0 : Fin 1))
    refine h0.trans ?_
    clear h0
    have h1 := sum_256_split (fun k : Fin 256 => (val_main_v129 x0 x1 x2 x3 x4 x5 x6 x7 x8 x9) (lidx_main_v130 (ix2 e (0 : Fin 1)) k) * x10 (ridx_main_v130 (ix2 e (0 : Fin 1)) k))
    refine h1.trans ?_
    clear h1
    refine congrArg₂ (· + ·) ?_ ?_
    · refine Finset.sum_congr rfl fun k _ => ?_
      have e1 : lidx_main_v130 (ix2 e (0 : Fin 1)) (⟨k.val, by omega⟩ : Fin 256) = ix2 e (⟨k.val, by omega⟩ : Fin 256) := by sidx2
      have e2 : ridx_main_v130 (ix2 e (0 : Fin 1)) (⟨k.val, by omega⟩ : Fin 256) = ix2 (⟨k.val, by omega⟩ : Fin 256) (0 : Fin 1) := by sidx2
      rw [e1, e2, cat_left, hw1]
    · refine Finset.sum_congr rfl fun k _ => ?_
      have e1 : lidx_main_v130 (ix2 e (0 : Fin 1)) (⟨128 + k.val, by omega⟩ : Fin 256) = ix2 e (⟨128 + k.val, by omega⟩ : Fin 256) := by sidx2
      have e2 : ridx_main_v130 (ix2 e (0 : Fin 1)) (⟨128 + k.val, by omega⟩ : Fin 256) = ix2 (⟨128 + k.val, by omega⟩ : Fin 256) (0 : Fin 1) := by sidx2
      rw [e1, e2, cat_right, hw2]
  have hbias : (val_main_v132 x11) (ix2 e (0 : Fin 1)) = c := by
    rw [val_main_v132_apply, val_main_v131_apply, hc]
    have e3 : idx_main_v131 (idx_main_v132 (ix2 e (0 : Fin 1))) = ix1 (0 : Fin 1) := by sidx1
    rw [e3]
  rw [val_main_v139_apply, val_main_v138_apply, val_main_cst_19_apply, val_main_v137_apply, val_main_v136_apply,
    val_main_cst_18_apply, val_main_v135_apply, val_main_v134_apply, val_main_v133_apply, hdot, hbias]
  simp only [Ideal.ofBits_def, Ideal.ofBits_one_f32]
  rfl

end Cert.Gcn.Ref

end
-- ==== Proof.KValue.lean ====
/-
  The kernel's result is the reference's result.
  After the sixth launch the node embeddings are the reference's; the host gathers the two endpoint rows of every
  edge from them (the reference's own gathers), cuts the classifier's weight column into its two halves and lays the
  bias out as a one-entry array; the seventh launch scores each edge by the logistic function of
  e₁ · w₁ + e₂ · w₂ + c.  The reference scores it by 1 / (1 + exp (−(cat(e₁, e₂) · w + c))): the sum over the 256
  joined entries is the two sums over 128, and the expression is the logistic function.
-/
import proofs.«113632_j80152679678507_2_alg».proof.Proof.Gen.KernelIdeal.Frame
import proofs.«113632_j80152679678507_2_alg».proof.Proof.Gen.ReferenceIdeal.Read
import proofs.«113632_j80152679678507_2_alg».proof.Proof.KWalk
import proofs.«113632_j80152679678507_2_alg».proof.Proof.KOrigin
import proofs.«113632_j80152679678507_2_alg».proof.Proof.KHost2
import proofs.«113632_j80152679678507_2_alg».proof.Proof.KChain2
import proofs.«113632_j80152679678507_2_alg».proof.Proof.KReg6
import proofs.«113632_j80152679678507_2_alg».proof.Proof.RefScore
import proofs.«113632_j80152679678507_2_alg».proof.Proof.LibAllReal
import Idealize.ShloMosaic.Lib.ValueIdx

set_option maxRecDepth 16384

noncomputable section

namespace Cert.KernelIdeal.Named

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

open Cert.ReferenceIdeal.Read (val_main_v110 val_main_v119 val_main_v128 val_main_v139)

variable (m : (ℓ : Loc nD τ sig) → Buf (Elt Ideal) ℓ) (ρ : Dev nD → PrngReg)

/-- What the result buffer holds after the run is the reference's result of the same argument arrays, for finite
    inputs and parameters. -/
theorem kernel_value (c : Dev nD) (h0 : AllReal (m ((c : Thread nD τ).loc main_arg0))) (h3 : AllReal (m ((c : Thread nD τ).loc main_arg3))) (h5 : AllReal (m ((c : Thread nD τ).loc main_arg5)))
    (h6 : AllReal (m ((c : Thread nD τ).loc main_arg6))) (h7 : AllReal (m ((c : Thread nD τ).loc main_arg7))) (h8 : AllReal (m ((c : Thread nD τ).loc main_arg8))) (h9 : AllReal (m ((c : Thread nD τ).loc main_arg9))) :
    W14 m ρ c (Proc.devRef .tc main_v93) = val_main_v139 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W14_arr m ρ c 5).trans ?_
  refine (final6 (V13 m ρ) c).trans ?_
  have hE := c2_out m ρ c h0 h3 h5 h6 h7 h8 h9
  rw [show V13 m ρ c main_v80 = _ from w13_v80 m ρ c hE, show V13 m ρ c main_v89 = _ from w13_v89 m ρ c hE]
  exact (Cert.Gcn.Ref.score (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (V13 m ρ c main_v90) (V13 m ρ c main_v91)
    (V13 m ρ c main_v92 (ix2 (0 : Fin 1) (0 : Fin 1))) (fun k => w13_v90 m ρ c k) (fun k => w13_v91 m ρ c k) (w13_v92 m ρ c)).symm

end Cert.KernelIdeal.Named

end
-- ==== Proof.Finite.lean ====
/-
  The precondition "every floating-point input is finite", read back at the extended reals.

  The precondition computes, for each of the nine floating-point argument arrays x, the test "every entry of |x|
  lies strictly below +∞", and returns the conjunction of the nine tests.  When the result is the word 1, each
  test is 1, so every entry of every such array has an absolute value below +∞, that is, is a real number.
-/
import Idealize.ShloMosaic.Lib.ReduceAll
import Idealize.ShloMosaic.Lib.ValueIdx
import Idealize.ShloMosaic.PureOps.Ideal
import proofs.«113632_j80152679678507_2_alg».proof.Pre_finite_inputs
import proofs.«113632_j80152679678507_2_alg».proof.Proof.LibAllReal

noncomputable section

namespace Cert.Gcn

open Idealize.ShloMosaic Idealize.ShloMosaic.ValueIdx
open Cert.Pre_finite_inputs

/-- The scalar shape has a single index. -/
instance : Subsingleton S_.Idx := ⟨fun _ _ => funext fun d => d.elim0⟩

/-- The single-precision word 0x7F800000 is +∞. -/
theorem ofBits_inf : Ideal.ofBits .f32 0x7F800000#32 = (⊤ : EReal) := by
  simp [Ideal.ofBits, Ideal.ieee]

/-- One test read back: if "all entries of |x| are below +∞" came out 1, every entry of x is real.
    Stated for any shape, any reduced axes, and any way of spreading the scalar +∞ over the shape. -/
theorem allReal_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
        (cmpf .olt (Host.absf x) (broadcastInDim s ![] hb (constant (F := Ideal) S_ .f32 0x7F800000#32)))
        (constantI S_ 1 1#1) hr hu ix0 = 1#1) : AllReal x := fun i => by
  have h := Host.reduce_andi_all _ _ hr hu ix0 e i
  apply AllReal.real_of_abs_lt_top
  have h' : BitVec.ofBool (decide (max (x i) (-(x i)) < Ideal.ofBits .f32 0x7F800000#32)) = 1#1 := h
  rw [ofBits_inf] at h'
  by_contra hc
  rw [decide_eq_false hc] at h'
  exact absurd h' (by decide)

/-- **Finiteness out of the precondition.**  If the conjunction of the nine tests is 1, every one of the nine
    floating-point argument arrays has only real entries.  The conjunction is split test by test (a conjunction
    of two words is 1 exactly when both are), and each test is read back by `allReal_of_all`. -/
theorem finite_of_pre [Facts] (a0 : FVec Ideal S50000x128 .f32) (a1 a2 : IVec S800000 32)
    (a3 : FVec Ideal S800000 .f32) (a4 : IVec S2x500000 32) (a5 a6 : FVec Ideal S2x128x128 .f32)
    (a7 a8 a9 : FVec Ideal S2x128 .f32) (a10 : FVec Ideal S256x1 .f32) (a11 : FVec Ideal S1 .f32)
    (h : Cert.Pre_finite_inputs.fn (F := Ideal) a0 a1 a2 a3 a4 a5 a6 a7 a8 a9 a10 a11 = (fun _ => 1#1)) :
    AllReal a0 ∧ AllReal a3 ∧ AllReal a5 ∧ AllReal a6 ∧ AllReal a7 ∧ AllReal a8 ∧ AllReal a9 ∧ AllReal a10
      ∧ AllReal a11 := by
  have h0 := congrFun h ix0
  dsimp only [fn, fn_part1, fn_part2, andi] at h0
  obtain ⟨h0, e11⟩ := IntOp.andi_eq_one.1 h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨e0, e3⟩ := IntOp.andi_eq_one.1 h0
  exact ⟨allReal_of_all a0 _ _ _ e0, allReal_of_all a3 _ _ _ e3, allReal_of_all a5 _ _ _ e5,
    allReal_of_all a6 _ _ _ e6, allReal_of_all a7 _ _ _ e7, allReal_of_all a8 _ _ _ e8,
    allReal_of_all a9 _ _ _ e9, allReal_of_all a10 _ _ _ e10, allReal_of_all a11 _ _ _ e11⟩

end Cert.Gcn

end
-- ==== Proof.Assembly.lean ====
/-
  The five claims of the certificate.

  Both kernels and the reference run to completion leaving their argument arrays unchanged; the idealisation
  rewrote nothing; and at the extended reals, from memories that agree on the twelve arguments and whose
  floating-point arguments are finite, the idealised kernel and the idealised reference end with the same
  result array: the reference's function of the argument arrays (two normalised graph-convolution layers,
  then the logistic edge score).
-/
import proofs.«113632_j80152679678507_2_alg».proof.Defs
import proofs.«113632_j80152679678507_2_alg».proof.Proof.Gen.Kernel
import proofs.«113632_j80152679678507_2_alg».proof.Proof.Gen.Kernel.Frame
import proofs.«113632_j80152679678507_2_alg».proof.Proof.Gen.KernelIdeal
import proofs.«113632_j80152679678507_2_alg».proof.Proof.Gen.KernelIdeal.Frame
import proofs.«113632_j80152679678507_2_alg».proof.Proof.Gen.ReferenceIdeal
import proofs.«113632_j80152679678507_2_alg».proof.Proof.Gen.ReferenceIdeal.Run
import proofs.«113632_j80152679678507_2_alg».proof.Proof.Gen.ReferenceIdeal.Read
import proofs.«113632_j80152679678507_2_alg».proof.Proof.Gen.Pre_finite_inputs
import proofs.«113632_j80152679678507_2_alg».proof.Proof.KRun
import proofs.«113632_j80152679678507_2_alg».proof.Proof.KValue
import proofs.«113632_j80152679678507_2_alg».proof.Proof.Finite

noncomputable section

open Idealize.ShloMosaic Idealize.ShloMosaic.TcCoe Idealize.SL.Sem

namespace Cert.Proof.Claims

/-- The kernel runs and leaves its arguments unchanged. -/
theorem frame_k : Cert.frame_Kernel := fun m ρ _ => Cert.Kernel.Gen.frame m ρ

/-- The idealised kernel runs and leaves its arguments unchanged. -/
theorem frame_ki : Cert.frame_KernelIdeal := fun m ρ _ => Cert.KernelIdeal.Gen.frame m ρ

/-- The idealised reference runs and leaves its arguments unchanged. -/
theorem frame_ri : Cert.frame_ReferenceIdeal := fun m ρ _ =>
  (θ_run Cert.ReferenceIdeal.defs _ _).mono (fun _ h c => (h c).2) (Cert.ReferenceIdeal.Value.run (F := Ideal) m ρ)

/-- The idealisation rewrote no operation. -/
theorem preserves : Cert.preserves_Kernel_KernelIdeal := trivial

/-- At the extended reals the two programs end with one result array: the reference's function of the
    argument arrays.  The precondition makes every floating-point argument finite, which is what the
    kernel's value needs (the variance of a column is computed in two ways that agree on real numbers). -/
theorem algebraic : Cert.algebraic_KernelIdeal_ReferenceIdeal := by
  intro m ρ m' ρ' hpre hagree
  refine ⟨fun c => Cert.ReferenceIdeal.Read.val_main_v139 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11)), ?_, ?_⟩
  · refine (θ_run Cert.KernelIdeal.defs _ _).mono (fun r h c => ⟨(h c).1.trans ?_, (h c).2⟩)
      (Cert.KernelIdeal.Named.run_value m ρ)
    obtain ⟨h0, h3, h5, h6, h7, h8, h9, _, _⟩ := Cert.Gcn.finite_of_pre _ _ _ _ _ _ _ _ _ _ _ _ (hpre c)
    exact Cert.KernelIdeal.Named.kernel_value m ρ c h0 h3 h5 h6 h7 h8 h9
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11⟩ := hagree c
    rw [Cert.ReferenceIdeal.Read.val_main_v139_eq, e0, e1, e2, e3, e4, e5, e6, e7, e8, e9, e10, e11]

end Cert.Proof.Claims

end
-- ==== Proof.lean ====
/- The certificate's five claims for a two-layer graph convolution with batch normalisation and a logistic edge score:
   each program runs and leaves its arguments unchanged, the idealisation rewrote nothing, and at the extended reals
   the idealised kernel and the idealised reference, on finite inputs, end with the same array of edge scores. -/
import proofs.«113632_j80152679678507_2_alg».proof.Defs
import proofs.«113632_j80152679678507_2_alg».proof.Proof.Gen.Kernel
import proofs.«113632_j80152679678507_2_alg».proof.Proof.Gen.Kernel.Skeleton
import proofs.«113632_j80152679678507_2_alg».proof.Proof.Gen.Kernel.Launch
import proofs.«113632_j80152679678507_2_alg».proof.Proof.Gen.Kernel.Points
import proofs.«113632_j80152679678507_2_alg».proof.Proof.Gen.Kernel.Frame
import proofs.«113632_j80152679678507_2_alg».proof.Proof.Gen.KernelIdeal
import proofs.«113632_j80152679678507_2_alg».proof.Proof.Gen.KernelIdeal.Skeleton
import proofs.«113632_j80152679678507_2_alg».proof.Proof.Gen.KernelIdeal.Launch
import proofs.«113632_j80152679678507_2_alg».proof.Proof.Gen.KernelIdeal.Points
import proofs.«113632_j80152679678507_2_alg».proof.Proof.Gen.KernelIdeal.Frame
import proofs.«113632_j80152679678507_2_alg».proof.Proof.Gen.ReferenceIdeal
import proofs.«113632_j80152679678507_2_alg».proof.Proof.Gen.Pre_finite_inputs
import proofs.«113632_j80152679678507_2_alg».proof.Proof.Gen.ReferenceIdeal.Run
import proofs.«113632_j80152679678507_2_alg».proof.Proof.Gen.ReferenceIdeal.Read
import proofs.«113632_j80152679678507_2_alg».proof.Proof.Assembly
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts, Claims.frame_k, Claims.frame_ki, Claims.frame_ri, Claims.preserves, Claims.algebraic⟩

end Cert.Proof

end
